-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v122) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1 : Shape := ⟨2, ![50000, 1]⟩
abbrev S2x800000 : Shape := ⟨2, ![2, 800000]⟩
abbrev S128x1 : Shape := ⟨2, ![128, 1]⟩
abbrev S128 : Shape := ⟨1, ![128]⟩
abbrev S200x128 : Shape := ⟨2, ![200, 128]⟩
abbrev S128x128 : Shape := ⟨2, ![128, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S50000x1 : S_.BroadcastsInDim S50000x1 (![] : Fin 0 → Fin S50000x1.rank)
  reducesTo_S50000x1_S_d0_1 : S50000x1.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_
  bcast_S_S200x128 : S_.BroadcastsInDim S200x128 (![] : Fin 0 → Fin S200x128.rank)
  reducesTo_S200x128_S_d0_1 : S200x128.ReducesTo [0, 1] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S64 .f32) (main_arg16 : FVec F S1x64 .f32) (main_arg17 : FVec F S1 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S1x64 .f32 := Host.absf main_arg16
  let main_cst_28 : FVec F S_ .f32 := constant S_ .f32 0x7F800000#32
  let main_v75 : FVec F S1x64 .f32 := broadcastInDim S1x64 ![] bcast_S_S1x64 main_cst_28
  let main_v76 : IVec S1x64 1 := cmpf .olt main_v74 main_v75
  let main_c_29 : IVec S_ 1 := constantI S_ 1 1#1
  let main_v77 : IVec S_ 1 := (fun x v => Host.reduce IntOp.andi x v reducesTo_S1x64_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S128 .f32) (main_arg13 : FVec F S128x128 .f32) (main_arg14 : FVec F S64x128 .f32) (main_arg15 : FVec F S64 .f32) (main_arg16 : FVec F S1x64 .f32) (main_arg17 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S64x128 .f32 := Host.absf main_arg14
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg15 main_arg16 main_arg17 main_v63 main_v67

def fn_part2 {F : FTy → Type} [FloatOps F] (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S64x128 .f32) (main_arg15 : FVec F S64 .f32) (main_arg16 : FVec F S1x64 .f32) (main_arg17 : FVec F S1 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_v48 main_v49 main_v50

def fn_part1 {F : FTy → Type} [FloatOps F] (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S64x128 .f32) (main_arg15 : FVec F S64 .f32) (main_arg16 : FVec F S1x64 .f32) (main_arg17 : FVec F S1 .f32) (main_v13 : IVec S_ 1) (main_v16 : IVec S200x128 1) : IVec S_ 1 :=
  let main_c_5 : IVec S_ 1 := constantI S_ 1 1#1
  let main_v17 : IVec S_ 1 := (fun x v => Host.reduce IntOp.andi x v reducesTo_S200x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S50000x1 .f32) (main_arg1 : IVec S2x800000 32) (main_arg2 : FVec F S128x1 .f32) (main_arg3 : FVec F S128 .f32) (main_arg4 : FVec F S200x128 .f32) (main_arg5 : FVec F S128x128 .f32) (main_arg6 : FVec F S128 .f32) (main_arg7 : FVec F S128x128 .f32) (main_arg8 : FVec F S128x128 .f32) (main_arg9 : FVec F S128 .f32) (main_arg10 : FVec F S128x128 .f32) (main_arg11 : FVec F S128x128 .f32) (main_arg12 : FVec F S128 .f32) (main_arg13 : FVec F S128x128 .f32) (main_arg14 : FVec F S64x128 .f32) (main_arg15 : FVec F S64 .f32) (main_arg16 : FVec F S1x64 .f32) (main_arg17 : FVec F S1 .f32) : IVec S_ 1 :=
  let main_v0 : FVec F S50000x1 .f32 := Host.absf main_arg0
  let main_cst : FVec F S_ .f32 := constant S_ .f32 0x7F800000#32
  let main_v1 : FVec F S50000x1 .f32 := broadcastInDim S50000x1 ![] bcast_S_S50000x1 main_cst
  let main_v2 : IVec S50000x1 1 := cmpf .olt main_v0 main_v1
  let main_c : IVec S_ 1 := constantI S_ 1 1#1
  let main_v3 : IVec S_ 1 := (fun x v => Host.reduce IntOp.andi x v reducesTo_S50000x1_S_d0_1 h_S_) main_v2 main_c
  let main_v4 : FVec F S128x1 .f32 := Host.absf main_arg2
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S200x128 .f32 := Host.absf main_arg4
  let main_cst_4 : FVec F S_ .f32 := constant S_ .f32 0x7F800000#32
  let main_v15 : FVec F S200x128 .f32 := broadcastInDim S200x128 ![] bcast_S_S200x128 main_cst_4
  let main_v16 : IVec S200x128 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S50000x1 : Shape := ⟨2, ![50000, 1]⟩
abbrev S2x800000 : Shape := ⟨2, ![2, 800000]⟩
abbrev S128x1 : Shape := ⟨2, ![128, 1]⟩
abbrev S128 : Shape := ⟨1, ![128]⟩
abbrev S200x128 : Shape := ⟨2, ![200, 128]⟩
abbrev S128x128 : Shape := ⟨2, ![128, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S50000x128 : Shape := ⟨2, ![50000, 128]⟩
abbrev S2000x1 : Shape := ⟨2, ![2000, 1]⟩
abbrev S2000x128 : Shape := ⟨2, ![2000, 128]⟩
abbrev S2000x200 : Shape := ⟨2, ![2000, 200]⟩
abbrev S800000x128 : Shape := ⟨2, ![800000, 128]⟩
abbrev S1x1 : Shape := ⟨2, ![1, 1]⟩
abbrev S2000x64 : Shape := ⟨2, ![2000, 64]⟩
abbrev S2000 : Shape := ⟨1, ![2000]⟩
abbrev S1x50000 : Shape := ⟨2, ![1, 50000]⟩

abbrev nBuf : Space → Nat
  | .hbm => 110
  | .vmem => 50
  | .smem => 0
  | _ => 0

abbrev bufTy : (tb : Table) → Fin (tcTables nBuf tb) → BufTy
  | .hbm, ⟨0, _⟩ => ⟨S50000x1, .f32⟩
  | .hbm, ⟨1, _⟩ => ⟨S2x800000, .i32⟩
  | .hbm, ⟨2, _⟩ => ⟨S128x1, .f32⟩
  | .hbm, ⟨3, _⟩ => ⟨S128, .f32⟩
  | .hbm, ⟨4, _⟩ => ⟨S200x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S64x128, .f32⟩
  | .hbm, ⟨15, _⟩ => ⟨S64, .f32⟩
  | .hbm, ⟨16, _⟩ => ⟨S1x64, .f32⟩
  | .hbm, ⟨17, _⟩ => ⟨S1, .f32⟩
  | .hbm, ⟨18, _⟩ => ⟨S1x800000, .i32⟩
  | .hbm, ⟨19, _⟩ => ⟨S800000, .i32⟩
  | .hbm, ⟨20, _⟩ => ⟨S1x800000, .i32⟩
  | .hbm, ⟨21, _⟩ => ⟨S800000, .i32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .i32⟩
  | .hbm, ⟨29, _⟩ => ⟨S_, .i32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .i32⟩
  | .hbm, ⟨37, _⟩ => ⟨S50000x1, .i32⟩
  | .hbm, ⟨38, _⟩ => ⟨S_, .f32⟩
  | .hbm, ⟨39, _⟩ => ⟨S50000, .f32⟩
  | .hbm, ⟨40, _⟩ => ⟨S800000x1, .i32⟩
  | .hbm, ⟨41, _⟩ => ⟨S50000, .f32⟩
  | .hbm, ⟨42, _⟩ => ⟨S_, .f32⟩
  | .hbm, ⟨43, _⟩ => ⟨S50000, .f32⟩
  | .hbm, ⟨44, _⟩ => ⟨S50000, .f32⟩
  | .hbm, ⟨45, _⟩ => ⟨S_, .f32⟩
  | .hbm, ⟨46, _⟩ => ⟨S50000, .f32⟩
  | .hbm, ⟨47, _⟩ => ⟨S50000, .f32⟩
  | .hbm, ⟨48, _⟩ => ⟨S50000x1, .f32⟩
  | .hbm, ⟨49, _⟩ => ⟨S1x128, .f32⟩
  | .hbm, ⟨50, _⟩ => ⟨S1x128, .f32⟩
  | .hbm, ⟨51, _⟩ => ⟨S50000x128, .f32⟩
  | .hbm, ⟨52, _⟩ => ⟨S_, .f32⟩
  | .hbm, ⟨53, _⟩ => ⟨S50000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S_, .f32⟩
  | .hbm, ⟨64, _⟩ => ⟨S50000x128, .f32⟩
  | .hbm, ⟨65, _⟩ => ⟨S800000x1, .i32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S_, .i32⟩
  | .hbm, ⟨72, _⟩ => ⟨S800000, .i32⟩
  | .hbm, ⟨73, _⟩ => ⟨S800000, .i1⟩
  | .hbm, ⟨74, _⟩ => ⟨S_, .i32⟩
  | .hbm, ⟨75, _⟩ => ⟨S800000, .i32⟩
  | .hbm, ⟨76, _⟩ => ⟨S800000, .i32⟩
  | .hbm, ⟨77, _⟩ => ⟨S800000, .i32⟩
  | .hbm, ⟨78, _⟩ => ⟨S800000x1, .i32⟩
  | .hbm, ⟨79, _⟩ => ⟨S800000x128, .f32⟩
  | .hbm, ⟨80, _⟩ => ⟨S_, .f32⟩
  | .hbm, ⟨81, _⟩ => ⟨S50000x128, .f32⟩
  | .hbm, ⟨82, _⟩ => ⟨S800000x1, .i32⟩
  | .hbm, ⟨83, _⟩ => ⟨S50000x128, .f32⟩
  | .hbm, ⟨84, _⟩ => ⟨S50000x128, .f32⟩
  | .hbm, ⟨85, _⟩ => ⟨S50000x128, .f32⟩
  | .hbm, ⟨86, _⟩ => ⟨S1x128, .f32⟩
  | .hbm, ⟨87, _⟩ => ⟨S50000x128, .f32⟩
  | .hbm, ⟨88, _⟩ => ⟨S_, .i32⟩
  | .hbm, ⟨89, _⟩ => ⟨S800000, .i32⟩
  | .hbm, ⟨90, _⟩ => ⟨S800000, .i1⟩
  | .hbm, ⟨91, _⟩ => ⟨S_, .i32⟩
  | .hbm, ⟨92, _⟩ => ⟨S800000, .i32⟩
  | .hbm, ⟨93, _⟩ => ⟨S800000, .i32⟩
  | .hbm, ⟨94, _⟩ => ⟨S800000, .i32⟩
  | .hbm, ⟨95, _⟩ => ⟨S800000x1, .i32⟩
  | .hbm, ⟨96, _⟩ => ⟨S800000x128, .f32⟩
  | .hbm, ⟨97, _⟩ => ⟨S_, .f32⟩
  | .hbm, ⟨98, _⟩ => ⟨S50000x128, .f32⟩
  | .hbm, ⟨99, _⟩ => ⟨S800000x1, .i32⟩
  | .hbm, ⟨100, _⟩ => ⟨S50000x128, .f32⟩
  | .hbm, ⟨101, _⟩ => ⟨S50000x128, .f32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S1x64, .f32⟩
  | .hbm, ⟨106, _⟩ => ⟨S1x1, .f32⟩
  | .hbm, ⟨107, _⟩ => ⟨S50000x1, .f32⟩
  | .hbm, ⟨108, _⟩ => ⟨S50000, .f32⟩
  | .hbm, ⟨109, _⟩ => ⟨S1x50000, .f32⟩
  | .local _ .vmem, ⟨0, _⟩ => ⟨S2000x1, .f32⟩
  | .local _ .vmem, ⟨1, _⟩ => ⟨S2000x1, .f32⟩
  | .local _ .vmem, ⟨2, _⟩ => ⟨S1x128, .f32⟩
  | .local _ .vmem, ⟨3, _⟩ => ⟨S1x128, .f32⟩
  | .local _ .vmem, ⟨4, _⟩ => ⟨S200x128, .f32⟩
  | .local _ .vmem, ⟨5, _⟩ => ⟨S2000x1, .i32⟩
  | .local _ .vmem, ⟨6, _⟩ => ⟨S2000x1, .i32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S128x128, .f32⟩
  | .local _ .vmem, ⟨25, _⟩ => ⟨S1x128, .f32⟩
  | .local _ .vmem, ⟨26, _⟩ => ⟨S128x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S2000x128, .f32⟩
  | .local _ .vmem, ⟨33, _⟩ => ⟨S2000x128, .f32⟩
  | .local _ .vmem, ⟨34, _⟩ => ⟨S2000x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | .local _ .vmem, ⟨42, _⟩ => ⟨S2000x128, .f32⟩
  | .local _ .vmem, ⟨43, _⟩ => ⟨S2000x128, .f32⟩
  | .local _ .vmem, ⟨44, _⟩ => ⟨S64x128, .f32⟩
  | .local _ .vmem, ⟨45, _⟩ => ⟨S1x64, .f32⟩
  | .local _ .vmem, ⟨46, _⟩ => ⟨S1x64, .f32⟩
  | .local _ .vmem, ⟨47, _⟩ => ⟨S1x1, .f32⟩
  | .local _ .vmem, ⟨48, _⟩ => ⟨S2000x1, .f32⟩
  | .local _ .vmem, ⟨49, _⟩ => ⟨S2000x1, .f32⟩
  | _, _ => ⟨S50000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst_2 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_3 : Ref sig .tc := ⟨.hbm, 42, rfl⟩
abbrev main_v14 : Ref sig .tc := ⟨.hbm, 43, rfl⟩
abbrev main_v15 : Ref sig .tc := ⟨.hbm, 44, rfl⟩
abbrev main_cst_4 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_cst_5 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_c_7 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_8 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_9 : Ref sig .tc := ⟨.hbm, 71, rfl⟩
abbrev main_v37 : Ref sig .tc := ⟨.hbm, 72, rfl⟩
abbrev main_v38 : Ref sig .tc := ⟨.hbm, 73, rfl⟩
abbrev main_c_10 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_cst_11 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_c_12 : Ref sig .tc := ⟨.hbm, 88, rfl⟩
abbrev main_v51 : Ref sig .tc := ⟨.hbm, 89, rfl⟩
abbrev main_v52 : Ref sig .tc := ⟨.hbm, 90, rfl⟩
abbrev main_c_13 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_14 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg6_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc3_stg6_0 : Ref sig .tc := ⟨.vmem, 40, rfl⟩
abbrev cc3_stg6_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg5_1 : Ref sig .tc := ⟨.vmem, 49, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem6_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem5_1 : DmaSem sig := 28
abbrev cc2_sem6_0 : DmaSem sig := 29
abbrev cc2_sem6_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc3_sem6_0 : DmaSem sig := 40
abbrev cc3_sem6_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem4_0 : DmaSem sig := 47
abbrev cc4_sem5_0 : DmaSem sig := 48
abbrev cc4_sem5_1 : DmaSem sig := 49

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S200x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S128_S1x128 : S128.ShapeCasts S1x128
  shapeCasts_S128x1_S1x128 : S128x1.ShapeCasts S1x128
  inb_S2000x1_S2000x1_0_0 : ∀ a, (![0, 0] : Fin 2 → Nat) a + S2000x1.size a ≤ S2000x1.size a
  h_S2000x1 : 0 < S2000x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  shapeCasts_S2000x1_S2000x1 : S2000x1.ShapeCasts S2000x1
  iota_S2000x200_d1_w32 : S2000x200.Iotas .tc 32 [1]
  broadcasts_S2000x1_S2000x200 : S2000x1.Broadcasts S2000x200
  natLt_1_32 : 1 < 32
  bitsLt_bf16_f32 : FTy.bits .bf16 < FTy.bits .f32
  inb_S200x128_S200x128_0_0 : ∀ a, (![0, 0] : Fin 2 → Nat) a + S200x128.size a ≤ S200x128.size a
  h_S200x128 : 0 < S200x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S64_S1x64 : S64.ShapeCasts S1x64
  shapeCasts_S1_S1x1 : S1.ShapeCasts S1x1
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  shapeCasts_S50000x1_S50000 : S50000x1.ShapeCasts S50000
  bcast_S50000_S1x50000_1 : S50000.BroadcastsInDim S1x50000 (![1] : Fin 1 → Fin S1x50000.rank)
  scatter_S50000_S800000x1_S800000_n_0_0_1_wf : ScatterDims.WF S50000 S800000x1 S800000 [] [0] [0] 1
  dot_S2000x200_S200x128_S2000x128_1_0_0_1_n_n_wf : DotDims.WF S2000x200 S200x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_1_0_0_n_n_wf : DotDims.WF S2000x128 S128x128 S2000x128 [1] [1] [0] [0] [] []
  dot_S2000x128_S64x128_S2000x64_1_1_0_0_n_n_wf : DotDims.WF S2000x128 S64x128 S2000x64 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S50000x1.size a
  hwx0_0 : ∀ i : grid0.Coords, EltTy.bits .f32 = 32 ∨ (Rect.block (s := S50000x1) S2000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S200x128.size a ≤ S200x128.size a
  hwx0_3 : ∀ i : grid0.Coords, EltTy.bits .f32 = 32 ∨ (Rect.block (s := S200x128) S200x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x1.size a ≤ S50000x1.size a
  hwx0_4 : ∀ i : grid0.Coords, EltTy.bits .i32 = 32 ∨ (Rect.block (s := S50000x1) S2000x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x128.size a ≤ S50000x128.size a
  hwx2_6 : ∀ i : grid2.Coords, EltTy.bits .f32 = 32 ∨ (Rect.block (s := S50000x128) S2000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S50000x128.size a
  hwx3_5 : ∀ i : grid3.Coords, EltTy.bits .f32 = 32 ∨ (Rect.block (s := S50000x128) S2000x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x128.size a ≤ S50000x128.size a
  hwx3_6 : ∀ i : grid3.Coords, EltTy.bits .f32 = 32 ∨ (Rect.block (s := S50000x128) S2000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x1.size a ≤ S50000x1.size a
  hwx4_5 : ∀ i : grid4.Coords, EltTy.bits .f32 = 32 ∨ (Rect.block (s := S50000x1) S2000x1.size (cc4_transform_5 i) (hinb4_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x200_S200x128_S2000x128_1_0_0_1_n_n : DotDims S2000x200 S200x128 S2000x128 where
  lhsContracting := [1]
  rhsContracting := [0]
  lhsNonContracting := [0]
  rhsNonContracting := [1]
  lhsBatch := []
  rhsBatch := []
  wf := dot_S2000x200_S200x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def dot_S2000x128_S64x128_S2000x64_1_1_0_0_n_n : DotDims S2000x128 S64x128 S2000x64 where
  lhsContracting := [1]
  rhsContracting := [1]
  lhsNonContracting := [0]
  rhsNonContracting := [0]
  lhsBatch := []
  rhsBatch := []
  wf := dot_S2000x128_S64x128_S2000x64_1_1_0_0_n_n_wf

abbrev win0_0 : Pipeline.Window sig grid0 :=
  Pipeline.Window.ofSpec (Memref.whole main_arg0) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S200x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S2000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S2000x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v48) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S2000x128.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v50) S2000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v62) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v50) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v50) S2000x128.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v64) S2000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v64) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg14) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v65) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg16) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v66) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v67) S2000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S50000x1 : Shape := ⟨2, ![50000, 1]⟩
abbrev S2x800000 : Shape := ⟨2, ![2, 800000]⟩
abbrev S128x1 : Shape := ⟨2, ![128, 1]⟩
abbrev S128 : Shape := ⟨1, ![128]⟩
abbrev S200x128 : Shape := ⟨2, ![200, 128]⟩
abbrev S128x128 : Shape := ⟨2, ![128, 128]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S1x128 : Shape := ⟨2, ![1, 128]⟩
abbrev S50000x128 : Shape := ⟨2, ![50000, 128]⟩
abbrev S800000x128 : Shape := ⟨2, ![800000, 128]⟩
abbrev S128x64 : Shape := ⟨2, ![128, 64]⟩
abbrev S50000x64 : Shape := ⟨2, ![50000, 64]⟩
abbrev S64x1 : Shape := ⟨2, ![64, 1]⟩
abbrev S1x1 : Shape := ⟨2, ![1, 1]⟩
abbrev S1x50000 : Shape := ⟨2, ![1, 50000]⟩

abbrev nBuf : Space → Nat
  | .hbm => 180
  | .vmem => 0
  | .smem => 0
  | _ => 0

abbrev hbmTy0_0 (i : Nat) : BufTy := match i % 128 with
  | 0 => ⟨S50000x1, .f32⟩
  | 1 => ⟨S2x800000, .i32⟩
  | 2 => ⟨S128x1, .f32⟩
  | 3 => ⟨S128, .f32⟩
  | 4 => ⟨S200x128, .f32⟩
  | 5 => ⟨S128x128, .f32⟩
  | 6 => ⟨S128, .f32⟩
  | 7 => ⟨S128x128, .f32⟩
  | 8 => ⟨S128x128, .f32⟩
  | 9 => ⟨S128, .f32⟩
  | 10 => ⟨S128x128, .f32⟩
  | 11 => ⟨S128x128, .f32⟩
  | 12 => ⟨S128, .f32⟩
  | 13 => ⟨S128x128, .f32⟩
  | 14 => ⟨S64x128, .f32⟩
  | 15 => ⟨S64, .f32⟩
  | 16 => ⟨S1x64, .f32⟩
  | 17 => ⟨S1, .f32⟩
  | 18 => ⟨S1x800000, .i32⟩
  | 19 => ⟨S800000, .i32⟩
  | 20 => ⟨S1x800000, .i32⟩
  | 21 => ⟨S800000, .i32⟩
  | 22 => ⟨S_, .f32⟩
  | 23 => ⟨S800000, .f32⟩
  | 24 => ⟨S_, .f32⟩
  | 25 => ⟨S50000, .f32⟩
  | 26 => ⟨S800000x1, .i32⟩
  | 27 => ⟨S50000, .f32⟩
  | 28 => ⟨S_, .i32⟩
  | 29 => ⟨S_, .i32⟩
  | 30 => ⟨S_, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000, .i32⟩
  | 37 => ⟨S1x128, .f32⟩
  | 38 => ⟨S50000x128, .f32⟩
  | 39 => ⟨S1x128, .f32⟩
  | 40 => ⟨S50000x128, .f32⟩
  | 41 => ⟨S50000x128, .f32⟩
  | 42 => ⟨S_, .i32⟩
  | 43 => ⟨S50000, .i32⟩
  | 44 => ⟨S50000, .i1⟩
  | 45 => ⟨S_, .i32⟩
  | 46 => ⟨S50000, .i32⟩
  | 47 => ⟨S50000, .i32⟩
  | 48 => ⟨S50000, .i32⟩
  | 49 => ⟨S50000x1, .i32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x128, .f32⟩
  | 64 => ⟨S_, .f32⟩
  | 65 => ⟨S50000x128, .f32⟩
  | 66 => ⟨S800000x1, .i32⟩
  | 67 => ⟨S50000x128, .f32⟩
  | 68 => ⟨S_, .f32⟩
  | 69 => ⟨S800000, .f32⟩
  | 70 => ⟨S_, .f32⟩
  | 71 => ⟨S50000, .f32⟩
  | 72 => ⟨S800000x1, .i32⟩
  | 73 => ⟨S50000, .f32⟩
  | 74 => ⟨S_, .f32⟩
  | 75 => ⟨S50000, .f32⟩
  | 76 => ⟨S50000, .f32⟩
  | 77 => ⟨S50000x1, .f32⟩
  | 78 => ⟨S50000x128, .f32⟩
  | 79 => ⟨S50000x128, .f32⟩
  | 80 => ⟨S128x128, .f32⟩
  | 81 => ⟨S50000x128, .f32⟩
  | 82 => ⟨S1x128, .f32⟩
  | 83 => ⟨S50000x128, .f32⟩
  | 84 => ⟨S50000x128, .f32⟩
  | 85 => ⟨S128x128, .f32⟩
  | 86 => ⟨S50000x128, .f32⟩
  | 87 => ⟨S50000x128, .f32⟩
  | 88 => ⟨S_, .f32⟩
  | 89 => ⟨S50000x128, .f32⟩
  | 90 => ⟨S50000x128, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x128, .f32⟩
  | 100 => ⟨S_, .f32⟩
  | 101 => ⟨S50000x128, .f32⟩
  | 102 => ⟨S800000x1, .i32⟩
  | 103 => ⟨S50000x128, .f32⟩
  | 104 => ⟨S_, .f32⟩
  | 105 => ⟨S800000, .f32⟩
  | 106 => ⟨S_, .f32⟩
  | 107 => ⟨S50000, .f32⟩
  | 108 => ⟨S800000x1, .i32⟩
  | 109 => ⟨S50000, .f32⟩
  | 110 => ⟨S_, .f32⟩
  | 111 => ⟨S50000, .f32⟩
  | 112 => ⟨S50000, .f32⟩
  | 113 => ⟨S50000x1, .f32⟩
  | 114 => ⟨S50000x128, .f32⟩
  | 115 => ⟨S50000x128, .f32⟩
  | 116 => ⟨S128x128, .f32⟩
  | 117 => ⟨S50000x128, .f32⟩
  | 118 => ⟨S1x128, .f32⟩
  | 119 => ⟨S50000x128, .f32⟩
  | 120 => ⟨S50000x128, .f32⟩
  | 121 => ⟨S128x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x1, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x128, .f32⟩
  | 9 => ⟨S_, .f32⟩
  | 10 => ⟨S50000x128, .f32⟩
  | 11 => ⟨S800000x1, .i32⟩
  | 12 => ⟨S50000x128, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x128, .f32⟩
  | 24 => ⟨S50000x128, .f32⟩
  | 25 => ⟨S128x128, .f32⟩
  | 26 => ⟨S50000x128, .f32⟩
  | 27 => ⟨S1x128, .f32⟩
  | 28 => ⟨S50000x128, .f32⟩
  | 29 => ⟨S50000x128, .f32⟩
  | 30 => ⟨S128x128, .f32⟩
  | 31 => ⟨S50000x128, .f32⟩
  | 32 => ⟨S50000x128, .f32⟩
  | 33 => ⟨S_, .f32⟩
  | 34 => ⟨S50000x128, .f32⟩
  | 35 => ⟨S50000x128, .f32⟩
  | 36 => ⟨S50000x128, .f32⟩
  | 37 => ⟨S128x64, .f32⟩
  | 38 => ⟨S50000x64, .f32⟩
  | 39 => ⟨S1x64, .f32⟩
  | 40 => ⟨S50000x64, .f32⟩
  | 41 => ⟨S50000x64, .f32⟩
  | 42 => ⟨S_, .f32⟩
  | 43 => ⟨S50000x64, .f32⟩
  | 44 => ⟨S50000x64, .f32⟩
  | 45 => ⟨S64x1, .f32⟩
  | 46 => ⟨S50000x1, .f32⟩
  | 47 => ⟨S1x1, .f32⟩
  | 48 => ⟨S50000x1, .f32⟩
  | 49 => ⟨S50000x1, .f32⟩
  | 50 => ⟨S50000, .f32⟩
  | 51 => ⟨S1x50000, .f32⟩
  | _ => ⟨S50000x1, .f32⟩

abbrev hbmTy (i : Nat) : BufTy := match i / 128 with
  | 0 => hbmTy0_0 i
  | 1 => hbmTy0_1 i
  | _ => ⟨S50000x1, .f32⟩

abbrev bufTy : (tb : Table) → Fin (tcTables nBuf tb) → BufTy
  | .hbm, ⟨i, _⟩ => hbmTy i
  | _, _ => ⟨S50000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_cst : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_c : Ref sig .tc := ⟨.hbm, 28, rfl⟩
abbrev main_c_1 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_c_2 : Ref sig .tc := ⟨.hbm, 42, rfl⟩
abbrev main_v15 : Ref sig .tc := ⟨.hbm, 43, rfl⟩
abbrev main_v16 : Ref sig .tc := ⟨.hbm, 44, rfl⟩
abbrev main_c_3 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_call1_cst : Ref sig .tc := ⟨.hbm, 52, rfl⟩
abbrev main_call1_v0 : Ref sig .tc := ⟨.hbm, 53, rfl⟩
abbrev main_v23 : Ref sig .tc := ⟨.hbm, 54, rfl⟩
abbrev main_c_4 : Ref sig .tc := ⟨.hbm, 55, rfl⟩
abbrev main_v24 : Ref sig .tc := ⟨.hbm, 56, rfl⟩
abbrev main_v25 : Ref sig .tc := ⟨.hbm, 57, rfl⟩
abbrev main_c_5 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_6 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_cst_7 : Ref sig .tc := ⟨.hbm, 68, rfl⟩
abbrev main_v34 : Ref sig .tc := ⟨.hbm, 69, rfl⟩
abbrev main_cst_8 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_9 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_call2_cst : Ref sig .tc := ⟨.hbm, 88, rfl⟩
abbrev main_call2_v0 : Ref sig .tc := ⟨.hbm, 89, rfl⟩
abbrev main_v51 : Ref sig .tc := ⟨.hbm, 90, rfl⟩
abbrev main_c_10 : Ref sig .tc := ⟨.hbm, 91, rfl⟩
abbrev main_v52 : Ref sig .tc := ⟨.hbm, 92, rfl⟩
abbrev main_v53 : Ref sig .tc := ⟨.hbm, 93, rfl⟩
abbrev main_c_11 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_cst_12 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_cst_13 : Ref sig .tc := ⟨.hbm, 104, rfl⟩
abbrev main_v62 : Ref sig .tc := ⟨.hbm, 105, rfl⟩
abbrev main_cst_14 : Ref sig .tc := ⟨.hbm, 106, rfl⟩
abbrev main_v63 : Ref sig .tc := ⟨.hbm, 107, rfl⟩
abbrev main_v64 : Ref sig .tc := ⟨.hbm, 108, rfl⟩
abbrev main_v65 : Ref sig .tc := ⟨.hbm, 109, rfl⟩
abbrev main_cst_15 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_call3_cst : Ref sig .tc := ⟨.hbm, 124, rfl⟩
abbrev main_call3_v0 : Ref sig .tc := ⟨.hbm, 125, rfl⟩
abbrev main_v79 : Ref sig .tc := ⟨.hbm, 126, rfl⟩
abbrev main_v80 : Ref sig .tc := ⟨.hbm, 127, rfl⟩
abbrev main_c_16 : Ref sig .tc := ⟨.hbm, 128, rfl⟩
abbrev main_v81 : Ref sig .tc := ⟨.hbm, 129, rfl⟩
abbrev main_v82 : Ref sig .tc := ⟨.hbm, 130, rfl⟩
abbrev main_c_17 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_cst_18 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_cst_19 : Ref sig .tc := ⟨.hbm, 141, rfl⟩
abbrev main_v91 : Ref sig .tc := ⟨.hbm, 142, rfl⟩
abbrev main_cst_20 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_cst_21 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_call4_cst : Ref sig .tc := ⟨.hbm, 161, rfl⟩
abbrev main_call4_v0 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_call5_cst : Ref sig .tc := ⟨.hbm, 170, rfl⟩
abbrev main_call5_v0 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  transposes_S128x1_S1x128_1_0 : S128x1.Transposes [1, 0] S1x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S50000_S50000x1_0 : S50000.BroadcastsInDim S50000x1 (![0] : Fin 1 → Fin S50000x1.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  transposes_S128x128_S128x128_1_0 : S128x128.Transposes [1, 0] S128x128
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  transposes_S1x64_S64x1_1_0 : S1x64.Transposes [1, 0] S64x1
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  bcast_S50000_S1x50000_1 : S50000.BroadcastsInDim S1x50000 (![1] : Fin 1 → Fin S1x50000.rank)
  scatter_S50000_S800000x1_S800000_n_0_0_1_wf : ScatterDims.WF S50000 S800000x1 S800000 [] [0] [0] 1
  dot_S50000x1_S1x128_S50000x128_1_0_0_1_n_n_wf : DotDims.WF S50000x1 S1x128 S50000x128 [1] [0] [0] [1] [] []
  gather_S200x128_S50000x1_S50000x128_1_0_n_n_0_1_1128_wf : GatherDims.WF S200x128 S50000x1 S50000x128 [1] [0] [] [0] [] 1 ![1, 128]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  dot_S50000x64_S64x1_S50000x1_1_0_0_1_n_n_wf : DotDims.WF S50000x64 S64x1 S50000x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x1_S1x128_S50000x128_1_0_0_1_n_n : DotDims S50000x1 S1x128 S50000x128 where
  lhsContracting := [1]
  rhsContracting := [0]
  lhsNonContracting := [0]
  rhsNonContracting := [1]
  lhsBatch := []
  rhsBatch := []
  wf := dot_S50000x1_S1x128_S50000x128_1_0_0_1_n_n_wf
def gather_S200x128_S50000x1_S50000x128_1_0_n_n_0_1_1128 : GatherDims S200x128 S50000x1 S50000x128 where
  offsetDims := [1]
  collapsedSliceDims := [0]
  operandBatchingDims := []
  startIndicesBatchingDims := []
  startIndexMap := [0]
  indexVectorDim := 1
  sliceSizes := ![1, 128]
  wf := gather_S200x128_S50000x1_S50000x128_1_0_n_n_0_1_1128_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x1_S50000x1_1_0_0_1_n_n : DotDims S50000x64 S64x1 S50000x1 where
  lhsContracting := [1]
  rhsContracting := [0]
  lhsNonContracting := [0]
  rhsNonContracting := [1]
  lhsBatch := []
  rhsBatch := []
  wf := dot_S50000x64_S64x1_S50000x1_1_0_0_1_n_n_wf

class Facts : Prop extends Facts₀ where

variable [Facts]
-- ==== Proof.KRegion0.lean ====
/-
  The first launch: the node encoder, one grid point per tile of 2000 nodes (25 tiles).

  At a tile the body reads the tile's 2000 scalar features, the 128 encoder weights, the 128 biases, the
  whole 200 x 128 degree table and the tile's 2000 clipped degrees, and overwrites the tile's 2000 x 128
  block of the output with

      max( x_n * w_j + b_j + sum_d [deg_n = d] * table_{d j} , 0 ).

  Nothing is carried from one tile to the next: the block a tile leaves is one function of the blocks it
  reads.  This module says so for the memory operations only — which buffers are read, which one is
  overwritten whole, and with which function of what was read — at any float instance; the arithmetic
  itself stays folded in the body's one stored value.
-/
import proofs.«143383_j87711822119113_2_alg».proof.Proof.Gen.Kernel.Launch
import proofs.«143383_j87711822119113_2_alg».proof.Proof.Gen.Kernel.Skeleton
import proofs.«143383_j87711822119113_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of the unscoped buffers when the launch is entered
variable (V : (c : Dev nD) → (b : Ref sig .tc) → Buf (Elt F) ((c : Thread nD τ).loc b))

/-- The block of window `w` that tile `t` sees: the window's rectangle at `t` read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every tile, whether the tile fetched it or found it in place: a window
    that is not fetched at a tile has the same block index as at the tile before, so the same block.  One
    statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

abbrev r0_S2000x1 : Rect S2000x1 := Rect.unit (s := S2000x1) ![0, 0] S2000x1.size inb_S2000x1_S2000x1_0_0
abbrev r0_S1x128 : Rect S1x128 := Rect.unit (s := S1x128) ![0, 0] S1x128.size inb_S1x128_S1x128_0_0
abbrev r0_S200x128 : Rect S200x128 := Rect.unit (s := S200x128) ![0, 0] S200x128.size inb_S200x128_S200x128_0_0
abbrev r0_S2000x128 : Rect S2000x128 := Rect.unit (s := S2000x128) ![0, 0] S2000x128.size inb_S2000x128_S2000x128_0_0

/-- The output block after the body: its one store covers the whole block with the body's value of the
    blocks read. -/
def out0 (x0 : Vec F S2000x1 .f32) (x1 : Vec F S1x128 .f32) (x2 : Vec F S1x128 .f32) (x3 : Vec F S200x128 .f32) (x4 : Vec F S2000x1 .i32) : Vec F S2000x128 .f32 :=
  View.canon [⟨r0_S2000x128, k0_pay1 (View.ld x0 r0_S2000x1) (View.ld x1 r0_S1x128) (View.ld x4 r0_S2000x1) (View.ld x3 r0_S200x128) (View.ld x2 r0_S1x128)⟩]

/-- The one stored rectangle is the whole block. -/
theorem cover0 (p : Vec F S2000x128 .f32) (y : S2000x128.Idx) :
    ∃ pc ∈ ([⟨r0_S2000x128, p⟩] : List (View.Piece (Elt F) S2000x128 .f32)), y ∈ pc.1.set :=
  View.cover_of_tiled [⟨r0_S2000x128, p⟩] S2000x128.size (by rfl) y

/-! ## The body's triple -/

set_option maxHeartbeats 2000000 in
/-- Run on whole staging buffers — the inputs at known contents, the output at anything — the body terminates
    without a fault, leaves the inputs as they were and the output at `out0` of the inputs.  (It also reads the
    output buffer once before overwriting it; the value read is not used.) -/
theorem sound_kernel0 (c : Dev nD) (E : Set ℕ) (i : grid0.Coords)
    (arg1 : Memref sig .tc .vmem S2000x1 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S200x128 .f32) (harg4 : arg4.IsWhole) (arg5 : Memref sig .tc .vmem S2000x1 .i32) (harg5 : arg5.IsWhole) (arg6 : Memref sig .tc .vmem S2000x128 .f32) (harg6 : arg6.IsWhole)
    (x0 : Vec F S2000x1 .f32) (x1 : Vec F S1x128 .f32) (x2 : Vec F S1x128 .f32) (x3 : Vec F S200x128 .f32) (x4 : Vec F S2000x1 .i32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0 x0 x1 x2 x3 x4)) -∗ K ⟨⟩))
      ⊢ wp frame (wpE (defs₀ (F := F)) Variants.none c none) E (cc0__encode_kernel i arg1 harg1 arg2 harg2 arg3 harg3 arg4 harg4 arg5 harg5 arg6 harg6) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover0 _)

/-! ## The proof data: what every window's buffer holds after the body, tile by tile -/

/-- The arrays as the launch finds them; after the body at tile `t` every input's buffer still at its block and the
    output's at the body's value of the input blocks; the scoped buffers and the generator register untouched; nothing
    owed to another core; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body at a tile -/

/-- What the body is called with at tile `t`: the invariant, the core's dues, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any tile the input buffers hold their blocks, so the body's triple applies; the invariant and the dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorems, at every tile. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1.lean ====
/-
  Launch 1: the dense step of graph layer one (its residual block is all zeros), one grid point per tile of 2000 nodes (25 tiles).

  At a tile the body reads the tile's 2000 x 128 block of neighbour means, its 2000 x 128 block of node
  states, the two 128 x 128 weight matrices, the 128 biases and the tile's 2000 x 128 residual block, and
  overwrites the tile's 2000 x 128 block of the output with

      max( sum_k mean_{n k} * Wl_{j k}  +  b_j  +  sum_k state_{n k} * Wr_{j k} , 0 )  +  residual_{n j}.

  Nothing is carried from one tile to the next: the block a tile leaves is one function of the blocks it
  reads.  This module says so for the memory operations only — which buffers are read, which one is
  overwritten whole, and with which function of what was read — at any float instance; the arithmetic
  itself stays folded in the body's one stored value.
-/
import proofs.«143383_j87711822119113_2_alg».proof.Proof.Gen.Kernel.Launch
import proofs.«143383_j87711822119113_2_alg».proof.Proof.Gen.Kernel.Skeleton
import proofs.«143383_j87711822119113_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the contents of the unscoped buffers when the launch is entered
variable (V : (c : Dev nD) → (b : Ref sig .tc) → Buf (Elt F) ((c : Thread nD τ).loc b))

/-- The block of window `w` that tile `t` sees: the window's rectangle at `t` read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every tile, whether the tile fetched it or found it in place: a window
    that is not fetched at a tile has the same block index as at the tile before, so the same block.  One
    statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes -/

abbrev r1_S2000x128 : Rect S2000x128 := Rect.unit (s := S2000x128) ![0, 0] S2000x128.size inb_S2000x128_S2000x128_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0

/-- The output block after the body: its one store covers the whole block with the body's value of the
    blocks read. -/
def out1 (x0 : Vec F S2000x128 .f32) (x1 : Vec F S2000x128 .f32) (x2 : Vec F S128x128 .f32) (x3 : Vec F S1x128 .f32) (x4 : Vec F S128x128 .f32) (x5 : Vec F S2000x128 .f32) : Vec F S2000x128 .f32 :=
  View.canon [⟨r1_S2000x128, k1_pay1 (View.ld x0 r1_S2000x128) (View.ld x1 r1_S2000x128) (View.ld x2 r1_S128x128) (View.ld x4 r1_S128x128) (View.ld x3 r1_S1x128) (View.ld x5 r1_S2000x128)⟩]

/-- The one stored rectangle is the whole block. -/
theorem cover1 (p : Vec F S2000x128 .f32) (y : S2000x128.Idx) :
    ∃ pc ∈ ([⟨r1_S2000x128, p⟩] : List (View.Piece (Elt F) S2000x128 .f32)), y ∈ pc.1.set :=
  View.cover_of_tiled [⟨r1_S2000x128, p⟩] S2000x128.size (by rfl) y

/-! ## The body's triple -/

set_option maxHeartbeats 2000000 in
/-- Run on whole staging buffers — the inputs at known contents, the output at anything — the body terminates
    without a fault, leaves the inputs as they were and the output at `out1` of the inputs.  (It also reads the
    output buffer once before overwriting it; the value read is not used.) -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S2000x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1 x0 x1 x2 x3 x4 x5)) -∗ K ⟨⟩))
      ⊢ wp frame (wpE (defs₀ (F := F)) Variants.none c none) E (cc1__sage_kernel i arg1 harg1 arg2 harg2 arg3 harg3 arg4 harg4 arg5 harg5 arg6 harg6 arg7 harg7) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover1 _)

/-! ## The proof data: what every window's buffer holds after the body, tile by tile -/

/-- The arrays as the launch finds them; after the body at tile `t` every input's buffer still at its block and the
    output's at the body's value of the input blocks; the scoped buffers and the generator register untouched; nothing
    owed to another core; every array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body at a tile -/

/-- What the body is called with at tile `t`: the invariant, the core's dues, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- At any tile the input buffers hold their blocks, so the body's triple applies; the invariant and the dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the launch theorems, at every tile. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRegion2.lean ====
/-
  Launch 2: the dense step of graph layer two (the residual is the layer's own input states), one grid point per tile of 2000 nodes (25 tiles).

  At a tile the body reads the tile's 2000 x 128 block of neighbour means, its 2000 x 128 block of node
  states, the two 128 x 128 weight matrices, the 128 biases and the tile's 2000 x 128 residual block, and
  overwrites the tile's 2000 x 128 block of the output with

      max( sum_k mean_{n k} * Wl_{j k}  +  b_j  +  sum_k state_{n k} * Wr_{j k} , 0 )  +  residual_{n j}.

  Nothing is carried from one tile to the next: the block a tile leaves is one function of the blocks it
  reads.  This module says so for the memory operations only — which buffers are read, which one is
  overwritten whole, and with which function of what was read — at any float instance; the arithmetic
  itself stays folded in the body's one stored value.
-/
import proofs.«143383_j87711822119113_2_alg».proof.Proof.Gen.Kernel.Launch
import proofs.«143383_j87711822119113_2_alg».proof.Proof.Gen.Kernel.Skeleton
import proofs.«143383_j87711822119113_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the contents of the unscoped buffers when the launch is entered
variable (V : (c : Dev nD) → (b : Ref sig .tc) → Buf (Elt F) ((c : Thread nD τ).loc b))

/-- The block of window `w` that tile `t` sees: the window's rectangle at `t` read off its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window holds its block at every tile, whether the tile fetched it or found it in place: a window
    that is not fetched at a tile has the same block index as at the tile before, so the same block.  One
    statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body reads and writes -/

abbrev r2_S2000x128 : Rect S2000x128 := Rect.unit (s := S2000x128) ![0, 0] S2000x128.size inb_S2000x128_S2000x128_0_0
abbrev r2_S128x128 : Rect S128x128 := Rect.unit (s := S128x128) ![0, 0] S128x128.size inb_S128x128_S128x128_0_0
abbrev r2_S1x128 : Rect S1x128 := Rect.unit (s := S1x128) ![0, 0] S1x128.size inb_S1x128_S1x128_0_0

/-- The output block after the body: its one store covers the whole block with the body's value of the
    blocks read. -/
def out2 (x0 : Vec F S2000x128 .f32) (x1 : Vec F S2000x128 .f32) (x2 : Vec F S128x128 .f32) (x3 : Vec F S1x128 .f32) (x4 : Vec F S128x128 .f32) (x5 : Vec F S2000x128 .f32) : Vec F S2000x128 .f32 :=
  View.canon [⟨r2_S2000x128, k2_pay1 (View.ld x0 r2_S2000x128) (View.ld x1 r2_S2000x128) (View.ld x2 r2_S128x128) (View.ld x4 r2_S128x128) (View.ld x3 r2_S1x128) (View.ld x5 r2_S2000x128)⟩]

/-- The one stored rectangle is the whole block. -/
theorem cover2 (p : Vec F S2000x128 .f32) (y : S2000x128.Idx) :
    ∃ pc ∈ ([⟨r2_S2000x128, p⟩] : List (View.Piece (Elt F) S2000x128 .f32)), y ∈ pc.1.set :=
  View.cover_of_tiled [⟨r2_S2000x128, p⟩] S2000x128.size (by rfl) y

/-! ## The body's triple -/

set_option maxHeartbeats 2000000 in
/-- Run on whole staging buffers — the inputs at known contents, the output at anything — the body terminates
    without a fault, leaves the inputs as they were and the output at `out2` of the inputs.  (It also reads the
    output buffer once before overwriting it; the value read is not used.) -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S2000x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2 x0 x1 x2 x3 x4 x5)) -∗ K ⟨⟩))
      ⊢ wp frame (wpE (defs₀ (F := F)) Variants.none c none) E (cc2__sage_kernel i arg1 harg1 arg2 harg2 arg3 harg3 arg4 harg4 arg5 harg5 arg6 harg6 arg7 harg7) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover2 _)

/-! ## The proof data: what every window's buffer holds after the body, tile by tile -/

/-- The arrays as the launch finds them; after the body at tile `t` every input's buffer still at its block and the
    output's at the body's value of the input blocks; the scoped buffers and the generator register untouched; nothing
    owed to another core; every array held whole, except the one array two windows sit on (the node states and
    the residual), which each of the two holds half of. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := Pipeline.ΦA spec2 c
  q w := match w with
    | ⟨1, _⟩ => fullShare.left
    | ⟨5, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body at a tile -/

/-- What the body is called with at tile `t`: the invariant, the core's dues, every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- At any tile the input buffers hold their blocks, so the body's triple applies; the invariant and the dues
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the launch theorems, at every tile. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.KRegion3.lean ====
/-
  Launch 3: the dense step of graph layer three (the residual is the layer's own input states), one grid point per tile of 2000 nodes (25 tiles).

  At a tile the body reads the tile's 2000 x 128 block of neighbour means, its 2000 x 128 block of node
  states, the two 128 x 128 weight matrices, the 128 biases and the tile's 2000 x 128 residual block, and
  overwrites the tile's 2000 x 128 block of the output with

      max( sum_k mean_{n k} * Wl_{j k}  +  b_j  +  sum_k state_{n k} * Wr_{j k} , 0 )  +  residual_{n j}.

  Nothing is carried from one tile to the next: the block a tile leaves is one function of the blocks it
  reads.  This module says so for the memory operations only — which buffers are read, which one is
  overwritten whole, and with which function of what was read — at any float instance; the arithmetic
  itself stays folded in the body's one stored value.
-/
import proofs.«143383_j87711822119113_2_alg».proof.Proof.Gen.Kernel.Launch
import proofs.«143383_j87711822119113_2_alg».proof.Proof.Gen.Kernel.Skeleton
import proofs.«143383_j87711822119113_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

-- the contents of the unscoped buffers when the launch is entered
variable (V : (c : Dev nD) → (b : Ref sig .tc) → Buf (Elt F) ((c : Thread nD τ).loc b))

/-- The block of window `w` that tile `t` sees: the window's rectangle at `t` read off its array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window holds its block at every tile, whether the tile fetched it or found it in place: a window
    that is not fetched at a tile has the same block index as at the tile before, so the same block.  One
    statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## What the body reads and writes -/

abbrev r3_S2000x128 : Rect S2000x128 := Rect.unit (s := S2000x128) ![0, 0] S2000x128.size inb_S2000x128_S2000x128_0_0
abbrev r3_S128x128 : Rect S128x128 := Rect.unit (s := S128x128) ![0, 0] S128x128.size inb_S128x128_S128x128_0_0
abbrev r3_S1x128 : Rect S1x128 := Rect.unit (s := S1x128) ![0, 0] S1x128.size inb_S1x128_S1x128_0_0

/-- The output block after the body: its one store covers the whole block with the body's value of the
    blocks read. -/
def out3 (x0 : Vec F S2000x128 .f32) (x1 : Vec F S2000x128 .f32) (x2 : Vec F S128x128 .f32) (x3 : Vec F S1x128 .f32) (x4 : Vec F S128x128 .f32) (x5 : Vec F S2000x128 .f32) : Vec F S2000x128 .f32 :=
  View.canon [⟨r3_S2000x128, k3_pay1 (View.ld x0 r3_S2000x128) (View.ld x1 r3_S2000x128) (View.ld x2 r3_S128x128) (View.ld x4 r3_S128x128) (View.ld x3 r3_S1x128) (View.ld x5 r3_S2000x128)⟩]

/-- The one stored rectangle is the whole block. -/
theorem cover3 (p : Vec F S2000x128 .f32) (y : S2000x128.Idx) :
    ∃ pc ∈ ([⟨r3_S2000x128, p⟩] : List (View.Piece (Elt F) S2000x128 .f32)), y ∈ pc.1.set :=
  View.cover_of_tiled [⟨r3_S2000x128, p⟩] S2000x128.size (by rfl) y

/-! ## The body's triple -/

set_option maxHeartbeats 2000000 in
/-- Run on whole staging buffers — the inputs at known contents, the output at anything — the body terminates
    without a fault, leaves the inputs as they were and the output at `out3` of the inputs.  (It also reads the
    output buffer once before overwriting it; the value read is not used.) -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S2000x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3 x0 x1 x2 x3 x4 x5)) -∗ K ⟨⟩))
      ⊢ wp frame (wpE (defs₀ (F := F)) Variants.none c none) E (cc3__sage_kernel i arg1 harg1 arg2 harg2 arg3 harg3 arg4 harg4 arg5 harg5 arg6 harg6 arg7 harg7) K := by
  simp only [cc3__sage_kernel_eq_skeleton]; unfold cc3__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover3 _)

/-! ## The proof data: what every window's buffer holds after the body, tile by tile -/

/-- The arrays as the launch finds them; after the body at tile `t` every input's buffer still at its block and the
    output's at the body's value of the input blocks; the scoped buffers and the generator register untouched; nothing
    owed to another core; every array held whole, except the one array two windows sit on (the node states and
    the residual), which each of the two holds half of. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q w := match w with
    | ⟨1, _⟩ => fullShare.left
    | ⟨5, _⟩ => fullShare.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body at a tile -/

/-- What the body is called with at tile `t`: the invariant, the core's dues, every window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- At any tile the input buffers hold their blocks, so the body's triple applies; the invariant and the dues
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the launch theorems, at every tile. -/
theorem body_obligation3 (c : Dev nD) : BodyObligation (dat3 (F := F) V c) (defs₀ (F := F)) Variants.none () Set.univ := fun t => by
  rw [bigSep_W3, bigSep_W3]
  exact sound_body3 V c t

end Region3

end Cert.Kernel.Hand

end
-- ==== Proof.KRegion4.lean ====
/-
  The last launch: the two-layer read-out, one grid point per tile of 2000 nodes (25 tiles).

  At a tile the body reads the tile's 2000 x 128 block of final node states, the 64 x 128 hidden weights,
  the 64 hidden biases, the 64 output weights and the one output bias, and overwrites the tile's 2000 x 1
  block of the output with

      sum_k max( sum_l state_{n l} * W1_{k l} + b1_k , 0 ) * w2_k  +  b2.

  Nothing is carried from one tile to the next: the block a tile leaves is one function of the blocks it
  reads.  This module says so for the memory operations only — which buffers are read, which one is
  overwritten whole, and with which function of what was read — at any float instance; the arithmetic
  itself stays folded in the body's one stored value.
-/
import proofs.«143383_j87711822119113_2_alg».proof.Proof.Gen.Kernel.Launch
import proofs.«143383_j87711822119113_2_alg».proof.Proof.Gen.Kernel.Skeleton
import proofs.«143383_j87711822119113_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

-- the contents of the unscoped buffers when the launch is entered
variable (V : (c : Dev nD) → (b : Ref sig .tc) → Buf (Elt F) ((c : Thread nD τ).loc b))

/-- The block of window `w` that tile `t` sees: the window's rectangle at `t` read off its array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window holds its block at every tile, whether the tile fetched it or found it in place: a window
    that is not fetched at a tile has the same block index as at the tile before, so the same block.  One
    statement per input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## What the body reads and writes -/

abbrev r4_S2000x128 : Rect S2000x128 := Rect.unit (s := S2000x128) ![0, 0] S2000x128.size inb_S2000x128_S2000x128_0_0
abbrev r4_S64x128 : Rect S64x128 := Rect.unit (s := S64x128) ![0, 0] S64x128.size inb_S64x128_S64x128_0_0
abbrev r4_S1x64 : Rect S1x64 := Rect.unit (s := S1x64) ![0, 0] S1x64.size inb_S1x64_S1x64_0_0
abbrev r4_S1x1 : Rect S1x1 := Rect.unit (s := S1x1) ![0, 0] S1x1.size inb_S1x1_S1x1_0_0
abbrev r4_S2000x1 : Rect S2000x1 := Rect.unit (s := S2000x1) ![0, 0] S2000x1.size inb_S2000x1_S2000x1_0_0

/-- The output block after the body: its one store covers the whole block with the body's value of the
    blocks read. -/
def out4 (x0 : Vec F S2000x128 .f32) (x1 : Vec F S64x128 .f32) (x2 : Vec F S1x64 .f32) (x3 : Vec F S1x64 .f32) (x4 : Vec F S1x1 .f32) : Vec F S2000x1 .f32 :=
  View.canon [⟨r4_S2000x1, k4_pay1 (View.ld x0 r4_S2000x128) (View.ld x1 r4_S64x128) (View.ld x2 r4_S1x64) (View.ld x3 r4_S1x64) (View.ld x4 r4_S1x1)⟩]

/-- The one stored rectangle is the whole block. -/
theorem cover4 (p : Vec F S2000x1 .f32) (y : S2000x1.Idx) :
    ∃ pc ∈ ([⟨r4_S2000x1, p⟩] : List (View.Piece (Elt F) S2000x1 .f32)), y ∈ pc.1.set :=
  View.cover_of_tiled [⟨r4_S2000x1, p⟩] S2000x1.size (by rfl) y

/-! ## The body's triple -/

set_option maxHeartbeats 2000000 in
/-- Run on whole staging buffers — the inputs at known contents, the output at anything — the body terminates
    without a fault, leaves the inputs as they were and the output at `out4` of the inputs.  (It also reads the
    output buffer once before overwriting it; the value read is not used.) -/
theorem sound_kernel4 (c : Dev nD) (E : Set ℕ) (i : grid4.Coords)
    (arg1 : Memref sig .tc .vmem S2000x128 .f32) (harg1 : arg1.IsWhole) (arg2 : Memref sig .tc .vmem S64x128 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S2000x1 .f32) (harg6 : arg6.IsWhole)
    (x0 : Vec F S2000x128 .f32) (x1 : Vec F S64x128 .f32) (x2 : Vec F S1x64 .f32) (x3 : Vec F S1x64 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out4 x0 x1 x2 x3 x4)) -∗ K ⟨⟩))
      ⊢ wp frame (wpE (defs₀ (F := F)) Variants.none c none) E (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover4 _)

/-! ## The proof data: what every window's buffer holds after the body, tile by tile -/

/-- The arrays as the launch finds them; after the body at tile `t` every input's buffer still at its block and the
    output's at the body's value of the input blocks; the scoped buffers and the generator register untouched; nothing
    owed to another core; every array held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body at a tile -/

/-- What the body is called with at tile `t`: the invariant, the core's dues, every window's current buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- At any tile the input buffers hold their blocks, so the body's triple applies; the invariant and the dues
    pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorems, at every tile. -/
theorem body_obligation4 (c : Dev nD) : BodyObligation (dat4 (F := F) V c) (defs₀ (F := F)) Variants.none () Set.univ := fun t => by
  rw [bigSep_W4, bigSep_W4]
  exact sound_body4 V c t

end Region4

end Cert.Kernel.Hand

end
-- ==== Proof.KShare2.lean ====
/-
  Launch 2 reads ONE array through TWO input windows (the node states, and the same states again as the
  residual).  A buffer held whole can be lent to two readers as two halves, and two halves at the same
  contents are the whole buffer again; no window of this launch writes that array.  This module splits the six
  distinct buffers behind the launch's seven windows into the seven windows' arrays, and joins them back.
-/
import proofs.«143383_j87711822119113_2_alg».proof.Proof.KRegion2

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The seven windows sit on six distinct buffers. -/
theorem himg2 : Finset.univ.image (Pipeline.arrRef spec2) = ({main_v48, main_v36, main_arg8, main_v49, main_arg10, main_v50} : Finset (Ref sig .tc)) := by decide

/-- The two halves of the whole share compose to it. -/
theorem half_mem2 : fullShare ∈ PCS.op fullShare.left fullShare.right := by
  rw [PosShare.left_op_right]; exact Part.mem_some _

/-- The six buffers conjoined one by one. -/
theorem bigSep_arrs2 {M : Type} [URA M] (Φ : Ref sig .tc → sProp M) :
    bigSep ({main_v48, main_v36, main_arg8, main_v49, main_arg10, main_v50} : Finset (Ref sig .tc)) Φ
      = iprop(Φ main_v48 ∗ Φ main_v36 ∗ Φ main_arg8 ∗ Φ main_v49 ∗ Φ main_arg10 ∗ Φ main_v50) := by
  rw [bigSep_insert (by decide), bigSep_insert (by decide), bigSep_insert (by decide), bigSep_insert (by decide),
    bigSep_insert (by decide), bigSep_singleton]
  rfl

variable (V : (c : Dev nD) → (b : Ref sig .tc) → Buf (Elt F) ((c : Thread nD τ).loc b))

/-- The seven windows' arrays, one by one: every array is a whole buffer; the two windows on the shared buffer hold
    its left and its right half, every other window its buffer whole. -/
theorem arrays_eq2 (c : Dev nD) (G : (w : Fin cfg2.W) → Buf (Elt F) ((cfg2.win w).arr.view.loc (c.tc : Thread nD τ))) :
    ((dat2 V c).arrays G : sProp 𝕄)
      = iprop(((c.tc : Thread nD τ).loc main_v48 ↦{fullShare} G 0)
        ∗ ((c.tc : Thread nD τ).loc main_v36 ↦{fullShare.left} G 1)
        ∗ ((c.tc : Thread nD τ).loc main_arg8 ↦{fullShare} G 2)
        ∗ ((c.tc : Thread nD τ).loc main_v49 ↦{fullShare} G 3)
        ∗ ((c.tc : Thread nD τ).loc main_arg10 ↦{fullShare} G 4)
        ∗ ((c.tc : Thread nD τ).loc main_v36 ↦{fullShare.right} G 5)
        ∗ ((c.tc : Thread nD τ).loc main_v50 ↦{fullShare} G 6)) := by
  unfold Dat.arrays
  have h : ∀ w : Fin cfg2.W, ((cfg2.win w).arr.view.loc (c.tc : Thread nD τ) ↦[(cfg2.win w).arr.view.set]{(dat2 V c).share w} G w : sProp 𝕄)
      = ((c.tc : Thread nD τ).loc (Pipeline.arrRef spec2 w) ↦{(dat2 V c).share w} G w) := fun w => by
    rw [(arr_whole2 w).set_eq_univ]
  rw [bigSep_congr (fun w _ => h w), bigSep_W2]
  rfl

/-- ENTRY: the six buffers, each whole at the entry contents, are the seven windows' arrays at the entry contents —
    the shared buffer as its two halves. -/
theorem arrays_split2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  have hA : ∀ w, (dat2 V c).arrAt w 0 = V c (Pipeline.arrRef spec2 w) := fun w => A_eq2 V c w
  rw [arrays_eq2]
  simp only [hA]
  unfold Pipeline.arrBufs
  rw [himg2, bigSep_arrs2]
  iintro ⟨H0, H1, H2, H3, H4, H6⟩
  ihave H1' := (pointsTo_share half_mem2).1 $$ H1
  icases H1' with ⟨H1a, H1b⟩
  isplitl [H0]; · iexact H0
  isplitl [H1a]; · iexact H1a
  isplitl [H2]; · iexact H2
  isplitl [H3]; · iexact H3
  isplitl [H4]; · iexact H4
  isplitl [H1b]; · iexact H1b
  iexact H6

/-- EXIT: the seven windows' arrays at what the pipeline leaves — the two halves still at ONE contents, the output
    array rewritten — are the six buffers whole again, at any contents `V'` that agrees with what the pipeline leaves. -/
theorem arrays_join2 (c : Dev nD) (V' : (b : Ref sig .tc) → Buf (Elt F) ((c : Thread nD τ).loc b))
    (hF : ∀ w, (dat2 V c).arrAt w cfg2.N = V' (Pipeline.arrRef spec2 w)) :
    (dat2 V c).arrays ((dat2 V c).arrAt · cfg2.N)
      ⊢ (Pipeline.arrBufs (Ix := Unit) (Name := ℕ) (U := UR sig nD τ) (Lvl := ℕ) spec2 c V' : sProp 𝕄) := by
  rw [arrays_eq2]
  simp only [hF]
  unfold Pipeline.arrBufs
  rw [himg2, bigSep_arrs2]
  iintro ⟨H0, H1a, H2, H3, H4, H1b, H6⟩
  isplitl [H0]; · iexact H0
  isplitl [H1a H1b]
  · iapply (pointsTo_share half_mem2).2
    isplitl [H1a]; · iexact H1a
    iexact H1b
  isplitl [H2]; · iexact H2
  isplitl [H3]; · iexact H3
  isplitl [H4]; · iexact H4
  iexact H6

end Cert.Kernel.Hand

end
-- ==== Proof.KShare3.lean ====
/-
  Launch 3 reads ONE array through TWO input windows (the node states, and the same states again as the
  residual).  A buffer held whole can be lent to two readers as two halves, and two halves at the same
  contents are the whole buffer again; no window of this launch writes that array.  This module splits the six
  distinct buffers behind the launch's seven windows into the seven windows' arrays, and joins them back.
-/
import proofs.«143383_j87711822119113_2_alg».proof.Proof.KRegion3

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The seven windows sit on six distinct buffers. -/
theorem himg3 : Finset.univ.image (Pipeline.arrRef spec3) = ({main_v62, main_v50, main_arg11, main_v63, main_arg13, main_v64} : Finset (Ref sig .tc)) := by decide

/-- The two halves of the whole share compose to it. -/
theorem half_mem3 : fullShare ∈ PCS.op fullShare.left fullShare.right := by
  rw [PosShare.left_op_right]; exact Part.mem_some _

/-- The six buffers conjoined one by one. -/
theorem bigSep_arrs3 {M : Type} [URA M] (Φ : Ref sig .tc → sProp M) :
    bigSep ({main_v62, main_v50, main_arg11, main_v63, main_arg13, main_v64} : Finset (Ref sig .tc)) Φ
      = iprop(Φ main_v62 ∗ Φ main_v50 ∗ Φ main_arg11 ∗ Φ main_v63 ∗ Φ main_arg13 ∗ Φ main_v64) := by
  rw [bigSep_insert (by decide), bigSep_insert (by decide), bigSep_insert (by decide), bigSep_insert (by decide),
    bigSep_insert (by decide), bigSep_singleton]
  rfl

variable (V : (c : Dev nD) → (b : Ref sig .tc) → Buf (Elt F) ((c : Thread nD τ).loc b))

/-- The seven windows' arrays, one by one: every array is a whole buffer; the two windows on the shared buffer hold
    its left and its right half, every other window its buffer whole. -/
theorem arrays_eq3 (c : Dev nD) (G : (w : Fin cfg3.W) → Buf (Elt F) ((cfg3.win w).arr.view.loc (c.tc : Thread nD τ))) :
    ((dat3 V c).arrays G : sProp 𝕄)
      = iprop(((c.tc : Thread nD τ).loc main_v62 ↦{fullShare} G 0)
        ∗ ((c.tc : Thread nD τ).loc main_v50 ↦{fullShare.left} G 1)
        ∗ ((c.tc : Thread nD τ).loc main_arg11 ↦{fullShare} G 2)
        ∗ ((c.tc : Thread nD τ).loc main_v63 ↦{fullShare} G 3)
        ∗ ((c.tc : Thread nD τ).loc main_arg13 ↦{fullShare} G 4)
        ∗ ((c.tc : Thread nD τ).loc main_v50 ↦{fullShare.right} G 5)
        ∗ ((c.tc : Thread nD τ).loc main_v64 ↦{fullShare} G 6)) := by
  unfold Dat.arrays
  have h : ∀ w : Fin cfg3.W, ((cfg3.win w).arr.view.loc (c.tc : Thread nD τ) ↦[(cfg3.win w).arr.view.set]{(dat3 V c).share w} G w : sProp 𝕄)
      = ((c.tc : Thread nD τ).loc (Pipeline.arrRef spec3 w) ↦{(dat3 V c).share w} G w) := fun w => by
    rw [(arr_whole3 w).set_eq_univ]
  rw [bigSep_congr (fun w _ => h w), bigSep_W3]
  rfl

/-- ENTRY: the six buffers, each whole at the entry contents, are the seven windows' arrays at the entry contents —
    the shared buffer as its two halves. -/
theorem arrays_split3 (c : Dev nD) :
    (Pipeline.arrBufs (Ix := Unit) (Name := ℕ) (U := UR sig nD τ) (Lvl := ℕ) spec3 c (V c) : sProp 𝕄)
      ⊢ (dat3 V c).arrays ((dat3 V c).arrAt · 0) := by
  have hA : ∀ w, (dat3 V c).arrAt w 0 = V c (Pipeline.arrRef spec3 w) := fun w => A_eq3 V c w
  rw [arrays_eq3]
  simp only [hA]
  unfold Pipeline.arrBufs
  rw [himg3, bigSep_arrs3]
  iintro ⟨H0, H1, H2, H3, H4, H6⟩
  ihave H1' := (pointsTo_share half_mem3).1 $$ H1
  icases H1' with ⟨H1a, H1b⟩
  isplitl [H0]; · iexact H0
  isplitl [H1a]; · iexact H1a
  isplitl [H2]; · iexact H2
  isplitl [H3]; · iexact H3
  isplitl [H4]; · iexact H4
  isplitl [H1b]; · iexact H1b
  iexact H6

/-- EXIT: the seven windows' arrays at what the pipeline leaves — the two halves still at ONE contents, the output
    array rewritten — are the six buffers whole again, at any contents `V'` that agrees with what the pipeline leaves. -/
theorem arrays_join3 (c : Dev nD) (V' : (b : Ref sig .tc) → Buf (Elt F) ((c : Thread nD τ).loc b))
    (hF : ∀ w, (dat3 V c).arrAt w cfg3.N = V' (Pipeline.arrRef spec3 w)) :
    (dat3 V c).arrays ((dat3 V c).arrAt · cfg3.N)
      ⊢ (Pipeline.arrBufs (Ix := Unit) (Name := ℕ) (U := UR sig nD τ) (Lvl := ℕ) spec3 c V' : sProp 𝕄) := by
  rw [arrays_eq3]
  simp only [hF]
  unfold Pipeline.arrBufs
  rw [himg3, bigSep_arrs3]
  iintro ⟨H0, H1a, H2, H3, H4, H1b, H6⟩
  isplitl [H0]; · iexact H0
  isplitl [H1a H1b]
  · iapply (pointsTo_share half_mem3).2
    isplitl [H1a]; · iexact H1a
    iexact H1b
  isplitl [H2]; · iexact H2
  isplitl [H3]; · iexact H3
  isplitl [H4]; · iexact H4
  iexact H6

end Cert.Kernel.Hand

end
-- ==== Proof.KRunCond.lean ====
/-
  The program's run with its RESULT named.

  Chained over the same five segments as the frame, the run ends with every unscoped buffer of a core at the
  last boundary's contents; read at the result buffer this names what the program returns, beside the eighteen
  argument arrays ending as launched.
-/
import proofs.«143383_j87711822119113_2_alg».proof.Proof.Gen.Kernel.Regions

set_option maxRecDepth 1152

noncomputable section

namespace Cert.Kernel.HandCond

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- Given one segment record per launch, entered from the thread state before it and left at the one after it, every
    weakly fair execution from memory `m` with zero counters terminates, the result buffer ends at the last boundary's
    contents, and every argument array ends as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c)) :
    θ_run defs (onTc (τ := τ) (main (F := F))) ⟨m, fun _ => 0, ρ⟩ (fun r => ∀ c : Dev nD,
      r.2.mem ((c.tc : Thread nD τ).loc main_v69) = V13 m outs c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, hpre0 c, hpost0 c, hpre1 c, hpost1 c, hpre2 c, hpost2 c, hpre3 c, hpost3 c, hpre4 c, hpost4 c, sep_mono .rfl (hE5 c)⟩)
    (hinit := ?_) (QY := fun c s => s.mem ((c.tc : Thread nD τ).loc main_v69) = V13 m outs c main_v69 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v69) (Finset.mem_filter.mpr ⟨StableHlo.devRef_mem_tcRefs main_v69, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c),
        (h (Proc.devRef .tc main_arg5) (Finset.mem_filter.mpr ⟨StableHlo.devRef_mem_tcRefs main_arg5, by decide⟩)).trans (V13_main_arg5 m outs c),
        (h (Proc.devRef .tc main_arg6) (Finset.mem_filter.mpr ⟨StableHlo.devRef_mem_tcRefs main_arg6, by decide⟩)).trans (V13_main_arg6 m outs c),
        (h (Proc.devRef .tc main_arg7) (Finset.mem_filter.mpr ⟨StableHlo.devRef_mem_tcRefs main_arg7, by decide⟩)).trans (V13_main_arg7 m outs c),
        (h (Proc.devRef .tc main_arg8) (Finset.mem_filter.mpr ⟨StableHlo.devRef_mem_tcRefs main_arg8, by decide⟩)).trans (V13_main_arg8 m outs c),
        (h (Proc.devRef .tc main_arg9) (Finset.mem_filter.mpr ⟨StableHlo.devRef_mem_tcRefs main_arg9, by decide⟩)).trans (V13_main_arg9 m outs c),
        (h (Proc.devRef .tc main_arg10) (Finset.mem_filter.mpr ⟨StableHlo.devRef_mem_tcRefs main_arg10, by decide⟩)).trans (V13_main_arg10 m outs c),
        (h (Proc.devRef .tc main_arg11) (Finset.mem_filter.mpr ⟨StableHlo.devRef_mem_tcRefs main_arg11, by decide⟩)).trans (V13_main_arg11 m outs c),
        (h (Proc.devRef .tc main_arg12) (Finset.mem_filter.mpr ⟨StableHlo.devRef_mem_tcRefs main_arg12, by decide⟩)).trans (V13_main_arg12 m outs c),
        (h (Proc.devRef .tc main_arg13) (Finset.mem_filter.mpr ⟨StableHlo.devRef_mem_tcRefs main_arg13, by decide⟩)).trans (V13_main_arg13 m outs c),
        (h (Proc.devRef .tc main_arg14) (Finset.mem_filter.mpr ⟨StableHlo.devRef_mem_tcRefs main_arg14, by decide⟩)).trans (V13_main_arg14 m outs c),
        (h (Proc.devRef .tc main_arg15) (Finset.mem_filter.mpr ⟨StableHlo.devRef_mem_tcRefs main_arg15, by decide⟩)).trans (V13_main_arg15 m outs c),
        (h (Proc.devRef .tc main_arg16) (Finset.mem_filter.mpr ⟨StableHlo.devRef_mem_tcRefs main_arg16, by decide⟩)).trans (V13_main_arg16 m outs c),
        (h (Proc.devRef .tc main_arg17) (Finset.mem_filter.mpr ⟨StableHlo.devRef_mem_tcRefs main_arg17, by decide⟩)).trans (V13_main_arg17 m outs c)⟩
    · iexact HSI

end Cert.Kernel.HandCond

end
-- ==== Proof.KRun.lean ====
/-
  The whole program: five launches among stretches of host operations.

  Between two items every unscoped buffer of a core is held whole; a stretch of host operations rewrites
  the buffers it computes and nothing else; a launch rewrites its one output array — with the blocks its 25
  tiles write back — and nothing else.  No item ever writes an argument array, so each of the eighteen ends
  as launched: that is the frame.  The same chain names what every buffer holds when the program returns.
-/
import proofs.«143383_j87711822119113_2_alg».proof.Proof.KRegion0
import proofs.«143383_j87711822119113_2_alg».proof.Proof.KRegion1
import proofs.«143383_j87711822119113_2_alg».proof.Proof.KRegion2
import proofs.«143383_j87711822119113_2_alg».proof.Proof.KRegion3
import proofs.«143383_j87711822119113_2_alg».proof.Proof.KRegion4
import proofs.«143383_j87711822119113_2_alg».proof.Proof.KShare2
import proofs.«143383_j87711822119113_2_alg».proof.Proof.KShare3
import proofs.«143383_j87711822119113_2_alg».proof.Proof.KRunCond
import proofs.«143383_j87711822119113_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at every boundary -/

/-- The buffers when launch 0 is entered: the launch memory with the three leading stretches of host operations applied. -/
abbrev Wi0 (c : Dev nD) : Valuation τ sig (Elt F) := Gen.V3 m c
abbrev En0 : (c : Dev nD) → (b : Ref sig .tc) → Buf (Elt F) ((c : Thread nD τ).loc b) := fun c b => Wi0 m c b

/-- What launch 0 leaves in its output array: the blocks its 25 tiles wrote back, folded over the grid. -/
def o0 (c : Dev nD) : Buf (Elt F) ((c : Thread nD τ).loc main_v21) := (dat0 (En0 m) c).arrAt 5 cfg0.N
/-- The buffers when launch 0 returns: its output array rewritten, every other buffer as entered. -/
abbrev Wo0 (c : Dev nD) : Valuation τ sig (Elt F) := Function.update (Wi0 m c) main_v21 (o0 m c)
/-- The buffers when launch 1 is entered: the host operations between the two launches applied. -/
abbrev Wi1 (c : Dev nD) : Valuation τ sig (Elt F) := StableHlo.after hostOps1 (Wo0 m c)
abbrev En1 : (c : Dev nD) → (b : Ref sig .tc) → Buf (Elt F) ((c : Thread nD τ).loc b) := fun c b => Wi1 m c b

/-- What launch 1 leaves in its output array: the blocks its 25 tiles wrote back, folded over the grid. -/
def o1 (c : Dev nD) : Buf (Elt F) ((c : Thread nD τ).loc main_v36) := (dat1 (En1 m) c).arrAt 6 cfg1.N
/-- The buffers when launch 1 returns: its output array rewritten, every other buffer as entered. -/
abbrev Wo1 (c : Dev nD) : Valuation τ sig (Elt F) := Function.update (Wi1 m c) main_v36 (o1 m c)
/-- The buffers when launch 2 is entered: the host operations between the two launches applied. -/
abbrev Wi2 (c : Dev nD) : Valuation τ sig (Elt F) := StableHlo.after hostOps2 (Wo1 m c)
abbrev En2 : (c : Dev nD) → (b : Ref sig .tc) → Buf (Elt F) ((c : Thread nD τ).loc b) := fun c b => Wi2 m c b

/-- What launch 2 leaves in its output array: the blocks its 25 tiles wrote back, folded over the grid. -/
def o2 (c : Dev nD) : Buf (Elt F) ((c : Thread nD τ).loc main_v50) := (dat2 (En2 m) c).arrAt 6 cfg2.N
/-- The buffers when launch 2 returns: its output array rewritten, every other buffer as entered. -/
abbrev Wo2 (c : Dev nD) : Valuation τ sig (Elt F) := Function.update (Wi2 m c) main_v50 (o2 m c)
/-- The buffers when launch 3 is entered: the host operations between the two launches applied. -/
abbrev Wi3 (c : Dev nD) : Valuation τ sig (Elt F) := StableHlo.after hostOps3 (Wo2 m c)
abbrev En3 : (c : Dev nD) → (b : Ref sig .tc) → Buf (Elt F) ((c : Thread nD τ).loc b) := fun c b => Wi3 m c b

/-- What launch 3 leaves in its output array: the blocks its 25 tiles wrote back, folded over the grid. -/
def o3 (c : Dev nD) : Buf (Elt F) ((c : Thread nD τ).loc main_v64) := (dat3 (En3 m) c).arrAt 6 cfg3.N
/-- The buffers when launch 3 returns: its output array rewritten, every other buffer as entered. -/
abbrev Wo3 (c : Dev nD) : Valuation τ sig (Elt F) := Function.update (Wi3 m c) main_v64 (o3 m c)
/-- The buffers when launch 4 is entered: the host operations between the two launches applied. -/
abbrev Wi4 (c : Dev nD) : Valuation τ sig (Elt F) := StableHlo.after hostOps4 (Wo3 m c)
abbrev En4 : (c : Dev nD) → (b : Ref sig .tc) → Buf (Elt F) ((c : Thread nD τ).loc b) := fun c b => Wi4 m c b

/-- What launch 4 leaves in its output array: the blocks its 25 tiles wrote back, folded over the grid. -/
def o4 (c : Dev nD) : Buf (Elt F) ((c : Thread nD τ).loc main_v67) := (dat4 (En4 m) c).arrAt 5 cfg4.N
/-- The buffers when launch 4 returns: its output array rewritten, every other buffer as entered. -/
abbrev Wo4 (c : Dev nD) : Valuation τ sig (Elt F) := Function.update (Wi4 m c) main_v67 (o4 m c)

/-- What the launches leave, as the family the conditional frame is stated over. -/
def outs : Gen.Outs (F := F) := fun _ r c =>
  if h0 : r = main_v21 then h0 ▸ o0 m c
  else if h1 : r = main_v36 then h1 ▸ o1 m c
  else if h2 : r = main_v50 then h2 ▸ o2 m c
  else if h3 : r = main_v64 then h3 ▸ o3 m c
  else if h4 : r = main_v67 then h4 ▸ o4 m c
  else Gen.V0 m c r

theorem outs_0 (J : ℕ) (c : Dev nD) : outs m J main_v21 c = o0 m c := by
  unfold outs; simp only [dite_true, dite_false, dif_pos, dif_neg, not_false_eq_true]
  try rfl
theorem outs_1 (J : ℕ) (c : Dev nD) : outs m J main_v36 c = o1 m c := by
  unfold outs; simp only [show ¬ (main_v36 : Ref sig .tc) = main_v21 from by decide, dite_true, dite_false, dif_pos, dif_neg, not_false_eq_true]
  try rfl
theorem outs_2 (J : ℕ) (c : Dev nD) : outs m J main_v50 c = o2 m c := by
  unfold outs; simp only [show ¬ (main_v50 : Ref sig .tc) = main_v21 from by decide, show ¬ (main_v50 : Ref sig .tc) = main_v36 from by decide, dite_true, dite_false, dif_pos, dif_neg, not_false_eq_true]
  try rfl
theorem outs_3 (J : ℕ) (c : Dev nD) : outs m J main_v64 c = o3 m c := by
  unfold outs; simp only [show ¬ (main_v64 : Ref sig .tc) = main_v21 from by decide, show ¬ (main_v64 : Ref sig .tc) = main_v36 from by decide, show ¬ (main_v64 : Ref sig .tc) = main_v50 from by decide, dite_true, dite_false, dif_pos, dif_neg, not_false_eq_true]
  try rfl
theorem outs_4 (J : ℕ) (c : Dev nD) : outs m J main_v67 c = o4 m c := by
  unfold outs; simp only [show ¬ (main_v67 : Ref sig .tc) = main_v21 from by decide, show ¬ (main_v67 : Ref sig .tc) = main_v36 from by decide, show ¬ (main_v67 : Ref sig .tc) = main_v50 from by decide, show ¬ (main_v67 : Ref sig .tc) = main_v64 from by decide, dite_true, dite_false, dif_pos, dif_neg, not_false_eq_true]
  try rfl

theorem V4_eq (c : Dev nD) : Gen.V4 m (outs m) c = Wo0 m c := by
  show Function.update (Gen.V3 m c) main_v21 (outs m 4 main_v21 c) = _; rw [outs_0]
theorem V5_eq (c : Dev nD) : Gen.V5 m (outs m) c = Wi1 m c := by
  show StableHlo.after hostOps1 (Gen.V4 m (outs m) c) = _; rw [V4_eq]
theorem V6_eq (c : Dev nD) : Gen.V6 m (outs m) c = Wo1 m c := by
  show Function.update (Gen.V5 m (outs m) c) main_v36 (outs m 6 main_v36 c) = _; rw [outs_1, V5_eq]
theorem V7_eq (c : Dev nD) : Gen.V7 m (outs m) c = Wi2 m c := by
  show StableHlo.after hostOps2 (Gen.V6 m (outs m) c) = _; rw [V6_eq]
theorem V8_eq (c : Dev nD) : Gen.V8 m (outs m) c = Wo2 m c := by
  show Function.update (Gen.V7 m (outs m) c) main_v50 (outs m 8 main_v50 c) = _; rw [outs_2, V7_eq]
theorem V9_eq (c : Dev nD) : Gen.V9 m (outs m) c = Wi3 m c := by
  show StableHlo.after hostOps3 (Gen.V8 m (outs m) c) = _; rw [V8_eq]
theorem V10_eq (c : Dev nD) : Gen.V10 m (outs m) c = Wo3 m c := by
  show Function.update (Gen.V9 m (outs m) c) main_v64 (outs m 10 main_v64 c) = _; rw [outs_3, V9_eq]
theorem V11_eq (c : Dev nD) : Gen.V11 m (outs m) c = Wi4 m c := by
  show StableHlo.after hostOps4 (Gen.V10 m (outs m) c) = _; rw [V10_eq]
theorem V12_eq (c : Dev nD) : Gen.V12 m (outs m) c = Wo4 m c := by
  show Function.update (Gen.V11 m (outs m) c) main_v67 (outs m 12 main_v67 c) = _; rw [outs_4, V11_eq]

/-! ## The proof data of the five launches, each at its entry contents -/

def pdats : (p : Fin 5) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c

abbrev 𝒱z : Variants := Variants.none
/-- No core owes another anything. -/
abbrev Lz : GSem nD τ sig → Finset Unit := fun _ => ∅
abbrev lvz : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-- No window of launch 0 but the last is an output, and none but the last sits on the output array. -/
theorem hne0 : ∀ w : Fin cfg0.W, w ≠ 5 → (cfg0.win w).isOut = false ∧ Pipeline.arrRef spec0 w ≠ main_v21 := by decide
/-- When launch 0 returns, each of its arrays holds what the pipeline leaves there: the output array the folded
    write-backs, an input array what it held at entry. -/
theorem hF0 (c : Dev nD) (w : Fin cfg0.W) : (dat0 (En0 m) c).arrAt w cfg0.N = Wo0 m c (Pipeline.arrRef spec0 w) := by
  by_cases h : w = 5
  · subst h
    exact (Function.update_self (f := Wi0 m c) (Proc.devRef .tc main_v21) (o0 m c)).symm
  · rw [(dat0 (En0 m) c).arrAt_in w (hne0 w h).1 _, A_eq0]
    exact (Function.update_of_ne (StableHlo.devRef_ne_of_ne (hne0 w h).2) _ _).symm
/-- Every other buffer is as it was at entry. -/
theorem hrest0 (c : Dev nD) : ∀ b, b ∉ Finset.univ.image (Pipeline.arrRef spec0) → Wo0 m c b = Wi0 m c b := fun b hb =>
  Function.update_of_ne (StableHlo.devRef_ne_of_ne fun e => hb (Finset.mem_image.mpr ⟨5, Finset.mem_univ _, by rw [e]⟩)) _ _

/-- No window of launch 1 but the last is an output, and none but the last sits on the output array. -/
theorem hne1 : ∀ w : Fin cfg1.W, w ≠ 6 → (cfg1.win w).isOut = false ∧ Pipeline.arrRef spec1 w ≠ main_v36 := by decide
/-- When launch 1 returns, each of its arrays holds what the pipeline leaves there: the output array the folded
    write-backs, an input array what it held at entry. -/
theorem hF1 (c : Dev nD) (w : Fin cfg1.W) : (dat1 (En1 m) c).arrAt w cfg1.N = Wo1 m c (Pipeline.arrRef spec1 w) := by
  by_cases h : w = 6
  · subst h
    exact (Function.update_self (f := Wi1 m c) (Proc.devRef .tc main_v36) (o1 m c)).symm
  · rw [(dat1 (En1 m) c).arrAt_in w (hne1 w h).1 _, A_eq1]
    exact (Function.update_of_ne (StableHlo.devRef_ne_of_ne (hne1 w h).2) _ _).symm
/-- Every other buffer is as it was at entry. -/
theorem hrest1 (c : Dev nD) : ∀ b, b ∉ Finset.univ.image (Pipeline.arrRef spec1) → Wo1 m c b = Wi1 m c b := fun b hb =>
  Function.update_of_ne (StableHlo.devRef_ne_of_ne fun e => hb (Finset.mem_image.mpr ⟨6, Finset.mem_univ _, by rw [e]⟩)) _ _

/-- No window of launch 2 but the last is an output, and none but the last sits on the output array. -/
theorem hne2 : ∀ w : Fin cfg2.W, w ≠ 6 → (cfg2.win w).isOut = false ∧ Pipeline.arrRef spec2 w ≠ main_v50 := by decide
/-- When launch 2 returns, each of its arrays holds what the pipeline leaves there: the output array the folded
    write-backs, an input array what it held at entry. -/
theorem hF2 (c : Dev nD) (w : Fin cfg2.W) : (dat2 (En2 m) c).arrAt w cfg2.N = Wo2 m c (Pipeline.arrRef spec2 w) := by
  by_cases h : w = 6
  · subst h
    exact (Function.update_self (f := Wi2 m c) (Proc.devRef .tc main_v50) (o2 m c)).symm
  · rw [(dat2 (En2 m) c).arrAt_in w (hne2 w h).1 _, A_eq2]
    exact (Function.update_of_ne (StableHlo.devRef_ne_of_ne (hne2 w h).2) _ _).symm
/-- Every other buffer is as it was at entry. -/
theorem hrest2 (c : Dev nD) : ∀ b, b ∉ Finset.univ.image (Pipeline.arrRef spec2) → Wo2 m c b = Wi2 m c b := fun b hb =>
  Function.update_of_ne (StableHlo.devRef_ne_of_ne fun e => hb (Finset.mem_image.mpr ⟨6, Finset.mem_univ _, by rw [e]⟩)) _ _

/-- No window of launch 3 but the last is an output, and none but the last sits on the output array. -/
theorem hne3 : ∀ w : Fin cfg3.W, w ≠ 6 → (cfg3.win w).isOut = false ∧ Pipeline.arrRef spec3 w ≠ main_v64 := by decide
/-- When launch 3 returns, each of its arrays holds what the pipeline leaves there: the output array the folded
    write-backs, an input array what it held at entry. -/
theorem hF3 (c : Dev nD) (w : Fin cfg3.W) : (dat3 (En3 m) c).arrAt w cfg3.N = Wo3 m c (Pipeline.arrRef spec3 w) := by
  by_cases h : w = 6
  · subst h
    exact (Function.update_self (f := Wi3 m c) (Proc.devRef .tc main_v64) (o3 m c)).symm
  · rw [(dat3 (En3 m) c).arrAt_in w (hne3 w h).1 _, A_eq3]
    exact (Function.update_of_ne (StableHlo.devRef_ne_of_ne (hne3 w h).2) _ _).symm
/-- Every other buffer is as it was at entry. -/
theorem hrest3 (c : Dev nD) : ∀ b, b ∉ Finset.univ.image (Pipeline.arrRef spec3) → Wo3 m c b = Wi3 m c b := fun b hb =>
  Function.update_of_ne (StableHlo.devRef_ne_of_ne fun e => hb (Finset.mem_image.mpr ⟨6, Finset.mem_univ _, by rw [e]⟩)) _ _

/-- No window of launch 4 but the last is an output, and none but the last sits on the output array. -/
theorem hne4 : ∀ w : Fin cfg4.W, w ≠ 5 → (cfg4.win w).isOut = false ∧ Pipeline.arrRef spec4 w ≠ main_v67 := by decide
/-- When launch 4 returns, each of its arrays holds what the pipeline leaves there: the output array the folded
    write-backs, an input array what it held at entry. -/
theorem hF4 (c : Dev nD) (w : Fin cfg4.W) : (dat4 (En4 m) c).arrAt w cfg4.N = Wo4 m c (Pipeline.arrRef spec4 w) := by
  by_cases h : w = 5
  · subst h
    exact (Function.update_self (f := Wi4 m c) (Proc.devRef .tc main_v67) (o4 m c)).symm
  · rw [(dat4 (En4 m) c).arrAt_in w (hne4 w h).1 _, A_eq4]
    exact (Function.update_of_ne (StableHlo.devRef_ne_of_ne (hne4 w h).2) _ _).symm
/-- Every other buffer is as it was at entry. -/
theorem hrest4 (c : Dev nD) : ∀ b, b ∉ Finset.univ.image (Pipeline.arrRef spec4) → Wo4 m c b = Wi4 m c b := fun b hb =>
  Function.update_of_ne (StableHlo.devRef_ne_of_ne fun e => hb (Finset.mem_image.mpr ⟨5, Finset.mem_univ _, by rw [e]⟩)) _ _

/-- ENTRY of launch 2: the unscoped buffers, each whole, give the launch's seven windows their arrays — the buffer
    the two windows share as two halves — beside the buffers no window sits on. -/
theorem split2 (c : Dev nD) :
    (StableHlo.held (c : Thread nD τ) (Pipeline.ucRefs τ sig) (Wi2 m c) : sProp 𝕄)
      ⊢ iprop((pdats m 2 c).arrays ((pdats m 2 c).arrAt · 0)
          ∗ Pipeline.unscopedRest (Ix := Unit) (Name := ℕ) (U := UR sig nD τ) (Lvl := ℕ) spec2 c (En2 m c)) := by
  rw [← Pipeline.unscopedBufs_held (Ix := Unit) (Name := ℕ) (U := UR sig nD τ) (Lvl := ℕ) c (Wi2 m c),
    Pipeline.unscopedBufs_split₀ cfgs 2 winFacts₀2.arr_unscoped c]
  exact sep_mono (arrays_split2 (En2 m) c) .rfl

/-- EXIT of launch 2: the seven windows' arrays — the two halves still at the entry contents, the output array at
    the folded write-backs — and the buffers no window sits on are the unscoped buffers, each whole, at the exit contents. -/
theorem join2 (c : Dev nD) :
    iprop((pdats m 2 c).arrays ((pdats m 2 c).arrAt · cfg2.N)
        ∗ Pipeline.unscopedRest (Ix := Unit) (Name := ℕ) (U := UR sig nD τ) (Lvl := ℕ) spec2 c (En2 m c))
      ⊢ (StableHlo.held (c : Thread nD τ) (Pipeline.ucRefs τ sig) (Wo2 m c) : sProp 𝕄) := by
  rw [← Pipeline.unscopedBufs_held (Ix := Unit) (Name := ℕ) (U := UR sig nD τ) (Lvl := ℕ) c (Wo2 m c),
    Pipeline.unscopedBufs_split₀ cfgs 2 winFacts₀2.arr_unscoped c]
  refine sep_mono (arrays_join2 (En2 m) c (fun b => Wo2 m c b) (hF2 m c)) (Entails.of_eq ?_)
  unfold Pipeline.unscopedRest
  exact bigSep_congr fun b hb =>
    congrArg (fun x : Buf (Elt F) ((c.tc : Thread nD τ).loc b) => (((c.tc : Thread nD τ).loc b) ↦{fullShare} x : sProp 𝕄))
      (hrest2 m c b (Finset.mem_sdiff.mp hb).2).symm

/-- ENTRY of launch 3: the unscoped buffers, each whole, give the launch's seven windows their arrays — the buffer
    the two windows share as two halves — beside the buffers no window sits on. -/
theorem split3 (c : Dev nD) :
    (StableHlo.held (c : Thread nD τ) (Pipeline.ucRefs τ sig) (Wi3 m c) : sProp 𝕄)
      ⊢ iprop((pdats m 3 c).arrays ((pdats m 3 c).arrAt · 0)
          ∗ Pipeline.unscopedRest (Ix := Unit) (Name := ℕ) (U := UR sig nD τ) (Lvl := ℕ) spec3 c (En3 m c)) := by
  rw [← Pipeline.unscopedBufs_held (Ix := Unit) (Name := ℕ) (U := UR sig nD τ) (Lvl := ℕ) c (Wi3 m c),
    Pipeline.unscopedBufs_split₀ cfgs 3 winFacts₀3.arr_unscoped c]
  exact sep_mono (arrays_split3 (En3 m) c) .rfl

/-- EXIT of launch 3: the seven windows' arrays — the two halves still at the entry contents, the output array at
    the folded write-backs — and the buffers no window sits on are the unscoped buffers, each whole, at the exit contents. -/
theorem join3 (c : Dev nD) :
    iprop((pdats m 3 c).arrays ((pdats m 3 c).arrAt · cfg3.N)
        ∗ Pipeline.unscopedRest (Ix := Unit) (Name := ℕ) (U := UR sig nD τ) (Lvl := ℕ) spec3 c (En3 m c))
      ⊢ (StableHlo.held (c : Thread nD τ) (Pipeline.ucRefs τ sig) (Wo3 m c) : sProp 𝕄) := by
  rw [← Pipeline.unscopedBufs_held (Ix := Unit) (Name := ℕ) (U := UR sig nD τ) (Lvl := ℕ) c (Wo3 m c),
    Pipeline.unscopedBufs_split₀ cfgs 3 winFacts₀3.arr_unscoped c]
  refine sep_mono (arrays_join3 (En3 m) c (fun b => Wo3 m c b) (hF3 m c)) (Entails.of_eq ?_)
  unfold Pipeline.unscopedRest
  exact bigSep_congr fun b hb =>
    congrArg (fun x : Buf (Elt F) ((c.tc : Thread nD τ).loc b) => (((c.tc : Thread nD τ).loc b) ↦{fullShare} x : sProp 𝕄))
      (hrest3 m c b (Finset.mem_sdiff.mp hb).2).symm

/-! ## The launches as segments -/

set_option backward.isDefEq.respectTransparency.types false in
/-- Launch 0 as a segment: entered with every unscoped buffer whole, left with them whole again, its output array
    rewritten.  Its arrays are distinct buffers: they are taken out of the unscoped buffers one by one and put back. -/
def reg0 : Pipeline.RegionSeg (pcfgs (F := F)) Gen.adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ Lz lvz 0 fun _ _ => rfl
  pre c := iprop(StableHlo.held (c : Thread nD τ) (Pipeline.ucRefs τ sig) (Wi0 m c) ∗ Rr c)
  post c := iprop(StableHlo.held (c : Thread nD τ) (Pipeline.ucRefs τ sig) (Wo0 m c) ∗ Rr c)
  X c := iprop(∃ r, prngReg c r)
  Y c := iprop(∃ r, prngReg c r)
  Z c := Pipeline.unscopedRest (Ix := Unit) (Name := ℕ) (U := UR sig nD τ) (Lvl := ℕ) spec0 c (En0 m c)
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (En0 m c) (fun b => Wo0 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer whole, left with them whole again, its output array
    rewritten.  Its arrays are distinct buffers: they are taken out of the unscoped buffers one by one and put back. -/
def reg1 : Pipeline.RegionSeg (pcfgs (F := F)) Gen.adm (pdats m) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ Lz lvz 1 fun _ _ => rfl
  pre c := iprop(StableHlo.held (c : Thread nD τ) (Pipeline.ucRefs τ sig) (Wi1 m c) ∗ Rr c)
  post c := iprop(StableHlo.held (c : Thread nD τ) (Pipeline.ucRefs τ sig) (Wo1 m c) ∗ Rr c)
  X c := iprop(∃ r, prngReg c r)
  Y c := iprop(∃ r, prngReg c r)
  Z c := Pipeline.unscopedRest (Ix := Unit) (Name := ℕ) (U := UR sig nD τ) (Lvl := ℕ) spec1 c (En1 m c)
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (En1 m c) (fun b => Wo1 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment.  Two of its input windows (the node states and the residual) sit on ONE array: that
    buffer is read through both, each window holding half of it; no window writes it.  At entry the buffer is split
    into the two halves, at exit the halves — still at the entry contents — are joined again. -/
def reg2 : Pipeline.RegionSeg (pcfgs (F := F)) Gen.adm (pdats m) () defs₀ 𝒱z Lz lvz 2 where
  win := winFacts₀2
  block_pos := block_pos2
  stage_whole := stage_whole2
  K := PEmpty
  osem k := k.elim
  ho := Pipeline.OwnSemFacts.none _
  hbody c := (body_obligation2 (En2 m) c).loose
  hwaits := Pipeline.hwaits_of_owed_zero _ _ _ _ Lz lvz 2 fun _ _ => rfl
  pre c := iprop(StableHlo.held (c : Thread nD τ) (Pipeline.ucRefs τ sig) (Wi2 m c) ∗ Rr c)
  post c := iprop(StableHlo.held (c : Thread nD τ) (Pipeline.ucRefs τ sig) (Wo2 m c) ∗ Rr c)
  X c := iprop(∃ r, prngReg c r)
  Y c := iprop(∃ r, prngReg c r)
  Z c := Pipeline.unscopedRest (Ix := Unit) (Name := ℕ) (U := UR sig nD τ) (Lvl := ℕ) spec2 c (En2 m c)
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hentry c := by
    rw [Pipeline.ownSems0_none]
    iintro ⟨⟨Hub, Hp, HO⟩, -, -⟩
    ihave H := (split2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    iintro ⟨Ha, HO, HY, Hrest⟩
    imodintro
    isplitl [Ha Hrest]
    · iapply (join2 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 as a segment.  Two of its input windows (the node states and the residual) sit on ONE array: that
    buffer is read through both, each window holding half of it; no window writes it.  At entry the buffer is split
    into the two halves, at exit the halves — still at the entry contents — are joined again. -/
def reg3 : Pipeline.RegionSeg (pcfgs (F := F)) Gen.adm (pdats m) () defs₀ 𝒱z Lz lvz 3 where
  win := winFacts₀3
  block_pos := block_pos3
  stage_whole := stage_whole3
  K := PEmpty
  osem k := k.elim
  ho := Pipeline.OwnSemFacts.none _
  hbody c := (body_obligation3 (En3 m) c).loose
  hwaits := Pipeline.hwaits_of_owed_zero _ _ _ _ Lz lvz 3 fun _ _ => rfl
  pre c := iprop(StableHlo.held (c : Thread nD τ) (Pipeline.ucRefs τ sig) (Wi3 m c) ∗ Rr c)
  post c := iprop(StableHlo.held (c : Thread nD τ) (Pipeline.ucRefs τ sig) (Wo3 m c) ∗ Rr c)
  X c := iprop(∃ r, prngReg c r)
  Y c := iprop(∃ r, prngReg c r)
  Z c := Pipeline.unscopedRest (Ix := Unit) (Name := ℕ) (U := UR sig nD τ) (Lvl := ℕ) spec3 c (En3 m c)
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hentry c := by
    rw [Pipeline.ownSems0_none]
    iintro ⟨⟨Hub, Hp, HO⟩, -, -⟩
    ihave H := (split3 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    iintro ⟨Ha, HO, HY, Hrest⟩
    imodintro
    isplitl [Ha Hrest]
    · iapply (join3 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4 as a segment: entered with every unscoped buffer whole, left with them whole again, its output array
    rewritten.  Its arrays are distinct buffers: they are taken out of the unscoped buffers one by one and put back. -/
def reg4 : Pipeline.RegionSeg (pcfgs (F := F)) Gen.adm (pdats m) () defs₀ 𝒱z Lz lvz 4 where
  win := launch4.win.to₀
  block_pos := launch4.block_pos
  stage_whole := launch4.stage_whole
  K := PEmpty
  osem k := k.elim
  ho := Pipeline.OwnSemFacts.none _
  hbody c := (body_obligation4 (En4 m) c).loose
  hwaits := Pipeline.hwaits_of_owed_zero _ _ _ _ Lz lvz 4 fun _ _ => rfl
  pre c := iprop(StableHlo.held (c : Thread nD τ) (Pipeline.ucRefs τ sig) (Wi4 m c) ∗ Rr c)
  post c := iprop(StableHlo.held (c : Thread nD τ) (Pipeline.ucRefs τ sig) (Wo4 m c) ∗ Rr c)
  X c := iprop(∃ r, prngReg c r)
  Y c := iprop(∃ r, prngReg c r)
  Z c := Pipeline.unscopedRest (Ix := Unit) (Name := ℕ) (U := UR sig nD τ) (Lvl := ℕ) spec4 c (En4 m c)
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (En4 m c) (fun b => Wo4 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

/-- What the launch hands a core beside its buffers: its unscoped semaphores at zero, nothing owed, the launch's
    credit, the generator register at the launch state. -/
abbrev Launch0 (ρ : Dev nD → PrngReg) (c : Dev nD) : sProp 𝕄 :=
  iprop(unscopedSems0 c ∗ owes (c : Thread nD τ) ((0 : Dev nD → CellTallies nD τ sig Unit) c) ∅
    ∗ Pipeline.launchCred (0 : Dev nD → CellTallies nD τ sig Unit) c ∗ prngReg c (ρ c) ∗ (fun _ : Dev nD => (iprop(emp) : sProp 𝕄)) c)

/-- Of that, every core keeps the generator register and its (empty) dues through the run. -/
theorem launch_rest (ρ : Dev nD → PrngReg) :
    iprop((bigSep Finset.univ (Launch0 (F := F) ρ)) ∗ levAts Lz lvz) ⊢ (|={Set.univ}=> bigSep Finset.univ (Rr (F := F)) : sProp 𝕄) := by
  have key : ∀ c : Dev nD, (Launch0 (F := F) ρ c : sProp 𝕄) ⊢ (Rr (F := F) c : sProp 𝕄) := fun c => by
    iintro ⟨-, HO, -, Hp, -⟩
    isplitl [Hp]; · iexists _; iexact Hp
    iexists ∅; iexact HO
  have hm : (bigSep Finset.univ (Launch0 (F := F) ρ) : sProp 𝕄) ⊢ (bigSep Finset.univ (Rr (F := F)) : sProp 𝕄) :=
    bigSep_mono fun c _ => key c
  iintro ⟨H, -⟩; imodintro
  iapply hm
  iexact H

set_option backward.isDefEq.respectTransparency.types false in
/-- THE RUN.  From any memory with zero counters every weakly fair execution of the program terminates, nothing
    faults, the result buffer ends at the last boundary's contents, and each of the eighteen argument arrays ends
    as launched: no host operation and no launch writes one.  The five segments above are chained by the host side's
    conditional run; beside its buffers a core carries the generator register and nothing owed. -/
theorem run (ρ : Dev nD → PrngReg) :
    θ_run defs (onTc (τ := τ) (main (F := F))) ⟨m, fun _ => 0, ρ⟩ (fun r => ∀ c : Dev nD,
      r.2.mem ((c.tc : Thread nD τ).loc main_v69) = Gen.V13 m (outs m) c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  HandCond.run_cond (m := m) (Ix := Unit) (U := UR sig nD τ) (Lvl := ℕ) (EP := emb₁) (ι := ()) (𝒱₀ := 𝒱z) (L := Lz) (lv := lvz)
    (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := launch_rest ρ)
    (hE5 := fun c => by iintro ⟨-, HO⟩; iexact HO)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V7_eq]; exact .rfl) (hpost2 := fun c => by rw [V8_eq]; exact .rfl)
    (R3 := reg3 m) (hpre3 := fun c => by rw [V9_eq]; exact .rfl) (hpost3 := fun c => by rw [V10_eq]; exact .rfl)
    (R4 := reg4 m) (hpre4 := fun c => by rw [V11_eq]; exact .rfl) (hpost4 := fun c => by rw [V12_eq]; exact .rfl)

/-- THE FRAME: the run with the result forgotten. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run m ρ)

end Cert.Kernel.Hand

end
-- ==== Proof.KiRegion0.lean ====
/-
  The first launch: the node encoder, one grid point per tile of 2000 nodes (25 tiles).

  At a tile the body reads the tile's 2000 scalar features, the 128 encoder weights, the 128 biases, the
  whole 200 x 128 degree table and the tile's 2000 clipped degrees, and overwrites the tile's 2000 x 128
  block of the output with

      max( x_n * w_j + b_j + sum_d [deg_n = d] * table_{d j} , 0 ).

  Nothing is carried from one tile to the next: the block a tile leaves is one function of the blocks it
  reads.  This module says so for the memory operations only — which buffers are read, which one is
  overwritten whole, and with which function of what was read — at any float instance; the arithmetic
  itself stays folded in the body's one stored value.
-/
import proofs.«143383_j87711822119113_2_alg».proof.Proof.Gen.KernelIdeal.Launch
import proofs.«143383_j87711822119113_2_alg».proof.Proof.Gen.KernelIdeal.Skeleton
import proofs.«143383_j87711822119113_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the contents of the unscoped buffers when the launch is entered
variable (V : (c : Dev nD) → (b : Ref sig .tc) → Buf (Elt F) ((c : Thread nD τ).loc b))

/-- The block of window `w` that tile `t` sees: the window's rectangle at `t` read off its array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window holds its block at every tile, whether the tile fetched it or found it in place: a window
    that is not fetched at a tile has the same block index as at the tile before, so the same block.  One
    statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## What the body reads and writes -/

abbrev r0_S2000x1 : Rect S2000x1 := Rect.unit (s := S2000x1) ![0, 0] S2000x1.size inb_S2000x1_S2000x1_0_0
abbrev r0_S1x128 : Rect S1x128 := Rect.unit (s := S1x128) ![0, 0] S1x128.size inb_S1x128_S1x128_0_0
abbrev r0_S200x128 : Rect S200x128 := Rect.unit (s := S200x128) ![0, 0] S200x128.size inb_S200x128_S200x128_0_0
abbrev r0_S2000x128 : Rect S2000x128 := Rect.unit (s := S2000x128) ![0, 0] S2000x128.size inb_S2000x128_S2000x128_0_0

/-- The output block after the body: its one store covers the whole block with the body's value of the
    blocks read. -/
def out0 (x0 : Vec F S2000x1 .f32) (x1 : Vec F S1x128 .f32) (x2 : Vec F S1x128 .f32) (x3 : Vec F S200x128 .f32) (x4 : Vec F S2000x1 .i32) : Vec F S2000x128 .f32 :=
  View.canon [⟨r0_S2000x128, k0_pay1 (View.ld x0 r0_S2000x1) (View.ld x1 r0_S1x128) (View.ld x4 r0_S2000x1) (View.ld x3 r0_S200x128) (View.ld x2 r0_S1x128)⟩]

/-- The one stored rectangle is the whole block. -/
theorem cover0 (p : Vec F S2000x128 .f32) (y : S2000x128.Idx) :
    ∃ pc ∈ ([⟨r0_S2000x128, p⟩] : List (View.Piece (Elt F) S2000x128 .f32)), y ∈ pc.1.set :=
  View.cover_of_tiled [⟨r0_S2000x128, p⟩] S2000x128.size (by rfl) y

/-! ## The body's triple -/

set_option maxHeartbeats 2000000 in
/-- Run on whole staging buffers — the inputs at known contents, the output at anything — the body terminates
    without a fault, leaves the inputs as they were and the output at `out0` of the inputs.  (It also reads the
    output buffer once before overwriting it; the value read is not used.) -/
theorem sound_kernel0 (c : Dev nD) (E : Set ℕ) (i : grid0.Coords)
    (arg1 : Memref sig .tc .vmem S2000x1 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S200x128 .f32) (harg4 : arg4.IsWhole) (arg5 : Memref sig .tc .vmem S2000x1 .i32) (harg5 : arg5.IsWhole) (arg6 : Memref sig .tc .vmem S2000x128 .f32) (harg6 : arg6.IsWhole)
    (x0 : Vec F S2000x1 .f32) (x1 : Vec F S1x128 .f32) (x2 : Vec F S1x128 .f32) (x3 : Vec F S200x128 .f32) (x4 : Vec F S2000x1 .i32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out0 x0 x1 x2 x3 x4)) -∗ K ⟨⟩))
      ⊢ wp frame (wpE (defs₀ (F := F)) Variants.none c none) E (cc0__encode_kernel i arg1 harg1 arg2 harg2 arg3 harg3 arg4 harg4 arg5 harg5 arg6 harg6) K := by
  simp only [cc0__encode_kernel_eq_skeleton]; unfold cc0__encode_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover0 _)

/-! ## The proof data: what every window's buffer holds after the body, tile by tile -/

/-- The arrays as the launch finds them; after the body at tile `t` every input's buffer still at its block and the
    output's at the body's value of the input blocks; the scoped buffers and the generator register untouched; nothing
    owed to another core; every array held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = out0 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body at a tile -/

/-- What the body is called with at tile `t`: the invariant, the core's dues, every window's current buffer. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- At any tile the input buffers hold their blocks, so the body's triple applies; the invariant and the dues
    pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorems, at every tile. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KiRegion1.lean ====
/-
  Launch 1: the dense step of graph layer one (its residual block is all zeros), one grid point per tile of 2000 nodes (25 tiles).

  At a tile the body reads the tile's 2000 x 128 block of neighbour means, its 2000 x 128 block of node
  states, the two 128 x 128 weight matrices, the 128 biases and the tile's 2000 x 128 residual block, and
  overwrites the tile's 2000 x 128 block of the output with

      max( sum_k mean_{n k} * Wl_{j k}  +  b_j  +  sum_k state_{n k} * Wr_{j k} , 0 )  +  residual_{n j}.

  Nothing is carried from one tile to the next: the block a tile leaves is one function of the blocks it
  reads.  This module says so for the memory operations only — which buffers are read, which one is
  overwritten whole, and with which function of what was read — at any float instance; the arithmetic
  itself stays folded in the body's one stored value.
-/
import proofs.«143383_j87711822119113_2_alg».proof.Proof.Gen.KernelIdeal.Launch
import proofs.«143383_j87711822119113_2_alg».proof.Proof.Gen.KernelIdeal.Skeleton
import proofs.«143383_j87711822119113_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

-- the contents of the unscoped buffers when the launch is entered
variable (V : (c : Dev nD) → (b : Ref sig .tc) → Buf (Elt F) ((c : Thread nD τ).loc b))

/-- The block of window `w` that tile `t` sees: the window's rectangle at `t` read off its array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window holds its block at every tile, whether the tile fetched it or found it in place: a window
    that is not fetched at a tile has the same block index as at the tile before, so the same block.  One
    statement per input window. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## What the body reads and writes -/

abbrev r1_S2000x128 : Rect S2000x128 := Rect.unit (s := S2000x128) ![0, 0] S2000x128.size inb_S2000x128_S2000x128_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0

/-- The output block after the body: its one store covers the whole block with the body's value of the
    blocks read. -/
def out1 (x0 : Vec F S2000x128 .f32) (x1 : Vec F S2000x128 .f32) (x2 : Vec F S128x128 .f32) (x3 : Vec F S1x128 .f32) (x4 : Vec F S128x128 .f32) (x5 : Vec F S2000x128 .f32) : Vec F S2000x128 .f32 :=
  View.canon [⟨r1_S2000x128, k1_pay1 (View.ld x0 r1_S2000x128) (View.ld x1 r1_S2000x128) (View.ld x2 r1_S128x128) (View.ld x4 r1_S128x128) (View.ld x3 r1_S1x128) (View.ld x5 r1_S2000x128)⟩]

/-- The one stored rectangle is the whole block. -/
theorem cover1 (p : Vec F S2000x128 .f32) (y : S2000x128.Idx) :
    ∃ pc ∈ ([⟨r1_S2000x128, p⟩] : List (View.Piece (Elt F) S2000x128 .f32)), y ∈ pc.1.set :=
  View.cover_of_tiled [⟨r1_S2000x128, p⟩] S2000x128.size (by rfl) y

/-! ## The body's triple -/

set_option maxHeartbeats 2000000 in
/-- Run on whole staging buffers — the inputs at known contents, the output at anything — the body terminates
    without a fault, leaves the inputs as they were and the output at `out1` of the inputs.  (It also reads the
    output buffer once before overwriting it; the value read is not used.) -/
theorem sound_kernel1 (c : Dev nD) (E : Set ℕ) (i : grid1.Coords)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S2000x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out1 x0 x1 x2 x3 x4 x5)) -∗ K ⟨⟩))
      ⊢ wp frame (wpE (defs₀ (F := F)) Variants.none c none) E (cc1__sage_kernel i arg1 harg1 arg2 harg2 arg3 harg3 arg4 harg4 arg5 harg5 arg6 harg6 arg7 harg7) K := by
  simp only [cc1__sage_kernel_eq_skeleton]; unfold cc1__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover1 _)

/-! ## The proof data: what every window's buffer holds after the body, tile by tile -/

/-- The arrays as the launch finds them; after the body at tile `t` every input's buffer still at its block and the
    output's at the body's value of the input blocks; the scoped buffers and the generator register untouched; nothing
    owed to another core; every array held whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body at a tile -/

/-- What the body is called with at tile `t`: the invariant, the core's dues, every window's current buffer. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- At any tile the input buffers hold their blocks, so the body's triple applies; the invariant and the dues
    pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the launch theorems, at every tile. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KiRegion2.lean ====
/-
  Launch 2: the dense step of graph layer two (the residual is the layer's own input states), one grid point per tile of 2000 nodes (25 tiles).

  At a tile the body reads the tile's 2000 x 128 block of neighbour means, its 2000 x 128 block of node
  states, the two 128 x 128 weight matrices, the 128 biases and the tile's 2000 x 128 residual block, and
  overwrites the tile's 2000 x 128 block of the output with

      max( sum_k mean_{n k} * Wl_{j k}  +  b_j  +  sum_k state_{n k} * Wr_{j k} , 0 )  +  residual_{n j}.

  Nothing is carried from one tile to the next: the block a tile leaves is one function of the blocks it
  reads.  This module says so for the memory operations only — which buffers are read, which one is
  overwritten whole, and with which function of what was read — at any float instance; the arithmetic
  itself stays folded in the body's one stored value.
-/
import proofs.«143383_j87711822119113_2_alg».proof.Proof.Gen.KernelIdeal.Launch
import proofs.«143383_j87711822119113_2_alg».proof.Proof.Gen.KernelIdeal.Skeleton
import proofs.«143383_j87711822119113_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

-- the contents of the unscoped buffers when the launch is entered
variable (V : (c : Dev nD) → (b : Ref sig .tc) → Buf (Elt F) ((c : Thread nD τ).loc b))

/-- The block of window `w` that tile `t` sees: the window's rectangle at `t` read off its array. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window holds its block at every tile, whether the tile fetched it or found it in place: a window
    that is not fetched at a tile has the same block index as at the tile before, so the same block.  One
    statement per input window. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## What the body reads and writes -/

abbrev r2_S2000x128 : Rect S2000x128 := Rect.unit (s := S2000x128) ![0, 0] S2000x128.size inb_S2000x128_S2000x128_0_0
abbrev r2_S128x128 : Rect S128x128 := Rect.unit (s := S128x128) ![0, 0] S128x128.size inb_S128x128_S128x128_0_0
abbrev r2_S1x128 : Rect S1x128 := Rect.unit (s := S1x128) ![0, 0] S1x128.size inb_S1x128_S1x128_0_0

/-- The output block after the body: its one store covers the whole block with the body's value of the
    blocks read. -/
def out2 (x0 : Vec F S2000x128 .f32) (x1 : Vec F S2000x128 .f32) (x2 : Vec F S128x128 .f32) (x3 : Vec F S1x128 .f32) (x4 : Vec F S128x128 .f32) (x5 : Vec F S2000x128 .f32) : Vec F S2000x128 .f32 :=
  View.canon [⟨r2_S2000x128, k2_pay1 (View.ld x0 r2_S2000x128) (View.ld x1 r2_S2000x128) (View.ld x2 r2_S128x128) (View.ld x4 r2_S128x128) (View.ld x3 r2_S1x128) (View.ld x5 r2_S2000x128)⟩]

/-- The one stored rectangle is the whole block. -/
theorem cover2 (p : Vec F S2000x128 .f32) (y : S2000x128.Idx) :
    ∃ pc ∈ ([⟨r2_S2000x128, p⟩] : List (View.Piece (Elt F) S2000x128 .f32)), y ∈ pc.1.set :=
  View.cover_of_tiled [⟨r2_S2000x128, p⟩] S2000x128.size (by rfl) y

/-! ## The body's triple -/

set_option maxHeartbeats 2000000 in
/-- Run on whole staging buffers — the inputs at known contents, the output at anything — the body terminates
    without a fault, leaves the inputs as they were and the output at `out2` of the inputs.  (It also reads the
    output buffer once before overwriting it; the value read is not used.) -/
theorem sound_kernel2 (c : Dev nD) (E : Set ℕ) (i : grid2.Coords)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S2000x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out2 x0 x1 x2 x3 x4 x5)) -∗ K ⟨⟩))
      ⊢ wp frame (wpE (defs₀ (F := F)) Variants.none c none) E (cc2__sage_kernel i arg1 harg1 arg2 harg2 arg3 harg3 arg4 harg4 arg5 harg5 arg6 harg6 arg7 harg7) K := by
  simp only [cc2__sage_kernel_eq_skeleton]; unfold cc2__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover2 _)

/-! ## The proof data: what every window's buffer holds after the body, tile by tile -/

/-- The arrays as the launch finds them; after the body at tile `t` every input's buffer still at its block and the
    output's at the body's value of the input blocks; the scoped buffers and the generator register untouched; nothing
    owed to another core; every array held whole, except the one array two windows sit on (the node states and
    the residual), which each of the two holds half of. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2 (iblk2 V c 0 t) (iblk2 V c 1 t) (iblk2 V c 2 t) (iblk2 V c 3 t) (iblk2 V c 4 t) (iblk2 V c 5 t)
  Φ _ := Pipeline.ΦA spec2 c
  q w := match w with
    | ⟨1, _⟩ => fullShare.left
    | ⟨5, _⟩ => fullShare.right
    | _ => fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-! ## The body at a tile -/

/-- What the body is called with at tile `t`: the invariant, the core's dues, every window's current buffer. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- What it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- At any tile the input buffers hold their blocks, so the body's triple applies; the invariant and the dues
    pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the launch theorems, at every tile. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KiRegion3.lean ====
/-
  Launch 3: the dense step of graph layer three (the residual is the layer's own input states), one grid point per tile of 2000 nodes (25 tiles).

  At a tile the body reads the tile's 2000 x 128 block of neighbour means, its 2000 x 128 block of node
  states, the two 128 x 128 weight matrices, the 128 biases and the tile's 2000 x 128 residual block, and
  overwrites the tile's 2000 x 128 block of the output with

      max( sum_k mean_{n k} * Wl_{j k}  +  b_j  +  sum_k state_{n k} * Wr_{j k} , 0 )  +  residual_{n j}.

  Nothing is carried from one tile to the next: the block a tile leaves is one function of the blocks it
  reads.  This module says so for the memory operations only — which buffers are read, which one is
  overwritten whole, and with which function of what was read — at any float instance; the arithmetic
  itself stays folded in the body's one stored value.
-/
import proofs.«143383_j87711822119113_2_alg».proof.Proof.Gen.KernelIdeal.Launch
import proofs.«143383_j87711822119113_2_alg».proof.Proof.Gen.KernelIdeal.Skeleton
import proofs.«143383_j87711822119113_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

-- the contents of the unscoped buffers when the launch is entered
variable (V : (c : Dev nD) → (b : Ref sig .tc) → Buf (Elt F) ((c : Thread nD τ).loc b))

/-- The block of window `w` that tile `t` sees: the window's rectangle at `t` read off its array. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window holds its block at every tile, whether the tile fetched it or found it in place: a window
    that is not fetched at a tile has the same block index as at the tile before, so the same block.  One
    statement per input window. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

/-! ## What the body reads and writes -/

abbrev r3_S2000x128 : Rect S2000x128 := Rect.unit (s := S2000x128) ![0, 0] S2000x128.size inb_S2000x128_S2000x128_0_0
abbrev r3_S128x128 : Rect S128x128 := Rect.unit (s := S128x128) ![0, 0] S128x128.size inb_S128x128_S128x128_0_0
abbrev r3_S1x128 : Rect S1x128 := Rect.unit (s := S1x128) ![0, 0] S1x128.size inb_S1x128_S1x128_0_0

/-- The output block after the body: its one store covers the whole block with the body's value of the
    blocks read. -/
def out3 (x0 : Vec F S2000x128 .f32) (x1 : Vec F S2000x128 .f32) (x2 : Vec F S128x128 .f32) (x3 : Vec F S1x128 .f32) (x4 : Vec F S128x128 .f32) (x5 : Vec F S2000x128 .f32) : Vec F S2000x128 .f32 :=
  View.canon [⟨r3_S2000x128, k3_pay1 (View.ld x0 r3_S2000x128) (View.ld x1 r3_S2000x128) (View.ld x2 r3_S128x128) (View.ld x4 r3_S128x128) (View.ld x3 r3_S1x128) (View.ld x5 r3_S2000x128)⟩]

/-- The one stored rectangle is the whole block. -/
theorem cover3 (p : Vec F S2000x128 .f32) (y : S2000x128.Idx) :
    ∃ pc ∈ ([⟨r3_S2000x128, p⟩] : List (View.Piece (Elt F) S2000x128 .f32)), y ∈ pc.1.set :=
  View.cover_of_tiled [⟨r3_S2000x128, p⟩] S2000x128.size (by rfl) y

/-! ## The body's triple -/

set_option maxHeartbeats 2000000 in
/-- Run on whole staging buffers — the inputs at known contents, the output at anything — the body terminates
    without a fault, leaves the inputs as they were and the output at `out3` of the inputs.  (It also reads the
    output buffer once before overwriting it; the value read is not used.) -/
theorem sound_kernel3 (c : Dev nD) (E : Set ℕ) (i : grid3.Coords)
    (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S2000x128 .f32) (harg6 : arg6.IsWhole) (arg7 : Memref sig .tc .vmem S2000x128 .f32) (harg7 : arg7.IsWhole)
    (x0 : Vec F S2000x128 .f32) (x1 : Vec F S2000x128 .f32) (x2 : Vec F S128x128 .f32) (x3 : Vec F S1x128 .f32) (x4 : Vec F S128x128 .f32) (x5 : Vec F S2000x128 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out3 x0 x1 x2 x3 x4 x5)) -∗ K ⟨⟩))
      ⊢ wp frame (wpE (defs₀ (F := F)) Variants.none c none) E (cc3__sage_kernel i arg1 harg1 arg2 harg2 arg3 harg3 arg4 harg4 arg5 harg5 arg6 harg6 arg7 harg7) K := by
  simp only [cc3__sage_kernel_eq_skeleton]; unfold cc3__sage_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact HO
  ipureintro
  exact View.read_writes_eq_canon _ _ _ (cover3 _)

/-! ## The proof data: what every window's buffer holds after the body, tile by tile -/

/-- The arrays as the launch finds them; after the body at tile `t` every input's buffer still at its block and the
    output's at the body's value of the input blocks; the scoped buffers and the generator register untouched; nothing
    owed to another core; every array held whole, except the one array two windows sit on (the node states and
    the residual), which each of the two holds half of. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => out3 (iblk3 V c 0 t) (iblk3 V c 1 t) (iblk3 V c 2 t) (iblk3 V c 3 t) (iblk3 V c 4 t) (iblk3 V c 5 t)
  Φ _ := Pipeline.ΦA spec3 c
  q w := match w with
    | ⟨1, _⟩ => fullShare.left
    | ⟨5, _⟩ => fullShare.right
    | _ => fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = out3 (iblk3 V c 0 t) (iblk3 V c 1 t) (iblk3 V c 2 t) (iblk3 V c 3 t) (iblk3 V c 4 t) (iblk3 V c 5 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d

/-! ## The body at a tile -/

/-- What the body is called with at tile `t`: the invariant, the core's dues, every window's current buffer. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t))

/-- At any tile the input buffers hold their blocks, so the body's triple applies; the invariant and the dues
    pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel3 c Set.univ _ _ _ _ _ _ _ _ _ _ _ _ _ _ _ (iblk3 V c 0 t) (iblk3 V c 1 t) (iblk3 V c 2 t) (iblk3 V c 3 t) (iblk3 V c 4 t) (iblk3 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation of the launch theorems, at every tile. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Hand

end
-- ==== Proof.KiRegion4.lean ====
/-
  The last launch: the two-layer read-out, one grid point per tile of 2000 nodes (25 tiles).

  At a tile the body reads the tile's 2000 x 128 block of final node states, the 64 x 128 hidden weights,
  the 64 hidden biases, the 64 output weights and the one output bias, and overwrites the tile's 2000 x 1
  block of the output with

      sum_k max( sum_l state_{n l} * W1_{k l} + b1_k , 0 ) * w2_k  +  b2.

  Nothing is carried from one tile to the next: the block a tile leaves is one function of the blocks it
  reads.  This module says so for the memory operations only — which buffers are read, which one is
  overwritten whole, and with which function of what was read — at any float instance; the arithmetic
  itself stays folded in the body's one stored value.
-/
import proofs.«143383_j87711822119113_2_alg».proof.Proof.Gen.KernelIdeal.Launch
import proofs.«143383_j87711822119113_2_alg».proof.Proof.Gen.KernelIdeal.Skeleton
import proofs.«143383_j87711822119113_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region4

-- the contents of the unscoped buffers when the launch is entered
variable (V : (c : Dev nD) → (b : Ref sig .tc) → Buf (Elt F) ((c : Thread nD τ).loc b))

/-- The block of window `w` that tile `t` sees: the window's rectangle at `t` read off its array. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window holds its block at every tile, whether the tile fetched it or found it in place: a window
    that is not fetched at a tile has the same block index as at the tile before, so the same block.  One
    statement per input window. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## What the body reads and writes -/

abbrev r4_S2000x128 : Rect S2000x128 := Rect.unit (s := S2000x128) ![0, 0] S2000x128.size inb_S2000x128_S2000x128_0_0
abbrev r4_S64x128 : Rect S64x128 := Rect.unit (s := S64x128) ![0, 0] S64x128.size inb_S64x128_S64x128_0_0
abbrev r4_S1x64 : Rect S1x64 := Rect.unit (s := S1x64) ![0, 0] S1x64.size inb_S1x64_S1x64_0_0
abbrev r4_S1x1 : Rect S1x1 := Rect.unit (s := S1x1) ![0, 0] S1x1.size inb_S1x1_S1x1_0_0
abbrev r4_S2000x1 : Rect S2000x1 := Rect.unit (s := S2000x1) ![0, 0] S2000x1.size inb_S2000x1_S2000x1_0_0

/-- The output block after the body: its one store covers the whole block with the body's value of the
    blocks read. -/
def out4 (x0 : Vec F S2000x128 .f32) (x1 : Vec F S64x128 .f32) (x2 : Vec F S1x64 .f32) (x3 : Vec F S1x64 .f32) (x4 : Vec F S1x1 .f32) : Vec F S2000x1 .f32 :=
  View.canon [⟨r4_S2000x1, k4_pay1 (View.ld x0 r4_S2000x128) (View.ld x1 r4_S64x128) (View.ld x2 r4_S1x64) (View.ld x3 r4_S1x64) (View.ld x4 r4_S1x1)⟩]

/-- The one stored rectangle is the whole block. -/
theorem cover4 (p : Vec F S2000x1 .f32) (y : S2000x1.Idx) :
    ∃ pc ∈ ([⟨r4_S2000x1, p⟩] : List (View.Piece (Elt F) S2000x1 .f32)), y ∈ pc.1.set :=
  View.cover_of_tiled [⟨r4_S2000x1, p⟩] S2000x1.size (by rfl) y

/-! ## The body's triple -/

set_option maxHeartbeats 2000000 in
/-- Run on whole staging buffers — the inputs at known contents, the output at anything — the body terminates
    without a fault, leaves the inputs as they were and the output at `out4` of the inputs.  (It also reads the
    output buffer once before overwriting it; the value read is not used.) -/
theorem sound_kernel4 (c : Dev nD) (E : Set ℕ) (i : grid4.Coords)
    (arg1 : Memref sig .tc .vmem S2000x128 .f32) (harg1 : arg1.IsWhole) (arg2 : Memref sig .tc .vmem S64x128 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x1 .f32) (harg5 : arg5.IsWhole) (arg6 : Memref sig .tc .vmem S2000x1 .f32) (harg6 : arg6.IsWhole)
    (x0 : Vec F S2000x128 .f32) (x1 : Vec F S64x128 .f32) (x2 : Vec F S1x64 .f32) (x3 : Vec F S1x64 .f32) (x4 : Vec F S1x1 .f32)
    (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ owns (c : Thread nD τ) arg6 fullShare (out4 x0 x1 x2 x3 x4)) -∗ K ⟨⟩))
      ⊢ wp frame (wpE (defs₀ (F := F)) Variants.none c none) E (cc4__mlp_kernel i arg1 harg1 arg2 harg2 arg3 harg3 arg4 harg4 arg5 harg5 arg6 harg6) K := by
  simp only [cc4__mlp_kernel_eq_skeleton]; unfold cc4__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%dO, %fO, -, HO⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact HO
  ipureintro
  exact View.read_writes_eq_canon _ _ _ (cover4 _)

/-! ## The proof data: what every window's buffer holds after the body, tile by tile -/

/-- The arrays as the launch finds them; after the body at tile `t` every input's buffer still at its block and the
    output's at the body's value of the input blocks; the scoped buffers and the generator register untouched; nothing
    owed to another core; every array held whole. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4 (iblk4 V c 0 t) (iblk4 V c 1 t) (iblk4 V c 2 t) (iblk4 V c 3 t) (iblk4 V c 4 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4 (iblk4 V c 0 t) (iblk4 V c 1 t) (iblk4 V c 2 t) (iblk4 V c 3 t) (iblk4 V c 4 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body at a tile -/

/-- What the body is called with at tile `t`: the invariant, the core's dues, every window's current buffer. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- What it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- At any tile the input buffers hold their blocks, so the body's triple applies; the invariant and the dues
    pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of the launch theorems, at every tile. -/
theorem body_obligation4 (c : Dev nD) : BodyObligation (dat4 (F := F) V c) (defs₀ (F := F)) Variants.none () Set.univ := fun t => by
  rw [bigSep_W4, bigSep_W4]
  exact sound_body4 V c t

end Region4

end Cert.KernelIdeal.Hand

end
-- ==== Proof.KiShare2.lean ====
/-
  Launch 2 reads ONE array through TWO input windows (the node states, and the same states again as the
  residual).  A buffer held whole can be lent to two readers as two halves, and two halves at the same
  contents are the whole buffer again; no window of this launch writes that array.  This module splits the six
  distinct buffers behind the launch's seven windows into the seven windows' arrays, and joins them back.
-/
import proofs.«143383_j87711822119113_2_alg».proof.Proof.KiRegion2

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The seven windows sit on six distinct buffers. -/
theorem himg2 : Finset.univ.image (Pipeline.arrRef spec2) = ({main_v48, main_v36, main_arg8, main_v49, main_arg10, main_v50} : Finset (Ref sig .tc)) := by decide

/-- The two halves of the whole share compose to it. -/
theorem half_mem2 : fullShare ∈ PCS.op fullShare.left fullShare.right := by
  rw [PosShare.left_op_right]; exact Part.mem_some _

/-- The six buffers conjoined one by one. -/
theorem bigSep_arrs2 {M : Type} [URA M] (Φ : Ref sig .tc → sProp M) :
    bigSep ({main_v48, main_v36, main_arg8, main_v49, main_arg10, main_v50} : Finset (Ref sig .tc)) Φ
      = iprop(Φ main_v48 ∗ Φ main_v36 ∗ Φ main_arg8 ∗ Φ main_v49 ∗ Φ main_arg10 ∗ Φ main_v50) := by
  rw [bigSep_insert (by decide), bigSep_insert (by decide), bigSep_insert (by decide), bigSep_insert (by decide),
    bigSep_insert (by decide), bigSep_singleton]
  rfl

variable (V : (c : Dev nD) → (b : Ref sig .tc) → Buf (Elt F) ((c : Thread nD τ).loc b))

/-- The seven windows' arrays, one by one: every array is a whole buffer; the two windows on the shared buffer hold
    its left and its right half, every other window its buffer whole. -/
theorem arrays_eq2 (c : Dev nD) (G : (w : Fin cfg2.W) → Buf (Elt F) ((cfg2.win w).arr.view.loc (c.tc : Thread nD τ))) :
    ((dat2 V c).arrays G : sProp 𝕄)
      = iprop(((c.tc : Thread nD τ).loc main_v48 ↦{fullShare} G 0)
        ∗ ((c.tc : Thread nD τ).loc main_v36 ↦{fullShare.left} G 1)
        ∗ ((c.tc : Thread nD τ).loc main_arg8 ↦{fullShare} G 2)
        ∗ ((c.tc : Thread nD τ).loc main_v49 ↦{fullShare} G 3)
        ∗ ((c.tc : Thread nD τ).loc main_arg10 ↦{fullShare} G 4)
        ∗ ((c.tc : Thread nD τ).loc main_v36 ↦{fullShare.right} G 5)
        ∗ ((c.tc : Thread nD τ).loc main_v50 ↦{fullShare} G 6)) := by
  unfold Dat.arrays
  have h : ∀ w : Fin cfg2.W, ((cfg2.win w).arr.view.loc (c.tc : Thread nD τ) ↦[(cfg2.win w).arr.view.set]{(dat2 V c).share w} G w : sProp 𝕄)
      = ((c.tc : Thread nD τ).loc (Pipeline.arrRef spec2 w) ↦{(dat2 V c).share w} G w) := fun w => by
    rw [(arr_whole2 w).set_eq_univ]
  rw [bigSep_congr (fun w _ => h w), bigSep_W2]
  rfl

/-- ENTRY: the six buffers, each whole at the entry contents, are the seven windows' arrays at the entry contents —
    the shared buffer as its two halves. -/
theorem arrays_split2 (c : Dev nD) :
    (Pipeline.arrBufs (Ix := Unit) (Name := ℕ) (U := UR sig nD τ) (Lvl := ℕ) spec2 c (V c) : sProp 𝕄)
      ⊢ (dat2 V c).arrays ((dat2 V c).arrAt · 0) := by
  have hA : ∀ w, (dat2 V c).arrAt w 0 = V c (Pipeline.arrRef spec2 w) := fun w => A_eq2 V c w
  rw [arrays_eq2]
  simp only [hA]
  unfold Pipeline.arrBufs
  rw [himg2, bigSep_arrs2]
  iintro ⟨H0, H1, H2, H3, H4, H6⟩
  ihave H1' := (pointsTo_share half_mem2).1 $$ H1
  icases H1' with ⟨H1a, H1b⟩
  isplitl [H0]; · iexact H0
  isplitl [H1a]; · iexact H1a
  isplitl [H2]; · iexact H2
  isplitl [H3]; · iexact H3
  isplitl [H4]; · iexact H4
  isplitl [H1b]; · iexact H1b
  iexact H6

/-- EXIT: the seven windows' arrays at what the pipeline leaves — the two halves still at ONE contents, the output
    array rewritten — are the six buffers whole again, at any contents `V'` that agrees with what the pipeline leaves. -/
theorem arrays_join2 (c : Dev nD) (V' : (b : Ref sig .tc) → Buf (Elt F) ((c : Thread nD τ).loc b))
    (hF : ∀ w, (dat2 V c).arrAt w cfg2.N = V' (Pipeline.arrRef spec2 w)) :
    (dat2 V c).arrays ((dat2 V c).arrAt · cfg2.N)
      ⊢ (Pipeline.arrBufs (Ix := Unit) (Name := ℕ) (U := UR sig nD τ) (Lvl := ℕ) spec2 c V' : sProp 𝕄) := by
  rw [arrays_eq2]
  simp only [hF]
  unfold Pipeline.arrBufs
  rw [himg2, bigSep_arrs2]
  iintro ⟨H0, H1a, H2, H3, H4, H1b, H6⟩
  isplitl [H0]; · iexact H0
  isplitl [H1a H1b]
  · iapply (pointsTo_share half_mem2).2
    isplitl [H1a]; · iexact H1a
    iexact H1b
  isplitl [H2]; · iexact H2
  isplitl [H3]; · iexact H3
  isplitl [H4]; · iexact H4
  iexact H6

end Cert.KernelIdeal.Hand

end
-- ==== Proof.KiShare3.lean ====
/-
  Launch 3 reads ONE array through TWO input windows (the node states, and the same states again as the
  residual).  A buffer held whole can be lent to two readers as two halves, and two halves at the same
  contents are the whole buffer again; no window of this launch writes that array.  This module splits the six
  distinct buffers behind the launch's seven windows into the seven windows' arrays, and joins them back.
-/
import proofs.«143383_j87711822119113_2_alg».proof.Proof.KiRegion3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The seven windows sit on six distinct buffers. -/
theorem himg3 : Finset.univ.image (Pipeline.arrRef spec3) = ({main_v62, main_v50, main_arg11, main_v63, main_arg13, main_v64} : Finset (Ref sig .tc)) := by decide

/-- The two halves of the whole share compose to it. -/
theorem half_mem3 : fullShare ∈ PCS.op fullShare.left fullShare.right := by
  rw [PosShare.left_op_right]; exact Part.mem_some _

/-- The six buffers conjoined one by one. -/
theorem bigSep_arrs3 {M : Type} [URA M] (Φ : Ref sig .tc → sProp M) :
    bigSep ({main_v62, main_v50, main_arg11, main_v63, main_arg13, main_v64} : Finset (Ref sig .tc)) Φ
      = iprop(Φ main_v62 ∗ Φ main_v50 ∗ Φ main_arg11 ∗ Φ main_v63 ∗ Φ main_arg13 ∗ Φ main_v64) := by
  rw [bigSep_insert (by decide), bigSep_insert (by decide), bigSep_insert (by decide), bigSep_insert (by decide),
    bigSep_insert (by decide), bigSep_singleton]
  rfl

variable (V : (c : Dev nD) → (b : Ref sig .tc) → Buf (Elt F) ((c : Thread nD τ).loc b))

/-- The seven windows' arrays, one by one: every array is a whole buffer; the two windows on the shared buffer hold
    its left and its right half, every other window its buffer whole. -/
theorem arrays_eq3 (c : Dev nD) (G : (w : Fin cfg3.W) → Buf (Elt F) ((cfg3.win w).arr.view.loc (c.tc : Thread nD τ))) :
    ((dat3 V c).arrays G : sProp 𝕄)
      = iprop(((c.tc : Thread nD τ).loc main_v62 ↦{fullShare} G 0)
        ∗ ((c.tc : Thread nD τ).loc main_v50 ↦{fullShare.left} G 1)
        ∗ ((c.tc : Thread nD τ).loc main_arg11 ↦{fullShare} G 2)
        ∗ ((c.tc : Thread nD τ).loc main_v63 ↦{fullShare} G 3)
        ∗ ((c.tc : Thread nD τ).loc main_arg13 ↦{fullShare} G 4)
        ∗ ((c.tc : Thread nD τ).loc main_v50 ↦{fullShare.right} G 5)
        ∗ ((c.tc : Thread nD τ).loc main_v64 ↦{fullShare} G 6)) := by
  unfold Dat.arrays
  have h : ∀ w : Fin cfg3.W, ((cfg3.win w).arr.view.loc (c.tc : Thread nD τ) ↦[(cfg3.win w).arr.view.set]{(dat3 V c).share w} G w : sProp 𝕄)
      = ((c.tc : Thread nD τ).loc (Pipeline.arrRef spec3 w) ↦{(dat3 V c).share w} G w) := fun w => by
    rw [(arr_whole3 w).set_eq_univ]
  rw [bigSep_congr (fun w _ => h w), bigSep_W3]
  rfl

/-- ENTRY: the six buffers, each whole at the entry contents, are the seven windows' arrays at the entry contents —
    the shared buffer as its two halves. -/
theorem arrays_split3 (c : Dev nD) :
    (Pipeline.arrBufs (Ix := Unit) (Name := ℕ) (U := UR sig nD τ) (Lvl := ℕ) spec3 c (V c) : sProp 𝕄)
      ⊢ (dat3 V c).arrays ((dat3 V c).arrAt · 0) := by
  have hA : ∀ w, (dat3 V c).arrAt w 0 = V c (Pipeline.arrRef spec3 w) := fun w => A_eq3 V c w
  rw [arrays_eq3]
  simp only [hA]
  unfold Pipeline.arrBufs
  rw [himg3, bigSep_arrs3]
  iintro ⟨H0, H1, H2, H3, H4, H6⟩
  ihave H1' := (pointsTo_share half_mem3).1 $$ H1
  icases H1' with ⟨H1a, H1b⟩
  isplitl [H0]; · iexact H0
  isplitl [H1a]; · iexact H1a
  isplitl [H2]; · iexact H2
  isplitl [H3]; · iexact H3
  isplitl [H4]; · iexact H4
  isplitl [H1b]; · iexact H1b
  iexact H6

/-- EXIT: the seven windows' arrays at what the pipeline leaves — the two halves still at ONE contents, the output
    array rewritten — are the six buffers whole again, at any contents `V'` that agrees with what the pipeline leaves. -/
theorem arrays_join3 (c : Dev nD) (V' : (b : Ref sig .tc) → Buf (Elt F) ((c : Thread nD τ).loc b))
    (hF : ∀ w, (dat3 V c).arrAt w cfg3.N = V' (Pipeline.arrRef spec3 w)) :
    (dat3 V c).arrays ((dat3 V c).arrAt · cfg3.N)
      ⊢ (Pipeline.arrBufs (Ix := Unit) (Name := ℕ) (U := UR sig nD τ) (Lvl := ℕ) spec3 c V' : sProp 𝕄) := by
  rw [arrays_eq3]
  simp only [hF]
  unfold Pipeline.arrBufs
  rw [himg3, bigSep_arrs3]
  iintro ⟨H0, H1a, H2, H3, H4, H1b, H6⟩
  isplitl [H0]; · iexact H0
  isplitl [H1a H1b]
  · iapply (pointsTo_share half_mem3).2
    isplitl [H1a]; · iexact H1a
    iexact H1b
  isplitl [H2]; · iexact H2
  isplitl [H3]; · iexact H3
  isplitl [H4]; · iexact H4
  iexact H6

end Cert.KernelIdeal.Hand

end
-- ==== Proof.KiRunCond.lean ====
/-
  The program's run with its RESULT named.

  Chained over the same five segments as the frame, the run ends with every unscoped buffer of a core at the
  last boundary's contents; read at the result buffer this names what the program returns, beside the eighteen
  argument arrays ending as launched.
-/
import proofs.«143383_j87711822119113_2_alg».proof.Proof.Gen.KernelIdeal.Regions

set_option maxRecDepth 1152

noncomputable section

namespace Cert.KernelIdeal.HandCond

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

set_option backward.isDefEq.respectTransparency.types false in
/-- Given one segment record per launch, entered from the thread state before it and left at the one after it, every
    weakly fair execution from memory `m` with zero counters terminates, the result buffer ends at the last boundary's
    contents, and every argument array ends as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V9 m outs c) ∗ E 3 c) ⊢ R3.pre c)
    (hpost3 : ∀ c : Dev nD, R3.post c ⊢ iprop(StableHlo.held (c : Thread nD τ) (Pipeline.ucRefs τ sig) (V10 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V11 m outs c) ∗ E 4 c) ⊢ R4.pre c)
    (hpost4 : ∀ c : Dev nD, R4.post c ⊢ iprop(StableHlo.held (c : Thread nD τ) (Pipeline.ucRefs τ sig) (V12 m outs c) ∗ E 5 c)) :
    θ_run defs (onTc (τ := τ) (main (F := F))) ⟨m, fun _ => 0, ρ⟩ (fun r => ∀ c : Dev nD,
      r.2.mem ((c.tc : Thread nD τ).loc main_v69) = V13 m outs c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V13 m outs c))
    (hch := fun c => ⟨.rfl, .rfl, .rfl, hpre0 c, hpost0 c, hpre1 c, hpost1 c, hpre2 c, hpost2 c, hpre3 c, hpost3 c, hpre4 c, hpost4 c, sep_mono .rfl (hE5 c)⟩)
    (hinit := ?_) (QY := fun c s => s.mem ((c.tc : Thread nD τ).loc main_v69) = V13 m outs c main_v69 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V13 m outs c) s') $$ [Hh HSI]
    · isplitl [Hh] <;> iassumption
    icases Hr with ⟨%h, HSI⟩
    imodintro
    isplitr
    · ipureintro
      exact ⟨h (Proc.devRef .tc main_v69) (Finset.mem_filter.mpr ⟨StableHlo.devRef_mem_tcRefs main_v69, by decide⟩),
        (h (Proc.devRef .tc main_arg0) (Finset.mem_filter.mpr ⟨StableHlo.devRef_mem_tcRefs main_arg0, by decide⟩)).trans (V13_main_arg0 m outs c),
        (h (Proc.devRef .tc main_arg1) (Finset.mem_filter.mpr ⟨StableHlo.devRef_mem_tcRefs main_arg1, by decide⟩)).trans (V13_main_arg1 m outs c),
        (h (Proc.devRef .tc main_arg2) (Finset.mem_filter.mpr ⟨StableHlo.devRef_mem_tcRefs main_arg2, by decide⟩)).trans (V13_main_arg2 m outs c),
        (h (Proc.devRef .tc main_arg3) (Finset.mem_filter.mpr ⟨StableHlo.devRef_mem_tcRefs main_arg3, by decide⟩)).trans (V13_main_arg3 m outs c),
        (h (Proc.devRef .tc main_arg4) (Finset.mem_filter.mpr ⟨StableHlo.devRef_mem_tcRefs main_arg4, by decide⟩)).trans (V13_main_arg4 m outs c),
        (h (Proc.devRef .tc main_arg5) (Finset.mem_filter.mpr ⟨StableHlo.devRef_mem_tcRefs main_arg5, by decide⟩)).trans (V13_main_arg5 m outs c),
        (h (Proc.devRef .tc main_arg6) (Finset.mem_filter.mpr ⟨StableHlo.devRef_mem_tcRefs main_arg6, by decide⟩)).trans (V13_main_arg6 m outs c),
        (h (Proc.devRef .tc main_arg7) (Finset.mem_filter.mpr ⟨StableHlo.devRef_mem_tcRefs main_arg7, by decide⟩)).trans (V13_main_arg7 m outs c),
        (h (Proc.devRef .tc main_arg8) (Finset.mem_filter.mpr ⟨StableHlo.devRef_mem_tcRefs main_arg8, by decide⟩)).trans (V13_main_arg8 m outs c),
        (h (Proc.devRef .tc main_arg9) (Finset.mem_filter.mpr ⟨StableHlo.devRef_mem_tcRefs main_arg9, by decide⟩)).trans (V13_main_arg9 m outs c),
        (h (Proc.devRef .tc main_arg10) (Finset.mem_filter.mpr ⟨StableHlo.devRef_mem_tcRefs main_arg10, by decide⟩)).trans (V13_main_arg10 m outs c),
        (h (Proc.devRef .tc main_arg11) (Finset.mem_filter.mpr ⟨StableHlo.devRef_mem_tcRefs main_arg11, by decide⟩)).trans (V13_main_arg11 m outs c),
        (h (Proc.devRef .tc main_arg12) (Finset.mem_filter.mpr ⟨StableHlo.devRef_mem_tcRefs main_arg12, by decide⟩)).trans (V13_main_arg12 m outs c),
        (h (Proc.devRef .tc main_arg13) (Finset.mem_filter.mpr ⟨StableHlo.devRef_mem_tcRefs main_arg13, by decide⟩)).trans (V13_main_arg13 m outs c),
        (h (Proc.devRef .tc main_arg14) (Finset.mem_filter.mpr ⟨StableHlo.devRef_mem_tcRefs main_arg14, by decide⟩)).trans (V13_main_arg14 m outs c),
        (h (Proc.devRef .tc main_arg15) (Finset.mem_filter.mpr ⟨StableHlo.devRef_mem_tcRefs main_arg15, by decide⟩)).trans (V13_main_arg15 m outs c),
        (h (Proc.devRef .tc main_arg16) (Finset.mem_filter.mpr ⟨StableHlo.devRef_mem_tcRefs main_arg16, by decide⟩)).trans (V13_main_arg16 m outs c),
        (h (Proc.devRef .tc main_arg17) (Finset.mem_filter.mpr ⟨StableHlo.devRef_mem_tcRefs main_arg17, by decide⟩)).trans (V13_main_arg17 m outs c)⟩
    · iexact HSI

end Cert.KernelIdeal.HandCond

end
-- ==== Proof.KiRun.lean ====
/-
  The whole program: five launches among stretches of host operations.

  Between two items every unscoped buffer of a core is held whole; a stretch of host operations rewrites
  the buffers it computes and nothing else; a launch rewrites its one output array — with the blocks its 25
  tiles write back — and nothing else.  No item ever writes an argument array, so each of the eighteen ends
  as launched: that is the frame.  The same chain names what every buffer holds when the program returns.
-/
import proofs.«143383_j87711822119113_2_alg».proof.Proof.KiRegion0
import proofs.«143383_j87711822119113_2_alg».proof.Proof.KiRegion1
import proofs.«143383_j87711822119113_2_alg».proof.Proof.KiRegion2
import proofs.«143383_j87711822119113_2_alg».proof.Proof.KiRegion3
import proofs.«143383_j87711822119113_2_alg».proof.Proof.KiRegion4
import proofs.«143383_j87711822119113_2_alg».proof.Proof.KiShare2
import proofs.«143383_j87711822119113_2_alg».proof.Proof.KiShare3
import proofs.«143383_j87711822119113_2_alg».proof.Proof.KiRunCond
import proofs.«143383_j87711822119113_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## The buffers' contents at every boundary -/

/-- The buffers when launch 0 is entered: the launch memory with the three leading stretches of host operations applied. -/
abbrev Wi0 (c : Dev nD) : Valuation τ sig (Elt F) := Gen.V3 m c
abbrev En0 : (c : Dev nD) → (b : Ref sig .tc) → Buf (Elt F) ((c : Thread nD τ).loc b) := fun c b => Wi0 m c b

/-- What launch 0 leaves in its output array: the blocks its 25 tiles wrote back, folded over the grid. -/
def o0 (c : Dev nD) : Buf (Elt F) ((c : Thread nD τ).loc main_v21) := (dat0 (En0 m) c).arrAt 5 cfg0.N
/-- The buffers when launch 0 returns: its output array rewritten, every other buffer as entered. -/
abbrev Wo0 (c : Dev nD) : Valuation τ sig (Elt F) := Function.update (Wi0 m c) main_v21 (o0 m c)
/-- The buffers when launch 1 is entered: the host operations between the two launches applied. -/
abbrev Wi1 (c : Dev nD) : Valuation τ sig (Elt F) := StableHlo.after hostOps1 (Wo0 m c)
abbrev En1 : (c : Dev nD) → (b : Ref sig .tc) → Buf (Elt F) ((c : Thread nD τ).loc b) := fun c b => Wi1 m c b

/-- What launch 1 leaves in its output array: the blocks its 25 tiles wrote back, folded over the grid. -/
def o1 (c : Dev nD) : Buf (Elt F) ((c : Thread nD τ).loc main_v36) := (dat1 (En1 m) c).arrAt 6 cfg1.N
/-- The buffers when launch 1 returns: its output array rewritten, every other buffer as entered. -/
abbrev Wo1 (c : Dev nD) : Valuation τ sig (Elt F) := Function.update (Wi1 m c) main_v36 (o1 m c)
/-- The buffers when launch 2 is entered: the host operations between the two launches applied. -/
abbrev Wi2 (c : Dev nD) : Valuation τ sig (Elt F) := StableHlo.after hostOps2 (Wo1 m c)
abbrev En2 : (c : Dev nD) → (b : Ref sig .tc) → Buf (Elt F) ((c : Thread nD τ).loc b) := fun c b => Wi2 m c b

/-- What launch 2 leaves in its output array: the blocks its 25 tiles wrote back, folded over the grid. -/
def o2 (c : Dev nD) : Buf (Elt F) ((c : Thread nD τ).loc main_v50) := (dat2 (En2 m) c).arrAt 6 cfg2.N
/-- The buffers when launch 2 returns: its output array rewritten, every other buffer as entered. -/
abbrev Wo2 (c : Dev nD) : Valuation τ sig (Elt F) := Function.update (Wi2 m c) main_v50 (o2 m c)
/-- The buffers when launch 3 is entered: the host operations between the two launches applied. -/
abbrev Wi3 (c : Dev nD) : Valuation τ sig (Elt F) := StableHlo.after hostOps3 (Wo2 m c)
abbrev En3 : (c : Dev nD) → (b : Ref sig .tc) → Buf (Elt F) ((c : Thread nD τ).loc b) := fun c b => Wi3 m c b

/-- What launch 3 leaves in its output array: the blocks its 25 tiles wrote back, folded over the grid. -/
def o3 (c : Dev nD) : Buf (Elt F) ((c : Thread nD τ).loc main_v64) := (dat3 (En3 m) c).arrAt 6 cfg3.N
/-- The buffers when launch 3 returns: its output array rewritten, every other buffer as entered. -/
abbrev Wo3 (c : Dev nD) : Valuation τ sig (Elt F) := Function.update (Wi3 m c) main_v64 (o3 m c)
/-- The buffers when launch 4 is entered: the host operations between the two launches applied. -/
abbrev Wi4 (c : Dev nD) : Valuation τ sig (Elt F) := StableHlo.after hostOps4 (Wo3 m c)
abbrev En4 : (c : Dev nD) → (b : Ref sig .tc) → Buf (Elt F) ((c : Thread nD τ).loc b) := fun c b => Wi4 m c b

/-- What launch 4 leaves in its output array: the blocks its 25 tiles wrote back, folded over the grid. -/
def o4 (c : Dev nD) : Buf (Elt F) ((c : Thread nD τ).loc main_v67) := (dat4 (En4 m) c).arrAt 5 cfg4.N
/-- The buffers when launch 4 returns: its output array rewritten, every other buffer as entered. -/
abbrev Wo4 (c : Dev nD) : Valuation τ sig (Elt F) := Function.update (Wi4 m c) main_v67 (o4 m c)

/-- What the launches leave, as the family the conditional frame is stated over. -/
def outs : Gen.Outs (F := F) := fun _ r c =>
  if h0 : r = main_v21 then h0 ▸ o0 m c
  else if h1 : r = main_v36 then h1 ▸ o1 m c
  else if h2 : r = main_v50 then h2 ▸ o2 m c
  else if h3 : r = main_v64 then h3 ▸ o3 m c
  else if h4 : r = main_v67 then h4 ▸ o4 m c
  else Gen.V0 m c r

theorem outs_0 (J : ℕ) (c : Dev nD) : outs m J main_v21 c = o0 m c := by
  unfold outs; simp only [dite_true, dite_false, dif_pos, dif_neg, not_false_eq_true]
  try rfl
theorem outs_1 (J : ℕ) (c : Dev nD) : outs m J main_v36 c = o1 m c := by
  unfold outs; simp only [show ¬ (main_v36 : Ref sig .tc) = main_v21 from by decide, dite_true, dite_false, dif_pos, dif_neg, not_false_eq_true]
  try rfl
theorem outs_2 (J : ℕ) (c : Dev nD) : outs m J main_v50 c = o2 m c := by
  unfold outs; simp only [show ¬ (main_v50 : Ref sig .tc) = main_v21 from by decide, show ¬ (main_v50 : Ref sig .tc) = main_v36 from by decide, dite_true, dite_false, dif_pos, dif_neg, not_false_eq_true]
  try rfl
theorem outs_3 (J : ℕ) (c : Dev nD) : outs m J main_v64 c = o3 m c := by
  unfold outs; simp only [show ¬ (main_v64 : Ref sig .tc) = main_v21 from by decide, show ¬ (main_v64 : Ref sig .tc) = main_v36 from by decide, show ¬ (main_v64 : Ref sig .tc) = main_v50 from by decide, dite_true, dite_false, dif_pos, dif_neg, not_false_eq_true]
  try rfl
theorem outs_4 (J : ℕ) (c : Dev nD) : outs m J main_v67 c = o4 m c := by
  unfold outs; simp only [show ¬ (main_v67 : Ref sig .tc) = main_v21 from by decide, show ¬ (main_v67 : Ref sig .tc) = main_v36 from by decide, show ¬ (main_v67 : Ref sig .tc) = main_v50 from by decide, show ¬ (main_v67 : Ref sig .tc) = main_v64 from by decide, dite_true, dite_false, dif_pos, dif_neg, not_false_eq_true]
  try rfl

theorem V4_eq (c : Dev nD) : Gen.V4 m (outs m) c = Wo0 m c := by
  show Function.update (Gen.V3 m c) main_v21 (outs m 4 main_v21 c) = _; rw [outs_0]
theorem V5_eq (c : Dev nD) : Gen.V5 m (outs m) c = Wi1 m c := by
  show StableHlo.after hostOps1 (Gen.V4 m (outs m) c) = _; rw [V4_eq]
theorem V6_eq (c : Dev nD) : Gen.V6 m (outs m) c = Wo1 m c := by
  show Function.update (Gen.V5 m (outs m) c) main_v36 (outs m 6 main_v36 c) = _; rw [outs_1, V5_eq]
theorem V7_eq (c : Dev nD) : Gen.V7 m (outs m) c = Wi2 m c := by
  show StableHlo.after hostOps2 (Gen.V6 m (outs m) c) = _; rw [V6_eq]
theorem V8_eq (c : Dev nD) : Gen.V8 m (outs m) c = Wo2 m c := by
  show Function.update (Gen.V7 m (outs m) c) main_v50 (outs m 8 main_v50 c) = _; rw [outs_2, V7_eq]
theorem V9_eq (c : Dev nD) : Gen.V9 m (outs m) c = Wi3 m c := by
  show StableHlo.after hostOps3 (Gen.V8 m (outs m) c) = _; rw [V8_eq]
theorem V10_eq (c : Dev nD) : Gen.V10 m (outs m) c = Wo3 m c := by
  show Function.update (Gen.V9 m (outs m) c) main_v64 (outs m 10 main_v64 c) = _; rw [outs_3, V9_eq]
theorem V11_eq (c : Dev nD) : Gen.V11 m (outs m) c = Wi4 m c := by
  show StableHlo.after hostOps4 (Gen.V10 m (outs m) c) = _; rw [V10_eq]
theorem V12_eq (c : Dev nD) : Gen.V12 m (outs m) c = Wo4 m c := by
  show Function.update (Gen.V11 m (outs m) c) main_v67 (outs m 12 main_v67 c) = _; rw [outs_4, V11_eq]

/-! ## The proof data of the five launches, each at its entry contents -/

def pdats : (p : Fin 5) → (c : Dev nD) → Dat τ (Elt F) Unit ℕ (UR sig nD τ) ℕ (cfgs p) c
  | ⟨0, _⟩ => fun c => dat0 (En0 m) c
  | ⟨1, _⟩ => fun c => dat1 (En1 m) c
  | ⟨2, _⟩ => fun c => dat2 (En2 m) c
  | ⟨3, _⟩ => fun c => dat3 (En3 m) c
  | ⟨4, _⟩ => fun c => dat4 (En4 m) c

abbrev 𝒱z : Variants := Variants.none
/-- No core owes another anything. -/
abbrev Lz : GSem nD τ sig → Finset Unit := fun _ => ∅
abbrev lvz : GSem nD τ sig → Unit → ℕ := fun _ _ => 0
/-- What rides beside the buffers through every item: the generator register at some state, and nothing owed. -/
abbrev Rr (c : Dev nD) : sProp 𝕄 := iprop((∃ r, prngReg c r) ∗ ∃ W, owes (c : Thread nD τ) (0 : CellTallies nD τ sig Unit) W)

/-- No window of launch 0 but the last is an output, and none but the last sits on the output array. -/
theorem hne0 : ∀ w : Fin cfg0.W, w ≠ 5 → (cfg0.win w).isOut = false ∧ Pipeline.arrRef spec0 w ≠ main_v21 := by decide
/-- When launch 0 returns, each of its arrays holds what the pipeline leaves there: the output array the folded
    write-backs, an input array what it held at entry. -/
theorem hF0 (c : Dev nD) (w : Fin cfg0.W) : (dat0 (En0 m) c).arrAt w cfg0.N = Wo0 m c (Pipeline.arrRef spec0 w) := by
  by_cases h : w = 5
  · subst h
    exact (Function.update_self (f := Wi0 m c) (Proc.devRef .tc main_v21) (o0 m c)).symm
  · rw [(dat0 (En0 m) c).arrAt_in w (hne0 w h).1 _, A_eq0]
    exact (Function.update_of_ne (StableHlo.devRef_ne_of_ne (hne0 w h).2) _ _).symm
/-- Every other buffer is as it was at entry. -/
theorem hrest0 (c : Dev nD) : ∀ b, b ∉ Finset.univ.image (Pipeline.arrRef spec0) → Wo0 m c b = Wi0 m c b := fun b hb =>
  Function.update_of_ne (StableHlo.devRef_ne_of_ne fun e => hb (Finset.mem_image.mpr ⟨5, Finset.mem_univ _, by rw [e]⟩)) _ _

/-- No window of launch 1 but the last is an output, and none but the last sits on the output array. -/
theorem hne1 : ∀ w : Fin cfg1.W, w ≠ 6 → (cfg1.win w).isOut = false ∧ Pipeline.arrRef spec1 w ≠ main_v36 := by decide
/-- When launch 1 returns, each of its arrays holds what the pipeline leaves there: the output array the folded
    write-backs, an input array what it held at entry. -/
theorem hF1 (c : Dev nD) (w : Fin cfg1.W) : (dat1 (En1 m) c).arrAt w cfg1.N = Wo1 m c (Pipeline.arrRef spec1 w) := by
  by_cases h : w = 6
  · subst h
    exact (Function.update_self (f := Wi1 m c) (Proc.devRef .tc main_v36) (o1 m c)).symm
  · rw [(dat1 (En1 m) c).arrAt_in w (hne1 w h).1 _, A_eq1]
    exact (Function.update_of_ne (StableHlo.devRef_ne_of_ne (hne1 w h).2) _ _).symm
/-- Every other buffer is as it was at entry. -/
theorem hrest1 (c : Dev nD) : ∀ b, b ∉ Finset.univ.image (Pipeline.arrRef spec1) → Wo1 m c b = Wi1 m c b := fun b hb =>
  Function.update_of_ne (StableHlo.devRef_ne_of_ne fun e => hb (Finset.mem_image.mpr ⟨6, Finset.mem_univ _, by rw [e]⟩)) _ _

/-- No window of launch 2 but the last is an output, and none but the last sits on the output array. -/
theorem hne2 : ∀ w : Fin cfg2.W, w ≠ 6 → (cfg2.win w).isOut = false ∧ Pipeline.arrRef spec2 w ≠ main_v50 := by decide
/-- When launch 2 returns, each of its arrays holds what the pipeline leaves there: the output array the folded
    write-backs, an input array what it held at entry. -/
theorem hF2 (c : Dev nD) (w : Fin cfg2.W) : (dat2 (En2 m) c).arrAt w cfg2.N = Wo2 m c (Pipeline.arrRef spec2 w) := by
  by_cases h : w = 6
  · subst h
    exact (Function.update_self (f := Wi2 m c) (Proc.devRef .tc main_v50) (o2 m c)).symm
  · rw [(dat2 (En2 m) c).arrAt_in w (hne2 w h).1 _, A_eq2]
    exact (Function.update_of_ne (StableHlo.devRef_ne_of_ne (hne2 w h).2) _ _).symm
/-- Every other buffer is as it was at entry. -/
theorem hrest2 (c : Dev nD) : ∀ b, b ∉ Finset.univ.image (Pipeline.arrRef spec2) → Wo2 m c b = Wi2 m c b := fun b hb =>
  Function.update_of_ne (StableHlo.devRef_ne_of_ne fun e => hb (Finset.mem_image.mpr ⟨6, Finset.mem_univ _, by rw [e]⟩)) _ _

/-- No window of launch 3 but the last is an output, and none but the last sits on the output array. -/
theorem hne3 : ∀ w : Fin cfg3.W, w ≠ 6 → (cfg3.win w).isOut = false ∧ Pipeline.arrRef spec3 w ≠ main_v64 := by decide
/-- When launch 3 returns, each of its arrays holds what the pipeline leaves there: the output array the folded
    write-backs, an input array what it held at entry. -/
theorem hF3 (c : Dev nD) (w : Fin cfg3.W) : (dat3 (En3 m) c).arrAt w cfg3.N = Wo3 m c (Pipeline.arrRef spec3 w) := by
  by_cases h : w = 6
  · subst h
    exact (Function.update_self (f := Wi3 m c) (Proc.devRef .tc main_v64) (o3 m c)).symm
  · rw [(dat3 (En3 m) c).arrAt_in w (hne3 w h).1 _, A_eq3]
    exact (Function.update_of_ne (StableHlo.devRef_ne_of_ne (hne3 w h).2) _ _).symm
/-- Every other buffer is as it was at entry. -/
theorem hrest3 (c : Dev nD) : ∀ b, b ∉ Finset.univ.image (Pipeline.arrRef spec3) → Wo3 m c b = Wi3 m c b := fun b hb =>
  Function.update_of_ne (StableHlo.devRef_ne_of_ne fun e => hb (Finset.mem_image.mpr ⟨6, Finset.mem_univ _, by rw [e]⟩)) _ _

/-- No window of launch 4 but the last is an output, and none but the last sits on the output array. -/
theorem hne4 : ∀ w : Fin cfg4.W, w ≠ 5 → (cfg4.win w).isOut = false ∧ Pipeline.arrRef spec4 w ≠ main_v67 := by decide
/-- When launch 4 returns, each of its arrays holds what the pipeline leaves there: the output array the folded
    write-backs, an input array what it held at entry. -/
theorem hF4 (c : Dev nD) (w : Fin cfg4.W) : (dat4 (En4 m) c).arrAt w cfg4.N = Wo4 m c (Pipeline.arrRef spec4 w) := by
  by_cases h : w = 5
  · subst h
    exact (Function.update_self (f := Wi4 m c) (Proc.devRef .tc main_v67) (o4 m c)).symm
  · rw [(dat4 (En4 m) c).arrAt_in w (hne4 w h).1 _, A_eq4]
    exact (Function.update_of_ne (StableHlo.devRef_ne_of_ne (hne4 w h).2) _ _).symm
/-- Every other buffer is as it was at entry. -/
theorem hrest4 (c : Dev nD) : ∀ b, b ∉ Finset.univ.image (Pipeline.arrRef spec4) → Wo4 m c b = Wi4 m c b := fun b hb =>
  Function.update_of_ne (StableHlo.devRef_ne_of_ne fun e => hb (Finset.mem_image.mpr ⟨5, Finset.mem_univ _, by rw [e]⟩)) _ _

/-- ENTRY of launch 2: the unscoped buffers, each whole, give the launch's seven windows their arrays — the buffer
    the two windows share as two halves — beside the buffers no window sits on. -/
theorem split2 (c : Dev nD) :
    (StableHlo.held (c : Thread nD τ) (Pipeline.ucRefs τ sig) (Wi2 m c) : sProp 𝕄)
      ⊢ iprop((pdats m 2 c).arrays ((pdats m 2 c).arrAt · 0)
          ∗ Pipeline.unscopedRest (Ix := Unit) (Name := ℕ) (U := UR sig nD τ) (Lvl := ℕ) spec2 c (En2 m c)) := by
  rw [← Pipeline.unscopedBufs_held (Ix := Unit) (Name := ℕ) (U := UR sig nD τ) (Lvl := ℕ) c (Wi2 m c),
    Pipeline.unscopedBufs_split₀ cfgs 2 winFacts₀2.arr_unscoped c]
  exact sep_mono (arrays_split2 (En2 m) c) .rfl

/-- EXIT of launch 2: the seven windows' arrays — the two halves still at the entry contents, the output array at
    the folded write-backs — and the buffers no window sits on are the unscoped buffers, each whole, at the exit contents. -/
theorem join2 (c : Dev nD) :
    iprop((pdats m 2 c).arrays ((pdats m 2 c).arrAt · cfg2.N)
        ∗ Pipeline.unscopedRest (Ix := Unit) (Name := ℕ) (U := UR sig nD τ) (Lvl := ℕ) spec2 c (En2 m c))
      ⊢ (StableHlo.held (c : Thread nD τ) (Pipeline.ucRefs τ sig) (Wo2 m c) : sProp 𝕄) := by
  rw [← Pipeline.unscopedBufs_held (Ix := Unit) (Name := ℕ) (U := UR sig nD τ) (Lvl := ℕ) c (Wo2 m c),
    Pipeline.unscopedBufs_split₀ cfgs 2 winFacts₀2.arr_unscoped c]
  refine sep_mono (arrays_join2 (En2 m) c (fun b => Wo2 m c b) (hF2 m c)) (Entails.of_eq ?_)
  unfold Pipeline.unscopedRest
  exact bigSep_congr fun b hb =>
    congrArg (fun x : Buf (Elt F) ((c.tc : Thread nD τ).loc b) => (((c.tc : Thread nD τ).loc b) ↦{fullShare} x : sProp 𝕄))
      (hrest2 m c b (Finset.mem_sdiff.mp hb).2).symm

/-- ENTRY of launch 3: the unscoped buffers, each whole, give the launch's seven windows their arrays — the buffer
    the two windows share as two halves — beside the buffers no window sits on. -/
theorem split3 (c : Dev nD) :
    (StableHlo.held (c : Thread nD τ) (Pipeline.ucRefs τ sig) (Wi3 m c) : sProp 𝕄)
      ⊢ iprop((pdats m 3 c).arrays ((pdats m 3 c).arrAt · 0)
          ∗ Pipeline.unscopedRest (Ix := Unit) (Name := ℕ) (U := UR sig nD τ) (Lvl := ℕ) spec3 c (En3 m c)) := by
  rw [← Pipeline.unscopedBufs_held (Ix := Unit) (Name := ℕ) (U := UR sig nD τ) (Lvl := ℕ) c (Wi3 m c),
    Pipeline.unscopedBufs_split₀ cfgs 3 winFacts₀3.arr_unscoped c]
  exact sep_mono (arrays_split3 (En3 m) c) .rfl

/-- EXIT of launch 3: the seven windows' arrays — the two halves still at the entry contents, the output array at
    the folded write-backs — and the buffers no window sits on are the unscoped buffers, each whole, at the exit contents. -/
theorem join3 (c : Dev nD) :
    iprop((pdats m 3 c).arrays ((pdats m 3 c).arrAt · cfg3.N)
        ∗ Pipeline.unscopedRest (Ix := Unit) (Name := ℕ) (U := UR sig nD τ) (Lvl := ℕ) spec3 c (En3 m c))
      ⊢ (StableHlo.held (c : Thread nD τ) (Pipeline.ucRefs τ sig) (Wo3 m c) : sProp 𝕄) := by
  rw [← Pipeline.unscopedBufs_held (Ix := Unit) (Name := ℕ) (U := UR sig nD τ) (Lvl := ℕ) c (Wo3 m c),
    Pipeline.unscopedBufs_split₀ cfgs 3 winFacts₀3.arr_unscoped c]
  refine sep_mono (arrays_join3 (En3 m) c (fun b => Wo3 m c b) (hF3 m c)) (Entails.of_eq ?_)
  unfold Pipeline.unscopedRest
  exact bigSep_congr fun b hb =>
    congrArg (fun x : Buf (Elt F) ((c.tc : Thread nD τ).loc b) => (((c.tc : Thread nD τ).loc b) ↦{fullShare} x : sProp 𝕄))
      (hrest3 m c b (Finset.mem_sdiff.mp hb).2).symm

/-! ## The launches as segments -/

set_option backward.isDefEq.respectTransparency.types false in
/-- Launch 0 as a segment: entered with every unscoped buffer whole, left with them whole again, its output array
    rewritten.  Its arrays are distinct buffers: they are taken out of the unscoped buffers one by one and put back. -/
def reg0 : Pipeline.RegionSeg (pcfgs (F := F)) Gen.adm (pdats m) () defs₀ 𝒱z Lz lvz 0 where
  win := launch0.win.to₀
  block_pos := launch0.block_pos
  stage_whole := launch0.stage_whole
  K := PEmpty
  osem k := k.elim
  ho := Pipeline.OwnSemFacts.none _
  hbody c := (body_obligation0 (En0 m) c).loose
  hwaits := Pipeline.hwaits_of_owed_zero _ _ _ _ Lz lvz 0 fun _ _ => rfl
  pre c := iprop(StableHlo.held (c : Thread nD τ) (Pipeline.ucRefs τ sig) (Wi0 m c) ∗ Rr c)
  post c := iprop(StableHlo.held (c : Thread nD τ) (Pipeline.ucRefs τ sig) (Wo0 m c) ∗ Rr c)
  X c := iprop(∃ r, prngReg c r)
  Y c := iprop(∃ r, prngReg c r)
  Z c := Pipeline.unscopedRest (Ix := Unit) (Name := ℕ) (U := UR sig nD τ) (Lvl := ℕ) spec0 c (En0 m c)
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (En0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (En0 m c) (fun b => Wo0 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer whole, left with them whole again, its output array
    rewritten.  Its arrays are distinct buffers: they are taken out of the unscoped buffers one by one and put back. -/
def reg1 : Pipeline.RegionSeg (pcfgs (F := F)) Gen.adm (pdats m) () defs₀ 𝒱z Lz lvz 1 where
  win := launch1.win.to₀
  block_pos := launch1.block_pos
  stage_whole := launch1.stage_whole
  K := PEmpty
  osem k := k.elim
  ho := Pipeline.OwnSemFacts.none _
  hbody c := (body_obligation1 (En1 m) c).loose
  hwaits := Pipeline.hwaits_of_owed_zero _ _ _ _ Lz lvz 1 fun _ _ => rfl
  pre c := iprop(StableHlo.held (c : Thread nD τ) (Pipeline.ucRefs τ sig) (Wi1 m c) ∗ Rr c)
  post c := iprop(StableHlo.held (c : Thread nD τ) (Pipeline.ucRefs τ sig) (Wo1 m c) ∗ Rr c)
  X c := iprop(∃ r, prngReg c r)
  Y c := iprop(∃ r, prngReg c r)
  Z c := Pipeline.unscopedRest (Ix := Unit) (Name := ℕ) (U := UR sig nD τ) (Lvl := ℕ) spec1 c (En1 m c)
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (En1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (En1 m c) (fun b => Wo1 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 as a segment.  Two of its input windows (the node states and the residual) sit on ONE array: that
    buffer is read through both, each window holding half of it; no window writes it.  At entry the buffer is split
    into the two halves, at exit the halves — still at the entry contents — are joined again. -/
def reg2 : Pipeline.RegionSeg (pcfgs (F := F)) Gen.adm (pdats m) () defs₀ 𝒱z Lz lvz 2 where
  win := winFacts₀2
  block_pos := block_pos2
  stage_whole := stage_whole2
  K := PEmpty
  osem k := k.elim
  ho := Pipeline.OwnSemFacts.none _
  hbody c := (body_obligation2 (En2 m) c).loose
  hwaits := Pipeline.hwaits_of_owed_zero _ _ _ _ Lz lvz 2 fun _ _ => rfl
  pre c := iprop(StableHlo.held (c : Thread nD τ) (Pipeline.ucRefs τ sig) (Wi2 m c) ∗ Rr c)
  post c := iprop(StableHlo.held (c : Thread nD τ) (Pipeline.ucRefs τ sig) (Wo2 m c) ∗ Rr c)
  X c := iprop(∃ r, prngReg c r)
  Y c := iprop(∃ r, prngReg c r)
  Z c := Pipeline.unscopedRest (Ix := Unit) (Name := ℕ) (U := UR sig nD τ) (Lvl := ℕ) spec2 c (En2 m c)
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hentry c := by
    rw [Pipeline.ownSems0_none]
    iintro ⟨⟨Hub, Hp, HO⟩, -, -⟩
    ihave H := (split2 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    iintro ⟨Ha, HO, HY, Hrest⟩
    imodintro
    isplitl [Ha Hrest]
    · iapply (join2 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 3 as a segment.  Two of its input windows (the node states and the residual) sit on ONE array: that
    buffer is read through both, each window holding half of it; no window writes it.  At entry the buffer is split
    into the two halves, at exit the halves — still at the entry contents — are joined again. -/
def reg3 : Pipeline.RegionSeg (pcfgs (F := F)) Gen.adm (pdats m) () defs₀ 𝒱z Lz lvz 3 where
  win := winFacts₀3
  block_pos := block_pos3
  stage_whole := stage_whole3
  K := PEmpty
  osem k := k.elim
  ho := Pipeline.OwnSemFacts.none _
  hbody c := (body_obligation3 (En3 m) c).loose
  hwaits := Pipeline.hwaits_of_owed_zero _ _ _ _ Lz lvz 3 fun _ _ => rfl
  pre c := iprop(StableHlo.held (c : Thread nD τ) (Pipeline.ucRefs τ sig) (Wi3 m c) ∗ Rr c)
  post c := iprop(StableHlo.held (c : Thread nD τ) (Pipeline.ucRefs τ sig) (Wo3 m c) ∗ Rr c)
  X c := iprop(∃ r, prngReg c r)
  Y c := iprop(∃ r, prngReg c r)
  Z c := Pipeline.unscopedRest (Ix := Unit) (Name := ℕ) (U := UR sig nD τ) (Lvl := ℕ) spec3 c (En3 m c)
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hentry c := by
    rw [Pipeline.ownSems0_none]
    iintro ⟨⟨Hub, Hp, HO⟩, -, -⟩
    ihave H := (split3 m c) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    iintro ⟨Ha, HO, HY, Hrest⟩
    imodintro
    isplitl [Ha Hrest]
    · iapply (join3 m c); isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 4 as a segment: entered with every unscoped buffer whole, left with them whole again, its output array
    rewritten.  Its arrays are distinct buffers: they are taken out of the unscoped buffers one by one and put back. -/
def reg4 : Pipeline.RegionSeg (pcfgs (F := F)) Gen.adm (pdats m) () defs₀ 𝒱z Lz lvz 4 where
  win := launch4.win.to₀
  block_pos := launch4.block_pos
  stage_whole := launch4.stage_whole
  K := PEmpty
  osem k := k.elim
  ho := Pipeline.OwnSemFacts.none _
  hbody c := (body_obligation4 (En4 m) c).loose
  hwaits := Pipeline.hwaits_of_owed_zero _ _ _ _ Lz lvz 4 fun _ _ => rfl
  pre c := iprop(StableHlo.held (c : Thread nD τ) (Pipeline.ucRefs τ sig) (Wi4 m c) ∗ Rr c)
  post c := iprop(StableHlo.held (c : Thread nD τ) (Pipeline.ucRefs τ sig) (Wo4 m c) ∗ Rr c)
  X c := iprop(∃ r, prngReg c r)
  Y c := iprop(∃ r, prngReg c r)
  Z c := Pipeline.unscopedRest (Ix := Unit) (Name := ℕ) (U := UR sig nD τ) (Lvl := ℕ) spec4 c (En4 m c)
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (En4 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hexit c := by
    have hjoin := Pipeline.unscopedBufs_of_arrays (p := 4) (pcfgs (F := F)) Gen.adm (Ix := Unit) (Name := ℕ) (U := UR sig nD τ) (Lvl := ℕ)
      launch4.win launch4.arr_whole c (pdats m) ((pdats m 4 c).share_full fun _ => rfl)
      (En4 m c) (fun b => Wo4 m c b) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

/-- What the launch hands a core beside its buffers: its unscoped semaphores at zero, nothing owed, the launch's
    credit, the generator register at the launch state. -/
abbrev Launch0 (ρ : Dev nD → PrngReg) (c : Dev nD) : sProp 𝕄 :=
  iprop(unscopedSems0 c ∗ owes (c : Thread nD τ) ((0 : Dev nD → CellTallies nD τ sig Unit) c) ∅
    ∗ Pipeline.launchCred (0 : Dev nD → CellTallies nD τ sig Unit) c ∗ prngReg c (ρ c) ∗ (fun _ : Dev nD => (iprop(emp) : sProp 𝕄)) c)

/-- Of that, every core keeps the generator register and its (empty) dues through the run. -/
theorem launch_rest (ρ : Dev nD → PrngReg) :
    iprop((bigSep Finset.univ (Launch0 (F := F) ρ)) ∗ levAts Lz lvz) ⊢ (|={Set.univ}=> bigSep Finset.univ (Rr (F := F)) : sProp 𝕄) := by
  have key : ∀ c : Dev nD, (Launch0 (F := F) ρ c : sProp 𝕄) ⊢ (Rr (F := F) c : sProp 𝕄) := fun c => by
    iintro ⟨-, HO, -, Hp, -⟩
    isplitl [Hp]; · iexists _; iexact Hp
    iexists ∅; iexact HO
  have hm : (bigSep Finset.univ (Launch0 (F := F) ρ) : sProp 𝕄) ⊢ (bigSep Finset.univ (Rr (F := F)) : sProp 𝕄) :=
    bigSep_mono fun c _ => key c
  iintro ⟨H, -⟩; imodintro
  iapply hm
  iexact H

set_option backward.isDefEq.respectTransparency.types false in
/-- THE RUN.  From any memory with zero counters every weakly fair execution of the program terminates, nothing
    faults, the result buffer ends at the last boundary's contents, and each of the eighteen argument arrays ends
    as launched: no host operation and no launch writes one.  The five segments above are chained by the host side's
    conditional run; beside its buffers a core carries the generator register and nothing owed. -/
theorem run (ρ : Dev nD → PrngReg) :
    θ_run defs (onTc (τ := τ) (main (F := F))) ⟨m, fun _ => 0, ρ⟩ (fun r => ∀ c : Dev nD,
      r.2.mem ((c.tc : Thread nD τ).loc main_v69) = Gen.V13 m (outs m) c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  HandCond.run_cond (m := m) (Ix := Unit) (U := UR sig nD τ) (Lvl := ℕ) (EP := emb₁) (ι := ()) (𝒱₀ := 𝒱z) (L := Lz) (lv := lvz)
    (hL := fun _ _ => rfl) (ρ := ρ) (outs := outs m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := launch_rest ρ)
    (hE5 := fun c => by iintro ⟨-, HO⟩; iexact HO)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V7_eq]; exact .rfl) (hpost2 := fun c => by rw [V8_eq]; exact .rfl)
    (R3 := reg3 m) (hpre3 := fun c => by rw [V9_eq]; exact .rfl) (hpost3 := fun c => by rw [V10_eq]; exact .rfl)
    (R4 := reg4 m) (hpre4 := fun c => by rw [V11_eq]; exact .rfl) (hpost4 := fun c => by rw [V12_eq]; exact .rfl)

/-- THE FRAME: the run with the result forgotten. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun _ h c => (h c).2) (run m ρ)

end Cert.KernelIdeal.Hand

end
-- ==== Proof.RefFrame.lean ====
/-
  The reference side's frame, and the idealization ledger.

  The reference is a host program with no kernel launch: its run is the composition of its
  host operations, each a total pure function of arrays already computed, so every weakly fair
  execution terminates, nothing faults, and no argument array is ever written.  The run's
  post-condition carries the result's value first and the unchanged arguments second; the frame
  keeps only the second part.

  The ideal pass rewrote no operation of the kernel (its ledger is empty), so the idealized kernel is
  the kernel's own text read over the extended reals and the preservation claim has no conjunct.
-/
import proofs.«143383_j87711822119113_2_alg».proof.Defs
import proofs.«143383_j87711822119113_2_alg».proof.Proof.Gen.ReferenceIdeal
import proofs.«143383_j87711822119113_2_alg».proof.Proof.Gen.Pre_finite_inputs
import proofs.«143383_j87711822119113_2_alg».proof.Proof.RefRunP

noncomputable section

open Idealize.ShloMosaic Idealize.ShloMosaic.TcCoe Idealize.SL.Sem

namespace Cert.Proof.RefFrame

/-- Every execution of the reference terminates without a fault and leaves its eighteen argument arrays
    as it found them: the second half of the generated run's post-condition. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass applied no rewrite, so there is nothing to preserve beyond the text itself. -/
theorem preserves : Cert.preserves_Kernel_KernelIdeal := trivial

end Cert.Proof.RefFrame

end
-- ==== Proof.Spec.lean ====
/-
  The three dense steps of the network as functions of whole arrays, index by index, over the extended reals.

  These are the formulas both programs are compared against.  A node is a row index n; a feature a column index j.
    * the encoder:      max( x_n * w_j + b_j + Σ_d [deg_n = d] * table_{d j} , 0 )
    * a graph layer:    max( Σ_k mean_{n k} * Wl_{j k} + bl_j + Σ_k state_{n k} * Wr_{j k} , 0 ) + residual_{n j}
    * the read-out:     Σ_k max( Σ_l state_{n l} * W1_{k l} + b1_k , 0 ) * w2_k + b2
  Weight tables are indexed (output feature, input feature): every product is against the transposed table.
-/
import Idealize.ShloMosaic.PureOps.Ideal
import Idealize.ShloMosaic.Lib.ValueIdx

noncomputable section

namespace Cert.Spec

open Idealize.ShloMosaic Idealize.ShloMosaic.ValueIdx
open scoped BigOperators

/-- An array of extended reals over a literal two-axis shape. -/
abbrev Arr (a b : ℕ) : Type := (⟨2, ![a, b]⟩ : Shape).Idx → EReal

/-- The encoder on N nodes: the feature times the weight row, plus the bias row, plus the table row the node's
    (clipped) degree names, read by a one-hot contraction over the 200 table rows; then the maximum with zero. -/
def encG {N : ℕ} (x : Arr N 1) (w b : Arr 1 128) (tb : Arr 200 128) (dg : (⟨2, ![N, 1]⟩ : Shape).Idx → BitVec 32) : Arr N 128 := fun i =>
  max (x (ix2 (i 0) 0) * w (ix2 0 (i 1)) + b (ix2 0 (i 1))
    + ∑ d : Fin 200, (if dg (ix2 (i 0) 0) = BitVec.ofNat 32 d.val then (1 : EReal) else 0) * tb (ix2 d (i 1))) 0

/-- One graph layer on N nodes: the neighbour means and the node's own state, each against its transposed weight
    table, with the bias row between them; the maximum with zero; then the residual. -/
def sageG {N : ℕ} (agg h : Arr N 128) (wl : Arr 128 128) (bl : Arr 1 128) (wr : Arr 128 128) (res : Arr N 128) : Arr N 128 := fun i =>
  max ((∑ k : Fin 128, agg (ix2 (i 0) k) * wl (ix2 (i 1) k)) + bl (ix2 0 (i 1)) + ∑ k : Fin 128, h (ix2 (i 0) k) * wr (ix2 (i 1) k)) 0 + res i

/-- The read-out on N nodes: a hidden layer of 64 units (transposed table, bias row, maximum with zero), then the
    product with the 64 output weights summed along the row, plus the one output bias. -/
def mlpG {N : ℕ} (h : Arr N 128) (w1 : Arr 64 128) (b1 w2 : Arr 1 64) (b2 : Arr 1 1) : Arr N 1 := fun i =>
  (∑ k : Fin 64, max ((∑ l : Fin 128, h (ix2 (i 0) l) * w1 (ix2 k l)) + b1 (ix2 0 k)) 0 * w2 (ix2 0 k)) + b2 (ix2 0 0)

end Cert.Spec

end
-- ==== Proof.LibRowGather.lean ====
/-
  Whole rows taken out of a table.

  `stablehlo.gather` of a rank-2 operand [R, C] at a column [N, 1] of start indices, with the row axis collapsed, the
  column axis an offset axis of full width C, and the one start-index component naming the row axis: what `x[idx]` lowers
  to for a table `x` and a vector `idx` of row numbers. Result element (r, c) is the operand's at (row r, c), where
  row r is the start index at [r, 0] read as a signed integer and clamped into [0, R − 1] (StableHLO clamps every
  start index so that the slice fits). In particular two such gathers over the same start indices, out of tables with
  the same number of rows, read the same rows — whatever their widths.
-/
import Idealize.ShloMosaic.PureOps.ShapeOps
import Idealize.ShloMosaic.Lib.ValueIdx

noncomputable section

namespace Idealize.ShloMosaic.RowGather

open Idealize.ShloMosaic Idealize.ShloMosaic.ValueIdx

variable {α : Type}

/-- The dimension numbers of a row gather: operand [R, C], start indices [N, 1], result [N, C]. -/
abbrev rowDims (R C N : Nat) (wf : GatherDims.WF ⟨2, ![R, C]⟩ ⟨2, ![N, 1]⟩ ⟨2, ![N, C]⟩ [1] [0] [] [0] [] 1 ![1, C]) :
    GatherDims ⟨2, ![R, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- The row read for result row `r`: the start index at [r, 0], signed, clamped into [0, R − 1]. -/
def rowOf {N w : Nat} (R : Nat) (hR : 0 < R) (idx : IVec ⟨2, ![N, 1]⟩ w) (r : Fin N) : Fin R :=
  ⟨min (idx (ix2 r (0 : Fin 1))).toInt.toNat (R - 1), by omega⟩

/-- THE ROW GATHER READ AT (r, c): the operand at (row r, c). -/
theorem gather_rows_apply {R C N w : Nat} (hR : 0 < R)
    (wf : GatherDims.WF ⟨2, ![R, C]⟩ ⟨2, ![N, 1]⟩ ⟨2, ![N, C]⟩ [1] [0] [] [0] [] 1 ![1, C])
    (x : (⟨2, ![R, C]⟩ : Shape).Idx → α) (idx : IVec ⟨2, ![N, 1]⟩ w) (y : (⟨2, ![N, C]⟩ : Shape).Idx) :
    Host.gather (rowDims R C N wf) x idx y = x (ix2 (rowOf R hR idx (y 0)) (y 1)) := by
  unfold Host.gather
  congr 1
  funext a
  refine Fin.ext ?_
  show (rowDims R C N wf).start y idx a + (rowDims R C N wf).batchCoord y a + (rowDims R C N wf).offCoord y a = _
  rw [GatherDims.batchCoord_eq_zero _ _ _ List.not_mem_nil]
  match a with
  | ⟨0, _⟩ =>
    show (rowDims R C N wf).start y idx (0 : Fin 2) + 0 + (rowDims R C N wf).offCoord y (0 : Fin 2)
      = (rowOf R hR idx (y 0)).val
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R C N wf).startIndexMap from List.mem_singleton.mpr rfl)]
    have hsi : (rowDims R C N wf).siIdx y ⟨List.idxOf (0 : Fin 2) (rowDims R C N wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    have hs : (rowDims R C N wf).start y idx (1 : Fin 2) = 0 := by
      unfold GatherDims.start
      rw [dif_neg (show ¬ (1 : Fin 2) ∈ ([0] : List (Fin 2)) by decide)]
    have ho : (rowDims R C N wf).offCoord y (1 : Fin 2) = (y 1).val := by
      unfold GatherDims.offCoord
      rw [dif_pos ((GatherDims.mem_sKept _ _).mpr ⟨(show ¬ (1 : Fin 2) ∈ ([0] : List (Fin 2)) by decide), List.not_mem_nil⟩)]
      rfl
    show (rowDims R C N wf).start y idx (1 : Fin 2) + 0 + (rowDims R C N wf).offCoord y (1 : Fin 2) = (y 1).val
    rw [hs, ho]; omega

/-- Two row gathers over the same start indices, out of tables with the same number of rows, read the same row. -/
theorem rowOf_congr {N w : Nat} (R : Nat) (hR hR' : 0 < R) (idx : IVec ⟨2, ![N, 1]⟩ w) (r : Fin N) :
    rowOf R hR idx r = rowOf R hR' idx r := rfl

end Idealize.ShloMosaic.RowGather

end
-- ==== Proof.RefEnc.lean ====
/-
  The reference's encoder as a whole-array formula, and the range of the clipped degrees.

  The reference computes, for node n and feature j,
      max( x_n · w_j + b_j + table[deg_n, j], 0 ),
  where deg_n is the node's degree — a count of edges, a sum of ones — cut into [0, 199] and converted to a 32-bit
  word, and table[deg_n, ·] is a row gather.  A word in [0, 199] is not negative, so the wrap-around of negative row
  numbers leaves it alone, and it is below the table's 200 rows, so the gather reads that very row; and a one-hot
  contraction over the 200 rows picks the same row: one summand is 1 · table[deg_n, j], every other 0 · (…) = 0.
-/
import proofs.«143383_j87711822119113_2_alg».proof.Proof.RefReadP
import proofs.«143383_j87711822119113_2_alg».proof.Proof.Spec
import proofs.«143383_j87711822119113_2_alg».proof.Proof.LibRowGather
import Idealize.ShloMosaic.PureOps.Ideal.Laws
import Idealize.ShloMosaic.Lib.ValueIdx

noncomputable section

namespace Cert.ReferenceIdeal.RefStage

open Cert.ReferenceIdeal Cert.ReferenceIdeal.ReadP Idealize.ShloMosaic Idealize.ShloMosaic.ValueIdx
open scoped BigOperators

/-! ## Words in [0, 199] -/

/-- An integer in [0, 199] survives the trip through a 32-bit word. -/
theorem toInt_ofInt_small (z : ℤ) (h0 : 0 ≤ z) (h1 : z ≤ 199) : (BitVec.ofInt 32 z).toInt = z :=
  BitVec.toInt_ofInt_eq_self (by decide) (by omega) (by omega)

/-- A natural number below 200, as a 32-bit word, reads back signed as itself. -/
theorem toInt_ofNat_small (d : ℕ) (hd : d < 200) : (BitVec.ofNat 32 d).toInt = (d : ℤ) :=
  toInt_ofInt_small (d : ℤ) (by omega) (by omega)

/-- A word whose signed value lies in [0, 199] is the word of a given row number exactly when that value is the row number. -/
theorem word_eq_ofNat_iff (w : BitVec 32) (h0 : 0 ≤ w.toInt) (h1 : w.toInt ≤ 199) (d : Fin 200) :
    w = BitVec.ofNat 32 d.val ↔ w.toInt.toNat = d.val := by
  have hd := toInt_ofNat_small d.val d.isLt
  constructor
  · intro h
    rw [h, hd]
    exact Int.toNat_natCast _
  · intro h
    refine BitVec.eq_of_toInt_eq ?_
    rw [hd]
    omega

/-- The one-hot contraction against such a word reads one row: one summand is 1 · f, the others 0 · f = 0. -/
theorem onehot_sum (w : BitVec 32) (h0 : 0 ≤ w.toInt) (h1 : w.toInt ≤ 199) (f : Fin 200 → EReal) :
    ∑ d : Fin 200, (if w = BitVec.ofNat 32 d.val then (1 : EReal) else 0) * f d = f ⟨w.toInt.toNat, by omega⟩ := by
  rw [Finset.sum_eq_single (⟨w.toInt.toNat, by omega⟩ : Fin 200)]
  · rw [if_pos ((word_eq_ofNat_iff w h0 h1 _).mpr rfl), one_mul]
  · intro d _ hne
    rw [if_neg (fun h => hne (Fin.ext ((word_eq_ofNat_iff w h0 h1 d).mp h).symm)), zero_mul]
  · intro h
    exact absurd (Finset.mem_univ _) h

/-- The wrap-around of negative row numbers leaves a word that is not negative alone. -/
theorem select_slt_zero (w a : BitVec 32) (h0 : 0 ≤ w.toInt) : Scalar.select (IntOp.cmpi .slt w 0#32) a w = w := by
  have hb : w.slt 0#32 = false := by
    rcases hb : w.slt 0#32 with _ | _
    · rfl
    · have hlt : w.toInt < (0#32 : BitVec 32).toInt := BitVec.slt_iff_toInt_lt.mp hb
      have e : (0#32 : BitVec 32).toInt = 0 := by decide
      omega
  show (if BitVec.ofBool (w.slt 0#32) = 1 then a else w) = w
  rw [hb]
  rfl

/-! ## The conversion of a value in [0, 199] -/

/-- An extended real in [0, 199] is a real; rounded toward zero it is an integer in [0, 199], far inside the 32-bit
    range, so the conversion's word reads back as that integer. -/
theorem fptosi_range (x : EReal) (h0 : 0 ≤ x) (h1 : x ≤ ((199 : ℝ) : EReal)) :
    0 ≤ (Ideal.fptosi 32 x).toInt ∧ (Ideal.fptosi 32 x).toInt ≤ 199 := by
  induction x using EReal.rec with
  | bot => exact absurd h0 (by simp)
  | top => exact absurd h1 (not_le.mpr (EReal.coe_lt_top 199))
  | coe r =>
    have hr0 : (0 : ℝ) ≤ r := EReal.coe_nonneg.mp h0
    have hr1 : r ≤ 199 := EReal.coe_le_coe_iff.mp h1
    have hz0 : 0 ≤ ⌊r⌋ := Int.floor_nonneg.mpr hr0
    have hz1 : ⌊r⌋ ≤ 199 := by
      have : (⌊r⌋ : ℝ) ≤ 199 := (Int.floor_le r).trans hr1
      exact_mod_cast this
    have hv : Ideal.toIntClamped (-(2 ^ (32 - 1) : Nat)) ((2 ^ (32 - 1) : Nat) - 1) (r : EReal) = ⌊r⌋ := by
      rw [Ideal.toIntClamped_coe, if_pos hr0]
      norm_num
      omega
    unfold Ideal.fptosi
    rw [hv, toInt_ofInt_small _ hz0 hz1]
    exact ⟨hz0, hz1⟩

/-- THE CLIPPED DEGREE, as a word, lies in [0, 199]: it converts min(199, max(0, ·)). -/
theorem deg_range (x1 : (⟨S2x800000, .i32⟩ : BufTy).Contents (Elt Ideal)) (n : Fin 50000) :
    0 ≤ (val_main_v9 (F := Ideal) x1 (ix1 n)).toInt ∧ (val_main_v9 (F := Ideal) x1 (ix1 n)).toInt ≤ 199 := by
  have h8 : val_main_v8 (F := Ideal) x1 (ix1 n)
      = min ((199 : ℝ) : EReal) (max 0 (val_main_v7 (F := Ideal) x1 (ix1 n))) := by
    rw [val_main_v8_apply, val_main_call0_v2_apply, val_main_call0_v4_apply, val_main_call0_v3_apply,
      val_main_c_1_apply, val_main_call0_v1_apply, val_main_call0_v0_apply, val_main_c_apply]
    show min ((((199#32 : BitVec 32).toInt : ℤ) : ℝ) : EReal) (max ((((0#32 : BitVec 32).toInt : ℤ) : ℝ) : EReal) _) = _
    have e199 : (199#32 : BitVec 32).toInt = 199 := by decide
    have e0 : (0#32 : BitVec 32).toInt = 0 := by decide
    rw [e199, e0]
    simp
  have h9 : val_main_v9 (F := Ideal) x1 (ix1 n)
      = Ideal.fptosi 32 (min ((199 : ℝ) : EReal) (max 0 (val_main_v7 (F := Ideal) x1 (ix1 n)))) := by
    rw [val_main_v9_apply, h8]
    rfl
  rw [h9]
  generalize val_main_v7 (F := Ideal) x1 (ix1 n) = y
  have h199 : (0 : EReal) ≤ ((199 : ℝ) : EReal) := EReal.coe_nonneg.mpr (by norm_num)
  have ha : (0 : EReal) ≤ min ((199 : ℝ) : EReal) (max 0 y) := le_min h199 (le_max_left 0 y)
  have hb : min ((199 : ℝ) : EReal) (max 0 y) ≤ ((199 : ℝ) : EReal) := min_le_left _ _
  exact fptosi_range (min ((199 : ℝ) : EReal) (max 0 y)) ha hb

/-! ## The formula and the row gather at an index, over any arrays -/

/-- The encoder formula read at (n, j). -/
theorem encG_apply {N : ℕ} (x : Cert.Spec.Arr N 1) (w b : Cert.Spec.Arr 1 128) (tb : Cert.Spec.Arr 200 128)
    (dg : (⟨2, ![N, 1]⟩ : Shape).Idx → BitVec 32) (n : Fin N) (j : Fin 128) :
    Cert.Spec.encG x w b tb dg (ix2 n j)
      = max (x (ix2 n 0) * w (ix2 0 j) + b (ix2 0 j)
          + ∑ d : Fin 200, (if dg (ix2 n 0) = BitVec.ofNat 32 d.val then (1 : EReal) else 0) * tb (ix2 d j)) 0 := rfl

/-- A row gather out of a 200-row table whose start index for row n is a word in [0, 199] reads that very row:
    nothing is clamped. -/
theorem gather_row_of_range {α : Type} {N : ℕ}
    (wf : GatherDims.WF ⟨2, ![200, 128]⟩ ⟨2, ![N, 1]⟩ ⟨2, ![N, 128]⟩ [1] [0] [] [0] [] 1 ![1, 128])
    (tb : (⟨2, ![200, 128]⟩ : Shape).Idx → α) (idx : IVec ⟨2, ![N, 1]⟩ 32) (n : Fin N) (j : Fin 128)
    (w : BitVec 32) (hsel : idx (ix2 n (0 : Fin 1)) = w) (h0 : 0 ≤ w.toInt) (h1 : w.toInt ≤ 199) :
    Host.gather (RowGather.rowDims 200 128 N wf) tb idx (ix2 n j)
      = tb (ix2 (⟨w.toInt.toNat, by omega⟩ : Fin 200) j) := by
  refine (RowGather.gather_rows_apply (by decide) wf tb idx (ix2 n j)).trans ?_
  refine congrArg tb (congrArg (fun a => ix2 a j) (Fin.ext ?_))
  show min (idx (ix2 n (0 : Fin 1))).toInt.toNat (200 - 1) = w.toInt.toNat
  rw [hsel]
  omega

/-! ## The encoder -/

/-- THE REFERENCE'S ENCODER is the whole-array formula: the product with the weight column, the bias, and the table
    row the clipped degree names — read by the gather, written by the formula as a one-hot contraction. -/
theorem ref_enc (x0 : (⟨S50000x1, .f32⟩ : BufTy).Contents (Elt Ideal)) (x1 : (⟨S2x800000, .i32⟩ : BufTy).Contents (Elt Ideal))
    (x2 : (⟨S128x1, .f32⟩ : BufTy).Contents (Elt Ideal)) (x3 : (⟨S128, .f32⟩ : BufTy).Contents (Elt Ideal))
    (x4 : (⟨S200x128, .f32⟩ : BufTy).Contents (Elt Ideal)) :
    val_main_v23 (F := Ideal) x0 x1 x2 x3 x4
      = Cert.Spec.encG (N := 50000) x0 (fun y => x2 (ix2 (y 1) 0)) (fun y => x3 (ix1 (y 1))) x4
          (fun y => val_main_v9 (F := Ideal) x1 (ix1 (y 0))) := by
  funext i
  obtain ⟨n, j, rfl⟩ : ∃ (n : Fin 50000) (j : Fin 128), i = ix2 n j := ⟨i 0, i 1, eq_ix2 i⟩
  obtain ⟨h0, h1⟩ := deg_range x1 n
  -- the start index of row n is the clipped degree itself: it is not negative
  have hsel : val_main_v20 (F := Ideal) x1 (ix2 n (0 : Fin 1)) = val_main_v9 (F := Ideal) x1 (ix1 n) := by
    rw [val_main_v20_apply,
      show idx_main_v20 (ix2 n (0 : Fin 1)) = ix1 n from funext fun a => by match a with | ⟨0, _⟩ => rfl,
      val_main_v19_apply, val_main_v16_apply, val_main_v15_apply, val_main_c_2_apply]
    exact select_slt_zero _ _ h0
  -- the gather reads that row of the table
  have hrow : val_main_v21 (F := Ideal) x1 x4 (ix2 n j)
      = x4 (ix2 (⟨(val_main_v9 (F := Ideal) x1 (ix1 n)).toInt.toNat, by omega⟩ : Fin 200) j) :=
    gather_row_of_range gather_S200x128_S50000x1_S50000x128_1_0_n_n_0_1_1128.wf x4 (val_main_v20 (F := Ideal) x1) n j
      (val_main_v9 (F := Ideal) x1 (ix1 n)) hsel h0 h1
  -- the stages read at (n, j), outermost first
  rw [val_main_v23_apply, val_main_v22_apply, val_main_v14_apply, val_main_v11_apply, Fin.sum_univ_one,
    val_main_v10_apply, val_main_v13_apply, val_main_v12_apply, val_main_call1_v0_apply, val_main_call1_cst_apply, hrow]
  have e1 : lidx_main_v11 (ix2 n j) 0 = ix2 n (0 : Fin 1) :=
    funext fun a => by match a with | ⟨0, _⟩ => rfl | ⟨1, _⟩ => rfl
  have e2 : idx_main_v10 (ridx_main_v11 (ix2 n j) 0) = ix2 j (0 : Fin 1) :=
    funext fun a => by match a with | ⟨0, _⟩ => rfl | ⟨1, _⟩ => rfl
  have e3 : idx_main_v12 (idx_main_v13 (ix2 n j)) = ix1 j :=
    funext fun a => by match a with | ⟨0, _⟩ => rfl
  rw [e1, e2, e3, encG_apply]
  -- the formula at (n, j): its one-hot sum is the same table row
  show max (x0 (ix2 n 0) * x2 (ix2 j 0) + x3 (ix1 j) + x4 (ix2 _ j)) (Ideal.ofBits .f32 0x00000000#32)
    = max (x0 (ix2 n 0) * x2 (ix2 j 0) + x3 (ix1 j)
        + ∑ d : Fin 200, (if val_main_v9 (F := Ideal) x1 (ix1 n) = BitVec.ofNat 32 d.val then (1 : EReal) else 0) * x4 (ix2 d j)) 0
  rw [onehot_sum _ h0 h1 (fun d => x4 (ix2 d j)), Ideal.ofBits_zero_f32]

end Cert.ReferenceIdeal.RefStage

end
-- ==== Proof.RefSage.lean ====
/-
  The reference's three graph layers, each as the whole-array graph-layer formula of the stages it reads.

  Each layer of the reference computes, at node n and feature j,

      max (Σ_k mean (n, k) · Wl (j, k) + bl (j) + Σ_k state (n, k) · Wr (j, k)) 0   (+ the residual, in layers 2 and 3):

  a product of the neighbour means with the transposed left table, the bias vector broadcast down the rows, a product
  of the node states with the transposed right table, and the maximum with a zero array. Read at an index, each product
  is a sum over the 128 input features, the transposed table read at (k, j) is the table at (j, k), the broadcast bias
  read at (n, j) is the bias at j, and the zero word denotes 0. The first layer adds no residual: its formula holds with
  the zero array as residual, since x + 0 = x. The stages a layer reads (the means, the previous states) stay closed.
-/
import proofs.«143383_j87711822119113_2_alg».proof.Proof.RefReadP
import proofs.«143383_j87711822119113_2_alg».proof.Proof.Spec
import Idealize.ShloMosaic.PureOps.Ideal.Laws
import Idealize.ShloMosaic.Lib.ValueIdx

noncomputable section

namespace Cert.ReferenceIdeal.RefStage

open Cert.ReferenceIdeal Cert.ReferenceIdeal.ReadP Idealize.ShloMosaic Idealize.ShloMosaic.ValueIdx
open scoped BigOperators

/-- The first layer (no residual): the maximum with zero of the two products and the bias, over the encoder's states. -/
theorem ref_layer1 (x0 : (⟨S50000x1, .f32⟩ : BufTy).Contents (Elt Ideal)) (x1 : (⟨S2x800000, .i32⟩ : BufTy).Contents (Elt Ideal)) (x2 : (⟨S128x1, .f32⟩ : BufTy).Contents (Elt Ideal)) (x3 : (⟨S128, .f32⟩ : BufTy).Contents (Elt Ideal)) (x4 : (⟨S200x128, .f32⟩ : BufTy).Contents (Elt Ideal)) (x5 : (⟨S128x128, .f32⟩ : BufTy).Contents (Elt Ideal)) (x6 : (⟨S128, .f32⟩ : BufTy).Contents (Elt Ideal)) (x7 : (⟨S128x128, .f32⟩ : BufTy).Contents (Elt Ideal)) :
    val_main_v51 (F := Ideal) x0 x1 x2 x3 x4 x5 x6 x7
      = Cert.Spec.sageG (N := 50000) (val_main_v42 (F := Ideal) x0 x1 x2 x3 x4) (val_main_v23 (F := Ideal) x0 x1 x2 x3 x4) x5 (fun y => x6 (ix1 (y 1))) x7 (fun _ => 0) := by
  funext i
  obtain ⟨r, j, rfl⟩ : ∃ (r : Fin 50000) (j : Fin 128), i = ix2 r j := ⟨i 0, i 1, eq_ix2 i⟩
  rw [val_main_v51_apply, val_main_v50_apply, val_main_v47_apply, val_main_v44_apply, val_main_v49_apply, val_main_v46_apply, val_main_v45_apply, val_main_call2_v0_apply, val_main_call2_cst_apply]
  generalize val_main_v42 (F := Ideal) x0 x1 x2 x3 x4 = A
  generalize val_main_v23 (F := Ideal) x0 x1 x2 x3 x4 = H
  have eA : ∀ k : Fin 128, lidx_main_v44 (ix2 r j) k = ix2 r k := fun k => funext fun a => Fin.ext (by
    match a with | ⟨0, _⟩ => rfl | ⟨1, _⟩ => rfl)
  have eWl : ∀ k : Fin 128, idx_main_v43 (ridx_main_v44 (ix2 r j) k) = ix2 j k := fun k => funext fun a => Fin.ext (by
    match a with | ⟨0, _⟩ => rfl | ⟨1, _⟩ => rfl)
  have eH : ∀ k : Fin 128, lidx_main_v49 (ix2 r j) k = ix2 r k := fun k => funext fun a => Fin.ext (by
    match a with | ⟨0, _⟩ => rfl | ⟨1, _⟩ => rfl)
  have eWr : ∀ k : Fin 128, idx_main_v48 (ridx_main_v49 (ix2 r j) k) = ix2 j k := fun k => funext fun a => Fin.ext (by
    match a with | ⟨0, _⟩ => rfl | ⟨1, _⟩ => rfl)
  have eB : idx_main_v45 (idx_main_v46 (ix2 r j)) = ix1 j := funext fun a => Fin.ext (by
    match a with | ⟨0, _⟩ => rfl)
  simp only [val_main_v43_apply, val_main_v48_apply, eA, eWl, eH, eWr, eB]
  unfold Cert.Spec.sageG
  show max _ (Ideal.ofBits .f32 0x00000000#32) = _
  rw [Ideal.ofBits_zero_f32]
  exact (add_zero _).symm

/-- The second layer: the same formula over the first layer's states, which are also the residual. -/
theorem ref_layer2 (x0 : (⟨S50000x1, .f32⟩ : BufTy).Contents (Elt Ideal)) (x1 : (⟨S2x800000, .i32⟩ : BufTy).Contents (Elt Ideal)) (x2 : (⟨S128x1, .f32⟩ : BufTy).Contents (Elt Ideal)) (x3 : (⟨S128, .f32⟩ : BufTy).Contents (Elt Ideal)) (x4 : (⟨S200x128, .f32⟩ : BufTy).Contents (Elt Ideal)) (x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 : (⟨S128x128, .f32⟩ : BufTy).Contents (Elt Ideal)) :
    val_main_v80 (F := Ideal) x0 x1 x2 x3 x4 x5 x6 x7 x8 x9 x10
      = Cert.Spec.sageG (N := 50000) (val_main_v70 (F := Ideal) x0 x1 x2 x3 x4 x5 x6 x7) (val_main_v51 (F := Ideal) x0 x1 x2 x3 x4 x5 x6 x7) x8 (fun y => x9 (ix1 (y 1))) x10 (val_main_v51 (F := Ideal) x0 x1 x2 x3 x4 x5 x6 x7) := by
  funext i
  obtain ⟨r, j, rfl⟩ : ∃ (r : Fin 50000) (j : Fin 128), i = ix2 r j := ⟨i 0, i 1, eq_ix2 i⟩
  rw [val_main_v80_apply, val_main_v79_apply, val_main_v78_apply, val_main_v75_apply, val_main_v72_apply, val_main_v77_apply, val_main_v74_apply, val_main_v73_apply, val_main_call3_v0_apply, val_main_call3_cst_apply]
  generalize val_main_v70 (F := Ideal) x0 x1 x2 x3 x4 x5 x6 x7 = A
  generalize val_main_v51 (F := Ideal) x0 x1 x2 x3 x4 x5 x6 x7 = H
  have eA : ∀ k : Fin 128, lidx_main_v72 (ix2 r j) k = ix2 r k := fun k => funext fun a => Fin.ext (by
    match a with | ⟨0, _⟩ => rfl | ⟨1, _⟩ => rfl)
  have eWl : ∀ k : Fin 128, idx_main_v71 (ridx_main_v72 (ix2 r j) k) = ix2 j k := fun k => funext fun a => Fin.ext (by
    match a with | ⟨0, _⟩ => rfl | ⟨1, _⟩ => rfl)
  have eH : ∀ k : Fin 128, lidx_main_v77 (ix2 r j) k = ix2 r k := fun k => funext fun a => Fin.ext (by
    match a with | ⟨0, _⟩ => rfl | ⟨1, _⟩ => rfl)
  have eWr : ∀ k : Fin 128, idx_main_v76 (ridx_main_v77 (ix2 r j) k) = ix2 j k := fun k => funext fun a => Fin.ext (by
    match a with | ⟨0, _⟩ => rfl | ⟨1, _⟩ => rfl)
  have eB : idx_main_v73 (idx_main_v74 (ix2 r j)) = ix1 j := funext fun a => Fin.ext (by
    match a with | ⟨0, _⟩ => rfl)
  simp only [val_main_v71_apply, val_main_v76_apply, eA, eWl, eH, eWr, eB]
  unfold Cert.Spec.sageG
  show max _ (Ideal.ofBits .f32 0x00000000#32) + _ = _
  rw [Ideal.ofBits_zero_f32]
  rfl

/-- The third layer: the same formula over the second layer's states, which are also the residual. -/
theorem ref_layer3 (x0 : (⟨S50000x1, .f32⟩ : BufTy).Contents (Elt Ideal)) (x1 : (⟨S2x800000, .i32⟩ : BufTy).Contents (Elt Ideal)) (x2 : (⟨S128x1, .f32⟩ : BufTy).Contents (Elt Ideal)) (x3 : (⟨S128, .f32⟩ : BufTy).Contents (Elt Ideal)) (x4 : (⟨S200x128, .f32⟩ : BufTy).Contents (Elt Ideal)) (x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) (x13 : (⟨S128x128, .f32⟩ : BufTy).Contents (Elt Ideal)) :
    val_main_v109 (F := Ideal) x0 x1 x2 x3 x4 x5 x6 x7 x8 x9 x10 x11 x12 x13
      = Cert.Spec.sageG (N := 50000) (val_main_v99 (F := Ideal) x0 x1 x2 x3 x4 x5 x6 x7 x8 x9 x10) (val_main_v80 (F := Ideal) x0 x1 x2 x3 x4 x5 x6 x7 x8 x9 x10) x11 (fun y => x12 (ix1 (y 1))) x13 (val_main_v80 (F := Ideal) x0 x1 x2 x3 x4 x5 x6 x7 x8 x9 x10) := by
  funext i
  obtain ⟨r, j, rfl⟩ : ∃ (r : Fin 50000) (j : Fin 128), i = ix2 r j := ⟨i 0, i 1, eq_ix2 i⟩
  rw [val_main_v109_apply, val_main_v108_apply, val_main_v107_apply, val_main_v104_apply, val_main_v101_apply, val_main_v106_apply, val_main_v103_apply, val_main_v102_apply, val_main_call4_v0_apply, val_main_call4_cst_apply]
  generalize val_main_v99 (F := Ideal) x0 x1 x2 x3 x4 x5 x6 x7 x8 x9 x10 = A
  generalize val_main_v80 (F := Ideal) x0 x1 x2 x3 x4 x5 x6 x7 x8 x9 x10 = H
  have eA : ∀ k : Fin 128, lidx_main_v101 (ix2 r j) k = ix2 r k := fun k => funext fun a => Fin.ext (by
    match a with | ⟨0, _⟩ => rfl | ⟨1, _⟩ => rfl)
  have eWl : ∀ k : Fin 128, idx_main_v100 (ridx_main_v101 (ix2 r j) k) = ix2 j k := fun k => funext fun a => Fin.ext (by
    match a with | ⟨0, _⟩ => rfl | ⟨1, _⟩ => rfl)
  have eH : ∀ k : Fin 128, lidx_main_v106 (ix2 r j) k = ix2 r k := fun k => funext fun a => Fin.ext (by
    match a with | ⟨0, _⟩ => rfl | ⟨1, _⟩ => rfl)
  have eWr : ∀ k : Fin 128, idx_main_v105 (ridx_main_v106 (ix2 r j) k) = ix2 j k := fun k => funext fun a => Fin.ext (by
    match a with | ⟨0, _⟩ => rfl | ⟨1, _⟩ => rfl)
  have eB : idx_main_v102 (idx_main_v103 (ix2 r j)) = ix1 j := funext fun a => Fin.ext (by
    match a with | ⟨0, _⟩ => rfl)
  simp only [val_main_v100_apply, val_main_v105_apply, eA, eWl, eH, eWr, eB]
  unfold Cert.Spec.sageG
  show max _ (Ideal.ofBits .f32 0x00000000#32) + _ = _
  rw [Ideal.ofBits_zero_f32]
  rfl

end Cert.ReferenceIdeal.RefStage

end
-- ==== Proof.RefMlp.lean ====
/-
  The reference's read-out as a whole-array formula, and its last two layout steps read at an index.

  The reference takes the state h it has reached (a [50000, 128] array), multiplies it by the transposed [64, 128]
  table, adds the bias of 64 entries along each row, takes the maximum with zero, multiplies by the transposed
  [1, 64] weight row (a sum over the 64 hidden units), and adds the single output bias:

      y (n, 0) = Σ_k max (Σ_l h (n, l) · W1 (k, l) + b1 k) 0 · w2 (0, k)  +  b2 0.

  Each step is read at an index from its operands at an index; the index maps of the transposes and broadcasts
  compose to the coordinates written in the formula.  The column is then reshaped to a vector of 50000 entries and
  broadcast to a [1, 50000] row, which reads entry (0, n) from the column at (n, 0).
-/
import proofs.«143383_j87711822119113_2_alg».proof.Proof.RefReadP
import proofs.«143383_j87711822119113_2_alg».proof.Proof.Spec
import Idealize.ShloMosaic.PureOps.Ideal.Laws
import Idealize.ShloMosaic.Lib.ValueIdx

noncomputable section

namespace Cert.ReferenceIdeal.RefStage

open Cert.ReferenceIdeal Cert.ReferenceIdeal.ReadP Idealize.ShloMosaic Idealize.ShloMosaic.ValueIdx
open scoped BigOperators

/-- The read-out formula at row n, its one column written out. -/
theorem mlpG_apply {N : ℕ} (h : Cert.Spec.Arr N 128) (w1 : Cert.Spec.Arr 64 128) (b1 w2 : Cert.Spec.Arr 1 64)
    (b2 : Cert.Spec.Arr 1 1) (n : Fin N) (u : Fin 1) :
    Cert.Spec.mlpG h w1 b1 w2 b2 (ix2 n u)
      = (∑ k : Fin 64, max ((∑ l : Fin 128, h (ix2 n l) * w1 (ix2 k l)) + b1 (ix2 0 k)) 0 * w2 (ix2 0 k)) + b2 (ix2 0 0) := rfl

/-- The reference's read-out is the read-out formula of the state it reads, the two weight tables as given and the
    two biases (vectors in the reference) read along their one axis. -/
theorem ref_mlp (x0 : (⟨S50000x1, .f32⟩ : BufTy).Contents (Elt Ideal)) (x1 : (⟨S2x800000, .i32⟩ : BufTy).Contents (Elt Ideal)) (x2 : (⟨S128x1, .f32⟩ : BufTy).Contents (Elt Ideal)) (x3 : (⟨S128, .f32⟩ : BufTy).Contents (Elt Ideal)) (x4 : (⟨S200x128, .f32⟩ : BufTy).Contents (Elt Ideal)) (x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S64x128, .f32⟩ : BufTy).Contents (Elt Ideal)) (x15 : (⟨S64, .f32⟩ : BufTy).Contents (Elt Ideal)) (x16 : (⟨S1x64, .f32⟩ : BufTy).Contents (Elt Ideal)) (x17 : (⟨S1, .f32⟩ : BufTy).Contents (Elt Ideal)) :
    val_main_v120 (F := Ideal) x0 x1 x2 x3 x4 x5 x6 x7 x8 x9 x10 x11 x12 x13 x14 x15 x16 x17
      = Cert.Spec.mlpG (N := 50000) (val_main_v109 (F := Ideal) x0 x1 x2 x3 x4 x5 x6 x7 x8 x9 x10 x11 x12 x13) x14 (fun y => x15 (ix1 (y 1))) x16 (fun y => x17 (ix1 (y 1))) := by
  funext i
  obtain ⟨n, u, rfl⟩ : ∃ (n : Fin 50000) (u : Fin 1), i = ix2 n u := ⟨i 0, i 1, eq_ix2 i⟩
  obtain rfl : u = 0 := Subsingleton.elim u 0
  refine Eq.trans ?_ (mlpG_apply _ _ _ _ _ n 0).symm
  refine (val_main_v120_apply x0 x1 x2 x3 x4 x5 x6 x7 x8 x9 x10 x11 x12 x13 x14 x15 x16 x17 (ix2 n 0)).trans ?_
  refine congrArg₂ (· + ·) ?_ ?_
  · -- the product with the transposed weight row: a sum over the 64 hidden units
    refine (val_main_v117_apply x0 x1 x2 x3 x4 x5 x6 x7 x8 x9 x10 x11 x12 x13 x14 x15 x16 (ix2 n 0)).trans ?_
    refine Finset.sum_congr rfl fun k _ => ?_
    refine congrArg₂ (· * ·) ?_ ?_
    · -- the hidden unit k of row n: the maximum with zero
      refine (val_main_v115_apply x0 x1 x2 x3 x4 x5 x6 x7 x8 x9 x10 x11 x12 x13 x14 x15 _).trans ?_
      refine congrArg₂ max ?_ ?_
      · refine (val_main_v114_apply x0 x1 x2 x3 x4 x5 x6 x7 x8 x9 x10 x11 x12 x13 x14 x15 _).trans ?_
        refine congrArg₂ (· + ·) ?_ ?_
        · -- the product with the transposed table: a sum over the 128 features
          refine (val_main_v111_apply x0 x1 x2 x3 x4 x5 x6 x7 x8 x9 x10 x11 x12 x13 x14 _).trans ?_
          refine Finset.sum_congr rfl fun l _ => ?_
          refine congrArg₂ (· * ·) ?_ ?_
          · exact congrArg (val_main_v109 (F := Ideal) x0 x1 x2 x3 x4 x5 x6 x7 x8 x9 x10 x11 x12 x13) (funext fun a => Fin.ext (by
              match a with
              | ⟨0, _⟩ => rfl
              | ⟨1, _⟩ => rfl))
          · refine (val_main_v110_apply x14 _).trans ?_
            exact congrArg x14 (funext fun a => Fin.ext (by
              match a with
              | ⟨0, _⟩ => rfl
              | ⟨1, _⟩ => rfl))
        · -- the bias of the hidden unit, broadcast over the rows
          refine (val_main_v113_apply x15 _).trans ?_
          refine (val_main_v112_apply x15 _).trans ?_
          exact congrArg x15 (funext fun a => Fin.ext (by
            match a with
            | ⟨0, _⟩ => rfl))
      · -- the zero the maximum is taken with
        refine (val_main_call5_v0_apply _).trans ?_
        exact Ideal.ofBits_zero_f32
    · -- the weight of the hidden unit, read through the transpose
      refine (val_main_v116_apply x16 _).trans ?_
      exact congrArg x16 (funext fun a => Fin.ext (by
        match a with
        | ⟨0, _⟩ => rfl
        | ⟨1, _⟩ => rfl))
  · -- the output bias, broadcast down the column
    refine (val_main_v119_apply x17 _).trans ?_
    refine (val_main_v118_apply x17 _).trans ?_
    exact congrArg x17 (funext fun a => Fin.ext (by
      match a with
      | ⟨0, _⟩ => rfl))

/-- The reshaped and broadcast result at (0, n) is the read-out column at (n, 0). -/
theorem ref_tail (x0 : (⟨S50000x1, .f32⟩ : BufTy).Contents (Elt Ideal)) (x1 : (⟨S2x800000, .i32⟩ : BufTy).Contents (Elt Ideal)) (x2 : (⟨S128x1, .f32⟩ : BufTy).Contents (Elt Ideal)) (x3 : (⟨S128, .f32⟩ : BufTy).Contents (Elt Ideal)) (x4 : (⟨S200x128, .f32⟩ : BufTy).Contents (Elt Ideal)) (x5 : (⟨S128x128, .f32⟩ : BufTy).Contents (Elt Ideal)) (x6 : (⟨S128, .f32⟩ : BufTy).Contents (Elt Ideal)) (x7 x8 : (⟨S128x128, .f32⟩ : BufTy).Contents (Elt Ideal)) (x9 : (⟨S128, .f32⟩ : BufTy).Contents (Elt Ideal)) (x10 x11 : (⟨S128x128, .f32⟩ : BufTy).Contents (Elt Ideal)) (x12 : (⟨S128, .f32⟩ : BufTy).Contents (Elt Ideal)) (x13 : (⟨S128x128, .f32⟩ : BufTy).Contents (Elt Ideal)) (x14 : (⟨S64x128, .f32⟩ : BufTy).Contents (Elt Ideal)) (x15 : (⟨S64, .f32⟩ : BufTy).Contents (Elt Ideal)) (x16 : (⟨S1x64, .f32⟩ : BufTy).Contents (Elt Ideal)) (x17 : (⟨S1, .f32⟩ : BufTy).Contents (Elt Ideal)) (i : S1x50000.Idx) :
    val_main_v122 (F := Ideal) x0 x1 x2 x3 x4 x5 x6 x7 x8 x9 x10 x11 x12 x13 x14 x15 x16 x17 i = val_main_v120 (F := Ideal) x0 x1 x2 x3 x4 x5 x6 x7 x8 x9 x10 x11 x12 x13 x14 x15 x16 x17 (ix2 (i 1) 0) := by
  refine (val_main_v122_apply x0 x1 x2 x3 x4 x5 x6 x7 x8 x9 x10 x11 x12 x13 x14 x15 x16 x17 i).trans ?_
  refine (val_main_v121_apply x0 x1 x2 x3 x4 x5 x6 x7 x8 x9 x10 x11 x12 x13 x14 x15 x16 x17 _).trans ?_
  exact congrArg (val_main_v120 (F := Ideal) x0 x1 x2 x3 x4 x5 x6 x7 x8 x9 x10 x11 x12 x13 x14 x15 x16 x17) (funext fun a => Fin.ext (by
    match a with
    | ⟨0, _⟩ => exact Nat.div_one _
    | ⟨1, _⟩ => rfl))

end Cert.ReferenceIdeal.RefStage

end
-- ==== Proof.LibDotABt.lean ====
/-
  A matrix product against a TRANSPOSED table, read at an index.

  For dimension numbers that contract the second axis of an [M, K] table with the second axis of an [N, K] table
  (a product with the transpose, the way a linear layer applies its weight) and keep the two first axes in order, the
  sum over the contraction index of the operands' products is the familiar Σ_k lhs (r, k) · rhs (c, k), with k ranging
  over `Fin K`.  The four hypotheses say where the dimension numbers send an output index (r, c) and a contraction
  index: they hold by computation for every such record.
-/
import Idealize.ShloMosaic.PureOps.Ideal.Laws
import Idealize.ShloMosaic.Lib.ValueIdx

noncomputable section

namespace Idealize.ShloMosaic.DotABt

open Idealize.ShloMosaic Idealize.ShloMosaic.ValueIdx
open scoped BigOperators

/-- The contraction sum of an [M, K] × [N, K]ᵀ product at output index `i`, over `k : Fin K`. -/
theorem sum_contr_eq {M K N : Nat} {R : Type*} [AddCommMonoid R] [Mul R]
    (d : DotDims ⟨2, ![M, K]⟩ ⟨2, ![N, K]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (i 1).val)
    (r1 : ∀ (i : (⟨2, ![M, N]⟩ : Shape).Idx) (q : d.contr.Idx), (d.rhsIdx i q 1).val = (q ⟨0, by omega⟩).val)
    (lhs : (⟨2, ![M, K]⟩ : Shape).Idx → R) (rhs : (⟨2, ![N, K]⟩ : Shape).Idx → R) (i : (⟨2, ![M, N]⟩ : Shape).Idx) :
    ∑ q : d.contr.Idx, lhs (d.lhsIdx i q) * rhs (d.rhsIdx i q) = ∑ k : Fin K, lhs (ix2 (i 0) k) * rhs (ix2 (i 1) k) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 (i 1) k := funext fun a => Fin.ext (by
    match a with
    | ⟨0, _⟩ => exact r0 _ _
    | ⟨1, _⟩ => exact (r1 _ _).trans hk)
  exact congrArg₂ (· * ·) (congrArg lhs el) (congrArg rhs er)

end Idealize.ShloMosaic.DotABt

end
-- ==== Proof.PayEnc.lean ====
/-
  The value the encoder body stores, read at an index.

  The stored block is max(col ⊗ row + bias + onehot(deg) · table, 0): an outer product of a column and a row, a bias
  row, and the product of the ONE-HOT table of the degree column (entry (r, d) is 1 when row r's degree word is the
  column number d, else 0) with a [200, 128] table, cut below at zero.  At the ideal values every operation is exact, so
  the element at (r, j) is the maximum with zero of
      col r · row j + bias j + Σ_d [deg r = d] · table (d, j).
-/
import proofs.«143383_j87711822119113_2_alg».proof.Proof.Gen.KernelIdeal.Skeleton
import proofs.«143383_j87711822119113_2_alg».proof.Proof.LibDotABt
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx
open scoped BigOperators

/-- The contraction sum of a plain [M, K] × [K, N] product at output index `i`, over `k : Fin K`: the four hypotheses
    say where the dimension numbers send an output index and a contraction index. -/
theorem sum_contr_AB {M K N : Nat} {R : Type*} [AddCommMonoid R] [Mul R]
    (d : DotDims ⟨2, ![M, K]⟩ ⟨2, ![K, N]⟩ ⟨2, ![M, N]⟩) (hr : d.contr.rank = 1)
    (hs : d.contr.size ⟨0, by omega⟩ = K)
    (l0 : ∀ (i : (⟨2, ![M, N]⟩ : Shape).Idx) (q : d.contr.Idx), (d.lhsIdx i q 0).val = (i 0).val)
    (l1 : ∀ (i : (⟨2, ![M, N]⟩ : Shape).Idx) (q : d.contr.Idx), (d.lhsIdx i q 1).val = (q ⟨0, by omega⟩).val)
    (r0 : ∀ (i : (⟨2, ![M, N]⟩ : Shape).Idx) (q : d.contr.Idx), (d.rhsIdx i q 0).val = (q ⟨0, by omega⟩).val)
    (r1 : ∀ (i : (⟨2, ![M, N]⟩ : Shape).Idx) (q : d.contr.Idx), (d.rhsIdx i q 1).val = (i 1).val)
    (lhs : (⟨2, ![M, K]⟩ : Shape).Idx → R) (rhs : (⟨2, ![K, N]⟩ : Shape).Idx → R) (i : (⟨2, ![M, N]⟩ : Shape).Idx) :
    ∑ q : d.contr.Idx, lhs (d.lhsIdx i q) * rhs (d.rhsIdx i q) = ∑ k : Fin K, lhs (ix2 (i 0) k) * rhs (ix2 k (i 1)) := by
  rw [← Equiv.sum_comp (contrEquiv1 d K hr hs).symm]
  refine Finset.sum_congr rfl fun k _ => ?_
  have hk := contrEquiv1_symm_val d K hr hs k
  have el : d.lhsIdx i ((contrEquiv1 d K hr hs).symm k) = ix2 (i 0) k := funext fun a => Fin.ext (by
    match a with
    | ⟨0, _⟩ => exact l0 _ _
    | ⟨1, _⟩ => exact (l1 _ _).trans hk)
  have er : d.rhsIdx i ((contrEquiv1 d K hr hs).symm k) = ix2 k (i 1) := funext fun a => Fin.ext (by
    match a with
    | ⟨0, _⟩ => exact (r0 _ _).trans hk
    | ⟨1, _⟩ => exact r1 _ _)
  exact congrArg₂ (· * ·) (congrArg lhs el) (congrArg rhs er)

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The one-hot entry: the 1-bit word of "x = y", widened to 32 bits and read as a signed integer, is the real 1 when
    the two words agree and the real 0 when they differ. -/
theorem sitofp_onehot (x y : BitVec 32) :
    (FloatOps.sitofp (F := Ideal) .f32 ((IntOp.cmpi .eq x y).setWidth 32) : EReal) = if x = y then 1 else 0 := by
  show (((((IntOp.cmpi .eq x y).setWidth 32).toInt : ℤ) : ℝ) : EReal) = _
  by_cases h : x = y
  · have hb : (x == y) = true := beq_iff_eq.mpr h
    have hc : IntOp.cmpi .eq x y = 1#1 := by
      show BitVec.ofBool (x == y) = 1#1
      rw [hb]; rfl
    have e1 : ((1#1 : BitVec 1).setWidth 32).toInt = 1 := by decide
    rw [hc, e1, if_pos h]
    simp
  · have hb : (x == y) = false := beq_eq_false_iff_ne.mpr h
    have hc : IntOp.cmpi .eq x y = 0#1 := by
      show BitVec.ofBool (x == y) = 0#1
      rw [hb]; rfl
    have e0 : ((0#1 : BitVec 1).setWidth 32).toInt = 0 := by decide
    rw [hc, e0, if_neg h]
    simp

/-- THE STORED BLOCK AT (r, j): the maximum with zero of the outer product's entry, the bias and the one-hot row of
    the degree word times the table's column. -/
theorem k0_pay1_apply (v0 : Vec Ideal S2000x1 .f32) (v1 : Vec Ideal S1x128 .f32) (v6 : Vec Ideal S2000x1 .i32) (v14 : Vec Ideal S200x128 .f32) (v17 : Vec Ideal S1x128 .f32) (r : Fin 2000) (j : Fin 128) :
    k0_pay1 (F := Ideal) v0 v1 v6 v14 v17 (ix2 r j)
      = max (v0 (ix2 r 0) * v1 (ix2 0 j) + v17 (ix2 0 j) + ∑ d : Fin 200, (if v6 (ix2 r 0) = BitVec.ofNat 32 d.val then (1 : EReal) else 0) * v14 (ix2 d j)) 0 := by
  unfold k0_pay1
  dsimp only
  -- the pointwise operations, then the layout operations, read at (r, j)
  rw [maximumf_apply, addf_apply, addf_apply, mulf_apply, broadcast_apply]
  simp only [shapeCast_self]
  rw [broadcastTo_a1_ab_apply, broadcastTo_1b_ab_apply, broadcastTo_1b_ab_apply]
  -- the product into the zero accumulator is the sum over the 200 columns of the one-hot table
  simp only [matmul]
  rw [Ideal.matmul_constant_zero_apply]
  rw [sum_contr_AB dot_S2000x200_S200x128_S2000x128_1_0_0_1_n_n rfl rfl (fun _ _ => rfl) (fun _ _ => rfl) (fun _ _ => rfl) (fun _ _ => rfl)]
  refine congrArg₂ max (congrArg (_ + ·) (Finset.sum_congr rfl fun d _ => ?_)) Ideal.ofBits_zero_f32
  -- one summand: the one-hot entry (r, d) times the table's entry (d, j)
  show FloatOps.sitofp (F := Ideal) .f32 ((IntOp.cmpi .eq (broadcastTo S2000x200 v6 broadcasts_S2000x1_S2000x200 (ix2 r d))
      (iota Kind.tc S2000x200 32 [1] iota_S2000x200_d1_w32 (ix2 r d))).setWidth 32) * v14 (ix2 d j) = _
  rw [broadcastTo_a1_ab_apply, iota_single_apply, sitofp_onehot]

end Cert.KernelIdeal.Pay

end
-- ==== Proof.KiArr0.lean ====
/-
  Launch 0, from tiles to the whole array.

  Tile t of the grid reads rows 2000 t … 2000 t + 1999 of the node features and of the node degrees, the weight row,
  the bias row and the table of 200 rows whole, and writes rows 2000 t … 2000 t + 1999 of the output.  The 25 tiles'
  row ranges cover the 50000 rows, so after the launch the output array holds, at every index, the encoder's formula
  of the arrays the launch was entered with.
-/
import proofs.«143383_j87711822119113_2_alg».proof.Proof.KiRegion0
import proofs.«143383_j87711822119113_2_alg».proof.Proof.PayEnc
import proofs.«143383_j87711822119113_2_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

theorem hz0 : (![0, 0] : Fin 2 → Nat) = fun _ => 0 := funext fun a => by fin_cases a <;> rfl

/-- Where each window's block sits at tile `t`: the features, the degrees and the output at block row `t`, the
    weight row, the bias row and the table at their one block. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

set_option maxHeartbeats 4000000 in
/-- What tile `t` writes back is block `t` of the encoder's formula of the entry arrays. -/
theorem flushed0_eq (c : Dev nD) (t : Fin cfg0.N) :
    (dat0 V c).flushed 5 t = ((cfg0.win 5).blk t).view.read (Elt Ideal) (Cert.Spec.encG (N := 50000) (V c main_arg0) (V c main_v20) (V c main_v19) (V c main_arg4) (V c main_v10)) := by
  show (cfg0.win 5).cut (grid0.coords t) ((dat0 V c).after 5 t) = _
  rw [after0_5]
  unfold out0
  rw [View.canon_unit_zero hz0]
  simp only [View.ld_unit_zero (S := S2000x1) hz0, View.ld_unit_zero (S := S1x128) hz0, View.ld_unit_zero (S := S200x128) hz0]
  funext j
  obtain ⟨r, q, rfl⟩ : ∃ (r : Fin 2000) (q : Fin 128), j = ix2 r q := ⟨j 0, j 1, eq_ix2 j⟩
  show k0_pay1 (iblk0 V c 0 t) (iblk0 V c 1 t) (iblk0 V c 4 t) (iblk0 V c 3 t) (iblk0 V c 2 t) (ix2 r q)
    = Cert.Spec.encG (N := 50000) (V c main_arg0) (V c main_v20) (V c main_v19) (V c main_arg4) (V c main_v10) (((cfg0.win 5).blk t).view.emb (ix2 r q))
  rw [Pay.k0_pay1_apply]
  obtain ⟨a00, a01, a10, a11, a20, a21, a30, a31, a40, a41, a50, a51⟩ := idx_facts0 t
  have hr : r.val < 2000 := r.isLt
  have hq : q.val < 128 := q.isLt
  have i0 : ((((cfg0.win 5).blk t).view.emb (ix2 r q)) 0).val = win0_5.index t (0 : Fin 2) * 2000 + 1 * r.val := rfl
  have i1 : ((((cfg0.win 5).blk t).view.emb (ix2 r q)) 1).val = win0_5.index t (1 : Fin 2) * 128 + 1 * q.val := rfl
  have h0 : iblk0 V c 0 t (ix2 r 0) = V c main_arg0 (ix2 ((((cfg0.win 5).blk t).view.emb (ix2 r q)) 0) 0) := by
    show V c main_arg0 (((cfg0.win 0).blk t).view.emb (ix2 r 0)) = _
    congr 1; funext a; apply Fin.ext
    match a with
    | ⟨0, _⟩ => show win0_0.index t (0 : Fin 2) * 2000 + 1 * r.val = _; rw [i0]; omega
    | ⟨1, _⟩ => show win0_0.index t (1 : Fin 2) * 1 + 1 * 0 = 0; omega
  have h1 : iblk0 V c 1 t (ix2 0 q) = V c main_v20 (ix2 0 ((((cfg0.win 5).blk t).view.emb (ix2 r q)) 1)) := by
    show V c main_v20 (((cfg0.win 1).blk t).view.emb (ix2 0 q)) = _
    congr 1; funext a; apply Fin.ext
    match a with
    | ⟨0, _⟩ => show win0_1.index t (0 : Fin 2) * 1 + 1 * 0 = 0; omega
    | ⟨1, _⟩ => show win0_1.index t (1 : Fin 2) * 128 + 1 * q.val = _; rw [i1]; omega
  have h2 : iblk0 V c 2 t (ix2 0 q) = V c main_v19 (ix2 0 ((((cfg0.win 5).blk t).view.emb (ix2 r q)) 1)) := by
    show V c main_v19 (((cfg0.win 2).blk t).view.emb (ix2 0 q)) = _
    congr 1; funext a; apply Fin.ext
    match a with
    | ⟨0, _⟩ => show win0_2.index t (0 : Fin 2) * 1 + 1 * 0 = 0; omega
    | ⟨1, _⟩ => show win0_2.index t (1 : Fin 2) * 128 + 1 * q.val = _; rw [i1]; omega
  have h3 : ∀ d : Fin 200, iblk0 V c 3 t (ix2 d q) = V c main_arg4 (ix2 d ((((cfg0.win 5).blk t).view.emb (ix2 r q)) 1)) := fun d => by
    show V c main_arg4 (((cfg0.win 3).blk t).view.emb (ix2 d q)) = _
    congr 1; funext a; apply Fin.ext
    match a with
    | ⟨0, _⟩ => show win0_3.index t (0 : Fin 2) * 200 + 1 * d.val = d.val; omega
    | ⟨1, _⟩ => show win0_3.index t (1 : Fin 2) * 128 + 1 * q.val = _; rw [i1]; omega
  have h4 : iblk0 V c 4 t (ix2 r 0) = V c main_v10 (ix2 ((((cfg0.win 5).blk t).view.emb (ix2 r q)) 0) 0) := by
    show V c main_v10 (((cfg0.win 4).blk t).view.emb (ix2 r 0)) = _
    congr 1; funext a; apply Fin.ext
    match a with
    | ⟨0, _⟩ => show win0_4.index t (0 : Fin 2) * 2000 + 1 * r.val = _; rw [i0]; omega
    | ⟨1, _⟩ => show win0_4.index t (1 : Fin 2) * 1 + 1 * 0 = 0; omega
  unfold Cert.Spec.encG
  simp only [h0, h1, h2, h3, h4]

/-- An index is in tile `t`'s output block iff each coordinate is in the block's range on its axis. -/
theorem mem_blk0 (t : Fin cfg0.N) (i : S50000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v21).slice (win0_5.rect t)).set ↔ _
  rw [View.set_slice_whole, Rect.mem_set_unit]
  exact Iff.rfl

/-- Every row lies in some tile's block: row n in tile n / 2000. -/
theorem rows_cover0 (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  let t : Fin cfg0.N := ⟨(i 0).val / 2000, by rw [hN]; omega⟩
  obtain ⟨-, -, -, -, -, -, -, -, -, -, a50, a51⟩ := idx_facts0 t
  have ht : t.val = (i 0).val / 2000 := rfl
  refine ⟨t, flush0_5 t, ?_⟩
  rw [mem_blk0]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-- After launch 0 its output array is the encoder's formula of the arrays it was entered with. -/
theorem arr0_eq (c : Dev nD) : (dat0 V c).arrAt 5 cfg0.N = Cert.Spec.encG (N := 50000) (V c main_arg0) (V c main_v20) (V c main_v19) (V c main_arg4) (V c main_v10) :=
  (dat0 V c).arrAt_eq_of_cover 5 _ (fun t _ => flushed0_eq V c t) rows_cover0

end Cert.KernelIdeal.Hand

end
-- ==== Proof.PaySage.lean ====
/-
  The value the dense graph-layer body stores, read at an index.

  Each of the three layer bodies stores, at row r and column j,

      max (Σ_k x (r, k) · W (j, k) + b (0, j) + Σ_k y (r, k) · V (j, k)) 0 + z (r, j):

  two products against transposed 128 × 128 weight tables (each accumulated into zero), a bias row broadcast down the
  rows, a maximum with zero, and a residual added. At the ideal values a change of format is the identity, a shape cast
  to the same shape is the identity, the zero word denotes 0, and every operation is exact, so the stored value is this
  expression with no rounding left in it.
-/
import proofs.«143383_j87711822119113_2_alg».proof.Proof.Gen.KernelIdeal.Skeleton
import proofs.«143383_j87711822119113_2_alg».proof.Proof.LibDotABt
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx
open scoped BigOperators

/-- A product of a [2000, 128] table with the transpose of a [128, 128] table, accumulated into zero, read at (r, j):
    the sum over k of lhs (r, k) · rhs (j, k). The dimension numbers contract the second axis of each operand and keep
    the two first axes in order; where they send an output index and a contraction index holds by computation. -/
theorem matmul_ABt_apply (a : FVec Ideal S2000x128 .bf16) (b : FVec Ideal S128x128 .bf16) (r : Fin 2000) (j : Fin 128) :
    matmul dot_S2000x128_S128x128_S2000x128_1_1_0_0_n_n none a b (constant (F := Ideal) S2000x128 .f32 0x00000000#32) (ix2 r j)
      = ∑ k : Fin 128, a (ix2 r k) * b (ix2 j k) := by
  refine (Ideal.matmul_constant_zero_apply _ none a b (ix2 r j)).trans ?_
  exact DotABt.sum_contr_eq (M := 2000) (K := 128) (N := 128) dot_S2000x128_S128x128_S2000x128_1_1_0_0_n_n rfl rfl
    (fun i q => rfl)
    (fun i q => DotDims.lhsIdx_val_of_single _ (cl := 1) rfl i q)
    (fun i q => rfl)
    (fun i q => DotDims.rhsIdx_val_of_single _ (cr := 1) rfl i q)
    a b (ix2 r j)

/-- The first layer body's stored value at (r, j): the index goes through the pointwise operations, each product is
    the sum above, the bias row is read at (0, j), the casts and format changes are identities, and the zero word is 0. -/
theorem k1_pay1_apply (v0 v2 : Vec Ideal S2000x128 .f32) (v4 v8 : Vec Ideal S128x128 .f32) (v12 : Vec Ideal S1x128 .f32)
    (v19 : Vec Ideal S2000x128 .f32) (r : Fin 2000) (j : Fin 128) :
    k1_pay1 (F := Ideal) v0 v2 v4 v8 v12 v19 (ix2 r j)
      = max ((∑ k : Fin 128, v0 (ix2 r k) * v4 (ix2 j k)) + v12 (ix2 0 j) + ∑ k : Fin 128, v2 (ix2 r k) * v8 (ix2 j k)) 0
          + v19 (ix2 r j) := by
  unfold Gen.k1_pay1
  rw [addf_apply, maximumf_apply, addf_apply, addf_apply, broadcast_apply, matmul_ABt_apply, matmul_ABt_apply,
    shapeCast_self, shapeCast_self, shapeCast_self, shapeCast_self, broadcastTo_1b_ab_apply]
  simp only [truncf_apply]
  show max _ (Ideal.ofBits .f32 0x00000000#32) + _ = _
  rw [Ideal.ofBits_zero_f32]

/-- The second layer body's stored value at (r, j): the index goes through the pointwise operations, each product is
    the sum above, the bias row is read at (0, j), the casts and format changes are identities, and the zero word is 0. -/
theorem k2_pay1_apply (v0 v2 : Vec Ideal S2000x128 .f32) (v4 v8 : Vec Ideal S128x128 .f32) (v12 : Vec Ideal S1x128 .f32)
    (v19 : Vec Ideal S2000x128 .f32) (r : Fin 2000) (j : Fin 128) :
    k2_pay1 (F := Ideal) v0 v2 v4 v8 v12 v19 (ix2 r j)
      = max ((∑ k : Fin 128, v0 (ix2 r k) * v4 (ix2 j k)) + v12 (ix2 0 j) + ∑ k : Fin 128, v2 (ix2 r k) * v8 (ix2 j k)) 0
          + v19 (ix2 r j) := by
  unfold Gen.k2_pay1
  rw [addf_apply, maximumf_apply, addf_apply, addf_apply, broadcast_apply, matmul_ABt_apply, matmul_ABt_apply,
    shapeCast_self, shapeCast_self, shapeCast_self, shapeCast_self, broadcastTo_1b_ab_apply]
  simp only [truncf_apply]
  show max _ (Ideal.ofBits .f32 0x00000000#32) + _ = _
  rw [Ideal.ofBits_zero_f32]

/-- The third layer body's stored value at (r, j): the index goes through the pointwise operations, each product is
    the sum above, the bias row is read at (0, j), the casts and format changes are identities, and the zero word is 0. -/
theorem k3_pay1_apply (v0 v2 : Vec Ideal S2000x128 .f32) (v4 v8 : Vec Ideal S128x128 .f32) (v12 : Vec Ideal S1x128 .f32)
    (v19 : Vec Ideal S2000x128 .f32) (r : Fin 2000) (j : Fin 128) :
    k3_pay1 (F := Ideal) v0 v2 v4 v8 v12 v19 (ix2 r j)
      = max ((∑ k : Fin 128, v0 (ix2 r k) * v4 (ix2 j k)) + v12 (ix2 0 j) + ∑ k : Fin 128, v2 (ix2 r k) * v8 (ix2 j k)) 0
          + v19 (ix2 r j) := by
  unfold Gen.k3_pay1
  rw [addf_apply, maximumf_apply, addf_apply, addf_apply, broadcast_apply, matmul_ABt_apply, matmul_ABt_apply,
    shapeCast_self, shapeCast_self, shapeCast_self, shapeCast_self, broadcastTo_1b_ab_apply]
  simp only [truncf_apply]
  show max _ (Ideal.ofBits .f32 0x00000000#32) + _ = _
  rw [Ideal.ofBits_zero_f32]

end Cert.KernelIdeal.Pay

end
-- ==== Proof.KiArr1.lean ====
/-
  Launch 1, from tiles to the whole array.

  Tile t of the grid reads rows 2000 t … 2000 t + 1999 of the neighbour means, of the node states and of the residual,
  the two weight tables and the bias row whole, and writes rows 2000 t … 2000 t + 1999 of the output.  The 25 tiles' row
  ranges cover the 50000 rows, so after the launch the output array holds, at every index, the layer's formula of the
  arrays the launch was entered with.
-/
import proofs.«143383_j87711822119113_2_alg».proof.Proof.KiRegion1
import proofs.«143383_j87711822119113_2_alg».proof.Proof.PaySage
import proofs.«143383_j87711822119113_2_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

theorem hz1 : (![0, 0] : Fin 2 → Nat) = fun _ => 0 := funext fun a => by fin_cases a <;> rfl

/-- Where each window's block sits at tile `t`: the three tiled inputs and the output at block row `t`, the
    weight tables and the bias row at their one block. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

set_option maxHeartbeats 4000000 in
/-- What tile `t` writes back is block `t` of the layer's formula of the entry arrays. -/
theorem flushed1_eq (c : Dev nD) (t : Fin cfg1.N) :
    (dat1 V c).flushed 6 t = ((cfg1.win 6).blk t).view.read (Elt Ideal) (Cert.Spec.sageG (N := 50000) (V c main_v34) (V c main_v21) (V c main_arg5) (V c main_v35) (V c main_arg7) (V c main_v22)) := by
  show (cfg1.win 6).cut (grid1.coords t) ((dat1 V c).after 6 t) = _
  rw [after1_6]
  unfold out1
  rw [View.canon_unit_zero hz1]
  simp only [View.ld_unit_zero (S := S2000x128) hz1, View.ld_unit_zero (S := S128x128) hz1, View.ld_unit_zero (S := S1x128) hz1]
  funext j
  obtain ⟨r, q, rfl⟩ : ∃ (r : Fin 2000) (q : Fin 128), j = ix2 r q := ⟨j 0, j 1, eq_ix2 j⟩
  show k1_pay1 (iblk1 V c 0 t) (iblk1 V c 1 t) (iblk1 V c 2 t) (iblk1 V c 4 t) (iblk1 V c 3 t) (iblk1 V c 5 t) (ix2 r q)
    = Cert.Spec.sageG (N := 50000) (V c main_v34) (V c main_v21) (V c main_arg5) (V c main_v35) (V c main_arg7) (V c main_v22) (((cfg1.win 6).blk t).view.emb (ix2 r q))
  rw [Pay.k1_pay1_apply]
  obtain ⟨a00, a01, a10, a11, a20, a21, a30, a31, a40, a41, a50, a51, a60, a61⟩ := idx_facts1 t
  have hr : r.val < 2000 := r.isLt
  have hq : q.val < 128 := q.isLt
  have i0 : (((((cfg1.win 6).blk t).view.emb (ix2 r q))) 0).val = win1_6.index t (0 : Fin 2) * 2000 + 1 * r.val := rfl
  have i1 : (((((cfg1.win 6).blk t).view.emb (ix2 r q))) 1).val = win1_6.index t (1 : Fin 2) * 128 + 1 * q.val := rfl
  have h0 : ∀ k : Fin 128, iblk1 V c 0 t (ix2 r k) = V c main_v34 (ix2 (((((cfg1.win 6).blk t).view.emb (ix2 r q))) 0) k) := fun k => by
    show V c main_v34 (((cfg1.win 0).blk t).view.emb (ix2 r k)) = _
    congr 1; funext a; apply Fin.ext
    match a with
    | ⟨0, _⟩ => show win1_0.index t (0 : Fin 2) * 2000 + 1 * r.val = _; rw [i0]; omega
    | ⟨1, _⟩ => show win1_0.index t (1 : Fin 2) * 128 + 1 * k.val = k.val; omega
  have h1 : ∀ k : Fin 128, iblk1 V c 1 t (ix2 r k) = V c main_v21 (ix2 (((((cfg1.win 6).blk t).view.emb (ix2 r q))) 0) k) := fun k => by
    show V c main_v21 (((cfg1.win 1).blk t).view.emb (ix2 r k)) = _
    congr 1; funext a; apply Fin.ext
    match a with
    | ⟨0, _⟩ => show win1_1.index t (0 : Fin 2) * 2000 + 1 * r.val = _; rw [i0]; omega
    | ⟨1, _⟩ => show win1_1.index t (1 : Fin 2) * 128 + 1 * k.val = k.val; omega
  have h2 : ∀ k : Fin 128, iblk1 V c 2 t (ix2 q k) = V c main_arg5 (ix2 (((((cfg1.win 6).blk t).view.emb (ix2 r q))) 1) k) := fun k => by
    show V c main_arg5 (((cfg1.win 2).blk t).view.emb (ix2 q k)) = _
    congr 1; funext a; apply Fin.ext
    match a with
    | ⟨0, _⟩ => show win1_2.index t (0 : Fin 2) * 128 + 1 * q.val = _; rw [i1]; omega
    | ⟨1, _⟩ => show win1_2.index t (1 : Fin 2) * 128 + 1 * k.val = k.val; omega
  have h4 : ∀ k : Fin 128, iblk1 V c 4 t (ix2 q k) = V c main_arg7 (ix2 (((((cfg1.win 6).blk t).view.emb (ix2 r q))) 1) k) := fun k => by
    show V c main_arg7 (((cfg1.win 4).blk t).view.emb (ix2 q k)) = _
    congr 1; funext a; apply Fin.ext
    match a with
    | ⟨0, _⟩ => show win1_4.index t (0 : Fin 2) * 128 + 1 * q.val = _; rw [i1]; omega
    | ⟨1, _⟩ => show win1_4.index t (1 : Fin 2) * 128 + 1 * k.val = k.val; omega
  have h3 : iblk1 V c 3 t (ix2 0 q) = V c main_v35 (ix2 0 (((((cfg1.win 6).blk t).view.emb (ix2 r q))) 1)) := by
    show V c main_v35 (((cfg1.win 3).blk t).view.emb (ix2 0 q)) = _
    congr 1; funext a; apply Fin.ext
    match a with
    | ⟨0, _⟩ => show win1_3.index t (0 : Fin 2) * 1 + 1 * 0 = 0; omega
    | ⟨1, _⟩ => show win1_3.index t (1 : Fin 2) * 128 + 1 * q.val = _; rw [i1]; omega
  have h5 : iblk1 V c 5 t (ix2 r q) = V c main_v22 (((cfg1.win 6).blk t).view.emb (ix2 r q)) := by
    show V c main_v22 (((cfg1.win 5).blk t).view.emb (ix2 r q)) = _
    congr 1
  unfold Cert.Spec.sageG
  simp only [h0, h1, h2, h3, h4, h5]

/-- An index is in tile `t`'s output block iff each coordinate is in the block's range on its axis. -/
theorem mem_blk1 (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v36).slice (win1_6.rect t)).set ↔ _
  rw [View.set_slice_whole, Rect.mem_set_unit]
  exact Iff.rfl

/-- Every row lies in some tile's block: row n in tile n / 2000. -/
theorem rows_cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  let t : Fin cfg1.N := ⟨(i 0).val / 2000, by rw [hN]; omega⟩
  obtain ⟨-, -, -, -, -, -, -, -, -, -, -, -, a60, a61⟩ := idx_facts1 t
  have ht : t.val = (i 0).val / 2000 := rfl
  refine ⟨t, flush1_6 t, ?_⟩
  rw [mem_blk1]
  intro a
  match a with
  | ⟨0, _⟩ => show win1_6.index t (0 : Fin 2) * 2000 ≤ (i 0).val ∧ (i 0).val < win1_6.index t (0 : Fin 2) * 2000 + 2000; omega
  | ⟨1, _⟩ => show win1_6.index t (1 : Fin 2) * 128 ≤ (i 1).val ∧ (i 1).val < win1_6.index t (1 : Fin 2) * 128 + 128; omega

/-- After launch 1 its output array is the layer's formula of the arrays it was entered with. -/
theorem arr1_eq (c : Dev nD) : (dat1 V c).arrAt 6 cfg1.N = Cert.Spec.sageG (N := 50000) (V c main_v34) (V c main_v21) (V c main_arg5) (V c main_v35) (V c main_arg7) (V c main_v22) :=
  (dat1 V c).arrAt_eq_of_cover 6 _ (fun t _ => flushed1_eq V c t) rows_cover1

end Cert.KernelIdeal.Hand

end
-- ==== Proof.KiArr2.lean ====
/-
  Launch 2, from tiles to the whole array.

  Tile t of the grid reads rows 2000 t … 2000 t + 1999 of the neighbour means, of the node states and of the residual,
  the two weight tables and the bias row whole, and writes rows 2000 t … 2000 t + 1999 of the output.  The 25 tiles' row
  ranges cover the 50000 rows, so after the launch the output array holds, at every index, the layer's formula of the
  arrays the launch was entered with.
-/
import proofs.«143383_j87711822119113_2_alg».proof.Proof.KiRegion2
import proofs.«143383_j87711822119113_2_alg».proof.Proof.PaySage
import proofs.«143383_j87711822119113_2_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

theorem hz2 : (![0, 0] : Fin 2 → Nat) = fun _ => 0 := funext fun a => by fin_cases a <;> rfl

/-- Where each window's block sits at tile `t`: the three tiled inputs and the output at block row `t`, the
    weight tables and the bias row at their one block. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

variable (V : (c : Dev nD) → (b : Ref sig .tc) → Buf (Elt Ideal) ((c : Thread nD τ).loc b))

set_option maxHeartbeats 4000000 in
/-- What tile `t` writes back is block `t` of the layer's formula of the entry arrays. -/
theorem flushed2_eq (c : Dev nD) (t : Fin cfg2.N) :
    (dat2 V c).flushed 6 t = ((cfg2.win 6).blk t).view.read (Elt Ideal) (Cert.Spec.sageG (N := 50000) (V c main_v48) (V c main_v36) (V c main_arg8) (V c main_v49) (V c main_arg10) (V c main_v36)) := by
  show (cfg2.win 6).cut (grid2.coords t) ((dat2 V c).after 6 t) = _
  rw [after2_6]
  unfold out2
  rw [View.canon_unit_zero hz2]
  simp only [View.ld_unit_zero (S := S2000x128) hz2, View.ld_unit_zero (S := S128x128) hz2, View.ld_unit_zero (S := S1x128) hz2]
  funext j
  obtain ⟨r, q, rfl⟩ : ∃ (r : Fin 2000) (q : Fin 128), j = ix2 r q := ⟨j 0, j 1, eq_ix2 j⟩
  show k2_pay1 (iblk2 V c 0 t) (iblk2 V c 1 t) (iblk2 V c 2 t) (iblk2 V c 4 t) (iblk2 V c 3 t) (iblk2 V c 5 t) (ix2 r q)
    = Cert.Spec.sageG (N := 50000) (V c main_v48) (V c main_v36) (V c main_arg8) (V c main_v49) (V c main_arg10) (V c main_v36) (((cfg2.win 6).blk t).view.emb (ix2 r q))
  rw [Pay.k2_pay1_apply]
  obtain ⟨a00, a01, a10, a11, a20, a21, a30, a31, a40, a41, a50, a51, a60, a61⟩ := idx_facts2 t
  have hr : r.val < 2000 := r.isLt
  have hq : q.val < 128 := q.isLt
  have i0 : (((((cfg2.win 6).blk t).view.emb (ix2 r q))) 0).val = win2_6.index t (0 : Fin 2) * 2000 + 1 * r.val := rfl
  have i1 : (((((cfg2.win 6).blk t).view.emb (ix2 r q))) 1).val = win2_6.index t (1 : Fin 2) * 128 + 1 * q.val := rfl
  have h0 : ∀ k : Fin 128, iblk2 V c 0 t (ix2 r k) = V c main_v48 (ix2 (((((cfg2.win 6).blk t).view.emb (ix2 r q))) 0) k) := fun k => by
    show V c main_v48 (((cfg2.win 0).blk t).view.emb (ix2 r k)) = _
    congr 1; funext a; apply Fin.ext
    match a with
    | ⟨0, _⟩ => show win2_0.index t (0 : Fin 2) * 2000 + 1 * r.val = _; rw [i0]; omega
    | ⟨1, _⟩ => show win2_0.index t (1 : Fin 2) * 128 + 1 * k.val = k.val; omega
  have h1 : ∀ k : Fin 128, iblk2 V c 1 t (ix2 r k) = V c main_v36 (ix2 (((((cfg2.win 6).blk t).view.emb (ix2 r q))) 0) k) := fun k => by
    show V c main_v36 (((cfg2.win 1).blk t).view.emb (ix2 r k)) = _
    congr 1; funext a; apply Fin.ext
    match a with
    | ⟨0, _⟩ => show win2_1.index t (0 : Fin 2) * 2000 + 1 * r.val = _; rw [i0]; omega
    | ⟨1, _⟩ => show win2_1.index t (1 : Fin 2) * 128 + 1 * k.val = k.val; omega
  have h2 : ∀ k : Fin 128, iblk2 V c 2 t (ix2 q k) = V c main_arg8 (ix2 (((((cfg2.win 6).blk t).view.emb (ix2 r q))) 1) k) := fun k => by
    show V c main_arg8 (((cfg2.win 2).blk t).view.emb (ix2 q k)) = _
    congr 1; funext a; apply Fin.ext
    match a with
    | ⟨0, _⟩ => show win2_2.index t (0 : Fin 2) * 128 + 1 * q.val = _; rw [i1]; omega
    | ⟨1, _⟩ => show win2_2.index t (1 : Fin 2) * 128 + 1 * k.val = k.val; omega
  have h4 : ∀ k : Fin 128, iblk2 V c 4 t (ix2 q k) = V c main_arg10 (ix2 (((((cfg2.win 6).blk t).view.emb (ix2 r q))) 1) k) := fun k => by
    show V c main_arg10 (((cfg2.win 4).blk t).view.emb (ix2 q k)) = _
    congr 1; funext a; apply Fin.ext
    match a with
    | ⟨0, _⟩ => show win2_4.index t (0 : Fin 2) * 128 + 1 * q.val = _; rw [i1]; omega
    | ⟨1, _⟩ => show win2_4.index t (1 : Fin 2) * 128 + 1 * k.val = k.val; omega
  have h3 : iblk2 V c 3 t (ix2 0 q) = V c main_v49 (ix2 0 (((((cfg2.win 6).blk t).view.emb (ix2 r q))) 1)) := by
    show V c main_v49 (((cfg2.win 3).blk t).view.emb (ix2 0 q)) = _
    congr 1; funext a; apply Fin.ext
    match a with
    | ⟨0, _⟩ => show win2_3.index t (0 : Fin 2) * 1 + 1 * 0 = 0; omega
    | ⟨1, _⟩ => show win2_3.index t (1 : Fin 2) * 128 + 1 * q.val = _; rw [i1]; omega
  have h5 : iblk2 V c 5 t (ix2 r q) = V c main_v36 (((cfg2.win 6).blk t).view.emb (ix2 r q)) := by
    show V c main_v36 (((cfg2.win 5).blk t).view.emb (ix2 r q)) = _
    congr 1
  unfold Cert.Spec.sageG
  simp only [h0, h1, h2, h3, h4, h5]

/-- An index is in tile `t`'s output block iff each coordinate is in the block's range on its axis. -/
theorem mem_blk2 (t : Fin cfg2.N) (i : S50000x128.Idx) :
    i ∈ ((cfg2.win 6).blk t).view.set ↔ ∀ a : Fin 2, win2_6.index t a * S2000x128.size a ≤ (i a).val ∧ (i a).val < win2_6.index t a * S2000x128.size a + S2000x128.size a := by
  show i ∈ ((View.whole main_v50).slice (win2_6.rect t)).set ↔ _
  rw [View.set_slice_whole, Rect.mem_set_unit]
  exact Iff.rfl

/-- Every row lies in some tile's block: row n in tile n / 2000. -/
theorem rows_cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, -, -, -, -, -, -, -, -, a60, a61⟩ := idx_facts2 t
  have ht : t.val = (i 0).val / 2000 := rfl
  refine ⟨t, flush2_6 t, ?_⟩
  rw [mem_blk2]
  intro a
  match a with
  | ⟨0, _⟩ => show win2_6.index t (0 : Fin 2) * 2000 ≤ (i 0).val ∧ (i 0).val < win2_6.index t (0 : Fin 2) * 2000 + 2000; omega
  | ⟨1, _⟩ => show win2_6.index t (1 : Fin 2) * 128 ≤ (i 1).val ∧ (i 1).val < win2_6.index t (1 : Fin 2) * 128 + 128; omega

/-- After launch 2 its output array is the layer's formula of the arrays it was entered with. -/
theorem arr2_eq (c : Dev nD) : (dat2 V c).arrAt 6 cfg2.N = Cert.Spec.sageG (N := 50000) (V c main_v48) (V c main_v36) (V c main_arg8) (V c main_v49) (V c main_arg10) (V c main_v36) :=
  (dat2 V c).arrAt_eq_of_cover 6 _ (fun t _ => flushed2_eq V c t) rows_cover2

end Cert.KernelIdeal.Hand

end
-- ==== Proof.KiArr3.lean ====
/-
  Launch 3, from tiles to the whole array.

  Tile t of the grid reads rows 2000 t … 2000 t + 1999 of the neighbour means, of the node states and of the residual,
  the two weight tables and the bias row whole, and writes rows 2000 t … 2000 t + 1999 of the output.  The 25 tiles' row
  ranges cover the 50000 rows, so after the launch the output array holds, at every index, the layer's formula of the
  arrays the launch was entered with.
-/
import proofs.«143383_j87711822119113_2_alg».proof.Proof.KiRegion3
import proofs.«143383_j87711822119113_2_alg».proof.Proof.PaySage
import proofs.«143383_j87711822119113_2_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

theorem hz3 : (![0, 0] : Fin 2 → Nat) = fun _ => 0 := funext fun a => by fin_cases a <;> rfl

/-- Where each window's block sits at tile `t`: the three tiled inputs and the output at block row `t`, the
    weight tables and the bias row at their one block. -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

set_option maxHeartbeats 4000000 in
/-- What tile `t` writes back is block `t` of the layer's formula of the entry arrays. -/
theorem flushed3_eq (c : Dev nD) (t : Fin cfg3.N) :
    (dat3 V c).flushed 6 t = ((cfg3.win 6).blk t).view.read (Elt Ideal) (Cert.Spec.sageG (N := 50000) (V c main_v62) (V c main_v50) (V c main_arg11) (V c main_v63) (V c main_arg13) (V c main_v50)) := by
  show (cfg3.win 6).cut (grid3.coords t) ((dat3 V c).after 6 t) = _
  rw [after3_6]
  unfold out3
  rw [View.canon_unit_zero hz3]
  simp only [View.ld_unit_zero (S := S2000x128) hz3, View.ld_unit_zero (S := S128x128) hz3, View.ld_unit_zero (S := S1x128) hz3]
  funext j
  obtain ⟨r, q, rfl⟩ : ∃ (r : Fin 2000) (q : Fin 128), j = ix2 r q := ⟨j 0, j 1, eq_ix2 j⟩
  show k3_pay1 (iblk3 V c 0 t) (iblk3 V c 1 t) (iblk3 V c 2 t) (iblk3 V c 4 t) (iblk3 V c 3 t) (iblk3 V c 5 t) (ix2 r q)
    = Cert.Spec.sageG (N := 50000) (V c main_v62) (V c main_v50) (V c main_arg11) (V c main_v63) (V c main_arg13) (V c main_v50) (((cfg3.win 6).blk t).view.emb (ix2 r q))
  rw [Pay.k3_pay1_apply]
  obtain ⟨a00, a01, a10, a11, a20, a21, a30, a31, a40, a41, a50, a51, a60, a61⟩ := idx_facts3 t
  have hr : r.val < 2000 := r.isLt
  have hq : q.val < 128 := q.isLt
  have i0 : (((((cfg3.win 6).blk t).view.emb (ix2 r q))) 0).val = win3_6.index t (0 : Fin 2) * 2000 + 1 * r.val := rfl
  have i1 : (((((cfg3.win 6).blk t).view.emb (ix2 r q))) 1).val = win3_6.index t (1 : Fin 2) * 128 + 1 * q.val := rfl
  have h0 : ∀ k : Fin 128, iblk3 V c 0 t (ix2 r k) = V c main_v62 (ix2 (((((cfg3.win 6).blk t).view.emb (ix2 r q))) 0) k) := fun k => by
    show V c main_v62 (((cfg3.win 0).blk t).view.emb (ix2 r k)) = _
    congr 1; funext a; apply Fin.ext
    match a with
    | ⟨0, _⟩ => show win3_0.index t (0 : Fin 2) * 2000 + 1 * r.val = _; rw [i0]; omega
    | ⟨1, _⟩ => show win3_0.index t (1 : Fin 2) * 128 + 1 * k.val = k.val; omega
  have h1 : ∀ k : Fin 128, iblk3 V c 1 t (ix2 r k) = V c main_v50 (ix2 (((((cfg3.win 6).blk t).view.emb (ix2 r q))) 0) k) := fun k => by
    show V c main_v50 (((cfg3.win 1).blk t).view.emb (ix2 r k)) = _
    congr 1; funext a; apply Fin.ext
    match a with
    | ⟨0, _⟩ => show win3_1.index t (0 : Fin 2) * 2000 + 1 * r.val = _; rw [i0]; omega
    | ⟨1, _⟩ => show win3_1.index t (1 : Fin 2) * 128 + 1 * k.val = k.val; omega
  have h2 : ∀ k : Fin 128, iblk3 V c 2 t (ix2 q k) = V c main_arg11 (ix2 (((((cfg3.win 6).blk t).view.emb (ix2 r q))) 1) k) := fun k => by
    show V c main_arg11 (((cfg3.win 2).blk t).view.emb (ix2 q k)) = _
    congr 1; funext a; apply Fin.ext
    match a with
    | ⟨0, _⟩ => show win3_2.index t (0 : Fin 2) * 128 + 1 * q.val = _; rw [i1]; omega
    | ⟨1, _⟩ => show win3_2.index t (1 : Fin 2) * 128 + 1 * k.val = k.val; omega
  have h4 : ∀ k : Fin 128, iblk3 V c 4 t (ix2 q k) = V c main_arg13 (ix2 (((((cfg3.win 6).blk t).view.emb (ix2 r q))) 1) k) := fun k => by
    show V c main_arg13 (((cfg3.win 4).blk t).view.emb (ix2 q k)) = _
    congr 1; funext a; apply Fin.ext
    match a with
    | ⟨0, _⟩ => show win3_4.index t (0 : Fin 2) * 128 + 1 * q.val = _; rw [i1]; omega
    | ⟨1, _⟩ => show win3_4.index t (1 : Fin 2) * 128 + 1 * k.val = k.val; omega
  have h3 : iblk3 V c 3 t (ix2 0 q) = V c main_v63 (ix2 0 (((((cfg3.win 6).blk t).view.emb (ix2 r q))) 1)) := by
    show V c main_v63 (((cfg3.win 3).blk t).view.emb (ix2 0 q)) = _
    congr 1; funext a; apply Fin.ext
    match a with
    | ⟨0, _⟩ => show win3_3.index t (0 : Fin 2) * 1 + 1 * 0 = 0; omega
    | ⟨1, _⟩ => show win3_3.index t (1 : Fin 2) * 128 + 1 * q.val = _; rw [i1]; omega
  have h5 : iblk3 V c 5 t (ix2 r q) = V c main_v50 (((cfg3.win 6).blk t).view.emb (ix2 r q)) := by
    show V c main_v50 (((cfg3.win 5).blk t).view.emb (ix2 r q)) = _
    congr 1
  unfold Cert.Spec.sageG
  simp only [h0, h1, h2, h3, h4, h5]

/-- An index is in tile `t`'s output block iff each coordinate is in the block's range on its axis. -/
theorem mem_blk3 (t : Fin cfg3.N) (i : S50000x128.Idx) :
    i ∈ ((cfg3.win 6).blk t).view.set ↔ ∀ a : Fin 2, win3_6.index t a * S2000x128.size a ≤ (i a).val ∧ (i a).val < win3_6.index t a * S2000x128.size a + S2000x128.size a := by
  show i ∈ ((View.whole main_v64).slice (win3_6.rect t)).set ↔ _
  rw [View.set_slice_whole, Rect.mem_set_unit]
  exact Iff.rfl

/-- Every row lies in some tile's block: row n in tile n / 2000. -/
theorem rows_cover3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 25 := N_3
  let t : Fin cfg3.N := ⟨(i 0).val / 2000, by rw [hN]; omega⟩
  obtain ⟨-, -, -, -, -, -, -, -, -, -, -, -, a60, a61⟩ := idx_facts3 t
  have ht : t.val = (i 0).val / 2000 := rfl
  refine ⟨t, flush3_6 t, ?_⟩
  rw [mem_blk3]
  intro a
  match a with
  | ⟨0, _⟩ => show win3_6.index t (0 : Fin 2) * 2000 ≤ (i 0).val ∧ (i 0).val < win3_6.index t (0 : Fin 2) * 2000 + 2000; omega
  | ⟨1, _⟩ => show win3_6.index t (1 : Fin 2) * 128 ≤ (i 1).val ∧ (i 1).val < win3_6.index t (1 : Fin 2) * 128 + 128; omega

/-- After launch 3 its output array is the layer's formula of the arrays it was entered with. -/
theorem arr3_eq (c : Dev nD) : (dat3 V c).arrAt 6 cfg3.N = Cert.Spec.sageG (N := 50000) (V c main_v62) (V c main_v50) (V c main_arg11) (V c main_v63) (V c main_arg13) (V c main_v50) :=
  (dat3 V c).arrAt_eq_of_cover 6 _ (fun t _ => flushed3_eq V c t) rows_cover3

end Cert.KernelIdeal.Hand

end
-- ==== Proof.PayMlp.lean ====
/-
  The value the read-out body stores, read at an index.

  The body takes a [2000, 128] block x, a [64, 128] table W (applied transposed), a bias row b and a weight row w of
  64 entries each, and a 1 × 1 bias c, and stores the [2000, 1] column

      y (r, 0) = Σ_k max (Σ_l x (r, l) · W (k, l) + b (0, k)) 0 · w (0, k)  +  c (0, 0).

  At the ideal values every operation is the extended reals' own and a change of format is the identity, so the
  stored value is this expression exactly.  The lemmas below read each operation that is not pointwise at an index
  (the product with the transposed table, the sum along a row, the cast of the row sums to a column, the two
  broadcasts of a row); the theorem chains them through the pointwise ones.
-/
import proofs.«143383_j87711822119113_2_alg».proof.Proof.Gen.KernelIdeal.Skeleton
import proofs.«143383_j87711822119113_2_alg».proof.Proof.LibDotABt
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx
open scoped BigOperators

/-- The product of a [2000, 128] block with the transposed [64, 128] table, accumulated into the zero splat, read at
    (r, k): the sum over the 128 shared coordinates of the products of row r of the block and row k of the table. -/
theorem matmulABt_apply (a : FVec Ideal S2000x128 .bf16) (b : FVec Ideal S64x128 .bf16) (r : Fin 2000) (k : Fin 64) :
    matmul dot_S2000x128_S64x128_S2000x64_1_1_0_0_n_n none a b (constant (F := Ideal) S2000x64 .f32 0x00000000#32) (ix2 r k)
      = ∑ l : Fin 128, a (ix2 r l) * b (ix2 k l) := by
  refine (Ideal.matmul_constant_zero_apply dot_S2000x128_S64x128_S2000x64_1_1_0_0_n_n none a b (ix2 r k)).trans ?_
  exact DotABt.sum_contr_eq dot_S2000x128_S64x128_S2000x64_1_1_0_0_n_n rfl rfl
    (fun _ _ => rfl) (fun _ _ => rfl) (fun _ _ => rfl) (fun _ _ => rfl) a b (ix2 r k)

/-- The sum along a row: a [2000, 64] array added up over its second axis, read at r, is the sum over the 64
    entries of row r. -/
theorem rowSum_apply (src : FVec Ideal S2000x64 .f32) (hφ : FKind.Formats .f32)
    (hacc : (0x00000000#32 : BitVec 32) = FKind.add.neutral .f32 hφ) (r : Fin 2000) :
    multiReduction .add [1] S2000 src 0x00000000#32 reduces_S2000x64_S2000 hφ hacc (ix1 r)
      = ∑ k : Fin 64, src (ix2 r k) := by
  refine (Ideal.multiReduction_add_single src 0x00000000#32 reduces_S2000x64_S2000 hφ hacc (ix1 r)).trans ?_
  refine Finset.sum_congr rfl fun k _ => congrArg src ?_
  funext a
  refine Fin.ext ?_
  match a with
  | ⟨0, _⟩ => rfl
  | ⟨1, _⟩ => rfl

/-- A vector of 2000 entries cast to a [2000, 1] column reads, at (r, u), its entry r. -/
theorem castCol_apply {α : Type} (x : S2000.Idx → α) (r : Fin 2000) (u : Fin 1) :
    shapeCast S2000x1 x shapeCasts_S2000_S2000x1 (ix2 r u) = x (ix1 r) :=
  shapeCast_apply x shapeCasts_S2000_S2000x1 (ix2 r u) (ix1 r) (by
    have hu : u.val = 0 := by omega
    rw [Shape.rowMajor_val_one, Shape.rowMajor_val_two]
    show r.val = r.val * 1 + u.val
    rw [hu, Nat.mul_one, Nat.add_zero])

/-- The stored column at (r, 0): the rectified hidden layer of row r against the weight row, summed over its 64 entries,
    plus the 1 × 1 bias. -/
theorem k4_pay1_apply (v0 : Vec Ideal S2000x128 .f32) (v2 : Vec Ideal S64x128 .f32) (v6 v12 : Vec Ideal S1x64 .f32)
    (v17 : Vec Ideal S1x1 .f32) (r : Fin 2000) :
    k4_pay1 (F := Ideal) v0 v2 v6 v12 v17 (ix2 r 0)
      = (∑ k : Fin 64, max ((∑ l : Fin 128, v0 (ix2 r l) * v2 (ix2 k l)) + v6 (ix2 0 k)) 0 * v12 (ix2 0 k)) + v17 (ix2 0 0) := by
  unfold Gen.k4_pay1
  refine (addf_apply _ _ _).trans ?_
  refine congrArg₂ (· + ·) ?_ ?_
  · -- the column of row sums
    refine (castCol_apply _ r 0).trans ?_
    refine (rowSum_apply _ _ _ r).trans ?_
    refine Finset.sum_congr rfl fun k _ => ?_
    refine (mulf_apply _ _ _).trans ?_
    refine congrArg₂ (· * ·) ?_ ?_
    · -- the hidden value at (r, k): the maximum with zero
      refine (maximumf_apply _ _ _).trans ?_
      refine congrArg₂ max ?_ ?_
      · refine (addf_apply _ _ _).trans ?_
        refine congrArg₂ (· + ·) ?_ ?_
        · -- the product with the transposed table; the block's cast to its own shape and the format changes are identities
          refine (matmulABt_apply _ _ r k).trans ?_
          refine Finset.sum_congr rfl fun l _ => ?_
          refine congrArg₂ (· * ·) ?_ rfl
          exact congrFun (shapeCast_self v0 shapeCasts_S2000x128_S2000x128) (ix2 r l)
        · -- the bias row, broadcast over the 2000 rows
          refine (broadcastTo_1b_ab_apply _ broadcasts_S1x64_S2000x64 r k).trans ?_
          exact congrFun (shapeCast_self v6 shapeCasts_S1x64_S1x64) (ix2 0 k)
      · -- the zero literal
        exact Ideal.ofBits_zero_f32
    · -- the weight row, broadcast over the 2000 rows
      exact broadcastTo_1b_ab_apply v12 broadcasts_S1x64_S2000x64 r k
  · -- the 1 × 1 bias, broadcast down the column
    refine (broadcastTo_1b_ab_apply _ broadcasts_S1x1_S2000x1 r 0).trans ?_
    exact congrFun (shapeCast_self v17 shapeCasts_S1x1_S1x1) (ix2 0 0)

end Cert.KernelIdeal.Pay

end
-- ==== Proof.KiArr4.lean ====
/-
  Launch 4, from tiles to the whole array.

  Tile t of the grid reads rows 2000 t … 2000 t + 1999 of the node states, the hidden weight table, the hidden bias
  row, the output weight row and the one output bias whole, and writes rows 2000 t … 2000 t + 1999 of the output
  column.  The 25 tiles' row ranges cover the 50000 rows, so after the launch the output array holds, at every index,
  the read-out formula of the arrays the launch was entered with.
-/
import proofs.«143383_j87711822119113_2_alg».proof.Proof.KiRegion4
import proofs.«143383_j87711822119113_2_alg».proof.Proof.PayMlp
import proofs.«143383_j87711822119113_2_alg».proof.Proof.Spec
import Idealize.ShloMosaic.Lib.Pipeline.Value

set_option maxRecDepth 16384

noncomputable section

namespace Cert.KernelIdeal.Hand

open Cert.KernelIdeal Cert.KernelIdeal.Gen Idealize.ShloMosaic Idealize.ShloMosaic.TcCoe Idealize.ShloMosaic.ValueIdx
open Idealize.SL.Sem
open Idealize.ShloMosaic.Pipeline (Dat Cfg Window)
open scoped BigOperators

theorem hz4 : (![0, 0] : Fin 2 → Nat) = fun _ => 0 := funext fun a => by fin_cases a <;> rfl

/-- Where each window's block sits at tile `t`: the tiled input and the output at block row `t`, the weight table,
    the two rows and the one bias at their one block. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

variable (V : (c : Dev nD) → (b : Ref sig .tc) → Buf (Elt Ideal) ((c : Thread nD τ).loc b))

set_option maxHeartbeats 4000000 in
/-- What tile `t` writes back is block `t` of the read-out formula of the entry arrays. -/
theorem flushed4_eq (c : Dev nD) (t : Fin cfg4.N) :
    (dat4 V c).flushed 5 t = ((cfg4.win 5).blk t).view.read (Elt Ideal) (Cert.Spec.mlpG (N := 50000) (V c main_v64) (V c main_arg14) (V c main_v65) (V c main_arg16) (V c main_v66)) := by
  show (cfg4.win 5).cut (grid4.coords t) ((dat4 V c).after 5 t) = _
  rw [after4_5]
  unfold out4
  rw [View.canon_unit_zero hz4]
  simp only [View.ld_unit_zero (S := S2000x128) hz4, View.ld_unit_zero (S := S64x128) hz4, View.ld_unit_zero (S := S1x64) hz4, View.ld_unit_zero (S := S1x1) hz4]
  funext j
  obtain ⟨r, q, rfl⟩ : ∃ (r : Fin 2000) (q : Fin 1), j = ix2 r q := ⟨j 0, j 1, eq_ix2 j⟩
  obtain rfl : q = 0 := Subsingleton.elim q 0
  show k4_pay1 (iblk4 V c 0 t) (iblk4 V c 1 t) (iblk4 V c 2 t) (iblk4 V c 3 t) (iblk4 V c 4 t) (ix2 r 0)
    = Cert.Spec.mlpG (N := 50000) (V c main_v64) (V c main_arg14) (V c main_v65) (V c main_arg16) (V c main_v66) (((cfg4.win 5).blk t).view.emb (ix2 r 0))
  rw [Pay.k4_pay1_apply]
  obtain ⟨a00, a01, a10, a11, a20, a21, a30, a31, a40, a41, a50, a51⟩ := idx_facts4 t
  have hr : r.val < 2000 := r.isLt
  have i0 : ((((cfg4.win 5).blk t).view.emb (ix2 r 0)) 0).val = win4_5.index t (0 : Fin 2) * 2000 + 1 * r.val := rfl
  have h0 : ∀ l : Fin 128, iblk4 V c 0 t (ix2 r l) = V c main_v64 (ix2 ((((cfg4.win 5).blk t).view.emb (ix2 r 0)) 0) l) := fun l => by
    show V c main_v64 (((cfg4.win 0).blk t).view.emb (ix2 r l)) = _
    congr 1; funext a; apply Fin.ext
    match a with
    | ⟨0, _⟩ => show win4_0.index t (0 : Fin 2) * 2000 + 1 * r.val = _; rw [i0]; omega
    | ⟨1, _⟩ => show win4_0.index t (1 : Fin 2) * 128 + 1 * l.val = l.val; omega
  have h1 : ∀ (k : Fin 64) (l : Fin 128), iblk4 V c 1 t (ix2 k l) = V c main_arg14 (ix2 k l) := fun k l => by
    show V c main_arg14 (((cfg4.win 1).blk t).view.emb (ix2 k l)) = _
    congr 1; funext a; apply Fin.ext
    match a with
    | ⟨0, _⟩ => show win4_1.index t (0 : Fin 2) * 64 + 1 * k.val = k.val; omega
    | ⟨1, _⟩ => show win4_1.index t (1 : Fin 2) * 128 + 1 * l.val = l.val; omega
  have h2 : ∀ k : Fin 64, iblk4 V c 2 t (ix2 0 k) = V c main_v65 (ix2 0 k) := fun k => by
    show V c main_v65 (((cfg4.win 2).blk t).view.emb (ix2 0 k)) = _
    congr 1; funext a; apply Fin.ext
    match a with
    | ⟨0, _⟩ => show win4_2.index t (0 : Fin 2) * 1 + 1 * 0 = 0; omega
    | ⟨1, _⟩ => show win4_2.index t (1 : Fin 2) * 64 + 1 * k.val = k.val; omega
  have h3 : ∀ k : Fin 64, iblk4 V c 3 t (ix2 0 k) = V c main_arg16 (ix2 0 k) := fun k => by
    show V c main_arg16 (((cfg4.win 3).blk t).view.emb (ix2 0 k)) = _
    congr 1; funext a; apply Fin.ext
    match a with
    | ⟨0, _⟩ => show win4_3.index t (0 : Fin 2) * 1 + 1 * 0 = 0; omega
    | ⟨1, _⟩ => show win4_3.index t (1 : Fin 2) * 64 + 1 * k.val = k.val; omega
  have h4 : iblk4 V c 4 t (ix2 0 0) = V c main_v66 (ix2 0 0) := by
    show V c main_v66 (((cfg4.win 4).blk t).view.emb (ix2 0 0)) = _
    congr 1; funext a; apply Fin.ext
    match a with
    | ⟨0, _⟩ => show win4_4.index t (0 : Fin 2) * 1 + 1 * 0 = 0; omega
    | ⟨1, _⟩ => show win4_4.index t (1 : Fin 2) * 1 + 1 * 0 = 0; omega
  unfold Cert.Spec.mlpG
  simp only [h0, h1, h2, h3, h4]

/-- An index is in tile `t`'s output block iff each coordinate is in the block's range on its axis. -/
theorem mem_blk4 (t : Fin cfg4.N) (i : S50000x1.Idx) :
    i ∈ ((cfg4.win 5).blk t).view.set ↔ ∀ a : Fin 2, win4_5.index t a * S2000x1.size a ≤ (i a).val ∧ (i a).val < win4_5.index t a * S2000x1.size a + S2000x1.size a := by
  show i ∈ ((View.whole main_v67).slice (win4_5.rect t)).set ↔ _
  rw [View.set_slice_whole, Rect.mem_set_unit]
  exact Iff.rfl

/-- Every row lies in some tile's block: row n in tile n / 2000. -/
theorem rows_cover4 (i : S50000x1.Idx) : ∃ t : Fin cfg4.N, (cfg4.win 5).flush t = true ∧ i ∈ ((cfg4.win 5).blk t).view.set := by
  have hi0 : (i 0).val < 50000 := (i 0).isLt
  have hi1 : (i 1).val < 1 := (i 1).isLt
  have hN : cfg4.N = 25 := N_4
  let t : Fin cfg4.N := ⟨(i 0).val / 2000, by rw [hN]; omega⟩
  obtain ⟨-, -, -, -, -, -, -, -, -, -, a50, a51⟩ := idx_facts4 t
  have ht : t.val = (i 0).val / 2000 := rfl
  refine ⟨t, flush4_5 t, ?_⟩
  rw [mem_blk4]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 1 ≤ (i 1).val ∧ (i 1).val < win4_5.index t (1 : Fin 2) * 1 + 1; omega

/-- After launch 4 its output array is the read-out formula of the arrays it was entered with. -/
theorem arr4_eq (c : Dev nD) : (dat4 V c).arrAt 5 cfg4.N = Cert.Spec.mlpG (N := 50000) (V c main_v64) (V c main_arg14) (V c main_v65) (V c main_arg16) (V c main_v66) :=
  (dat4 V c).arrAt_eq_of_cover 5 _ (fun t _ => flushed4_eq V c t) rows_cover4

end Cert.KernelIdeal.Hand

end
-- ==== Proof.KiLayout.lean ====
/-
  Small layout readings: a vector laid out as a one-row table, a one-column table laid out as a one-row table, a scalar
  broadcast to a table, and a one-column table flattened and laid out as a one-row table — each read at an index.
-/
import proofs.«143383_j87711822119113_2_alg».proof.KernelIdeal
import Idealize.ShloMosaic.PureOps.Ideal.Laws
import Idealize.ShloMosaic.Lib.ValueIdx
import Idealize.ShloMosaic.Lib.Pipeline.Value

noncomputable section

namespace Cert.KernelIdeal.Hand

open Cert.KernelIdeal Idealize.ShloMosaic Idealize.ShloMosaic.ValueIdx

/-- A vector of 128 as a 1 x 128 table: entry (0, j) is entry j. -/
theorem cast_row128 {α : Type} (x : S128.Idx → α) (h : S128.ShapeCasts S1x128) (y : S1x128.Idx) :
    shapeCast S1x128 x h y = x (ix1 (y 1)) :=
  shapeCast_apply x h y (ix1 (y 1)) (by
    rewrite [Shape.rowMajor_val_two, Shape.rowMajor_val_one]
    have h0 : (y 0).val < 1 := (y 0).isLt
    show (y 1).val = (y 0).val * 128 + (y 1).val; omega)

/-- A 128 x 1 table as a 1 x 128 table: entry (0, j) is entry (j, 0). -/
theorem cast_col128 {α : Type} (x : S128x1.Idx → α) (h : S128x1.ShapeCasts S1x128) (y : S1x128.Idx) :
    shapeCast S1x128 x h y = x (ix2 (y 1) 0) :=
  shapeCast_apply x h y (ix2 (y 1) 0) (by
    rewrite [Shape.rowMajor_val_two, Shape.rowMajor_val_two]
    have h0 : (y 0).val < 1 := (y 0).isLt
    show (y 1).val * 1 + 0 = (y 0).val * 128 + (y 1).val; omega)

/-- A vector of 64 as a 1 x 64 table. -/
theorem cast_row64 {α : Type} (x : S64.Idx → α) (h : S64.ShapeCasts S1x64) (y : S1x64.Idx) :
    shapeCast S1x64 x h y = x (ix1 (y 1)) :=
  shapeCast_apply x h y (ix1 (y 1)) (by
    rewrite [Shape.rowMajor_val_two, Shape.rowMajor_val_one]
    have h0 : (y 0).val < 1 := (y 0).isLt
    show (y 1).val = (y 0).val * 64 + (y 1).val; omega)

/-- A vector of one entry as a 1 x 1 table. -/
theorem cast_one {α : Type} (x : S1.Idx → α) (h : S1.ShapeCasts S1x1) (y : S1x1.Idx) :
    shapeCast S1x1 x h y = x (ix1 (y 1)) :=
  shapeCast_apply x h y (ix1 (y 1)) (by
    rewrite [Shape.rowMajor_val_two, Shape.rowMajor_val_one]
    have h0 : (y 0).val < 1 := (y 0).isLt
    show (y 1).val = (y 0).val * 1 + (y 1).val; omega)

/-- The zero scalar broadcast to a table is zero everywhere. -/
theorem zeros_apply (h : S_.BroadcastsInDim S50000x128 ![]) (y : S50000x128.Idx) :
    broadcastInDim S50000x128 ![] h (constant (F := Ideal) S_ .f32 0x00000000#32) y = (0 : EReal) := by
  refine (broadcastInDim_apply _ h _ y (fun a => a.elim0) (fun a => a.elim0)).trans ?_
  show Ideal.ofBits .f32 0x00000000#32 = 0
  exact Ideal.ofBits_zero_f32

/-- A 50000 x 1 table flattened to 50000 and laid out as a 1 x 50000 table: entry (0, n) is entry (n, 0). -/
theorem tail_apply {α : Type} (f : S50000x1.Idx → α) (hb : S50000.BroadcastsInDim S1x50000 ![1]) (hs : S50000x1.ShapeCasts S50000)
    (i : S1x50000.Idx) : broadcastInDim S1x50000 ![1] hb (shapeCast S50000 f hs) i = f (ix2 (i 1) 0) := by
  refine (broadcastInDim_apply _ hb _ i (ix1 (i 1)) (fun a => match a with
    | ⟨0, _⟩ => by show (i 1).val = if (50000 : Nat) = 1 then 0 else (i 1).val; rw [if_neg (by decide)])).trans ?_
  exact shapeCast_apply f hs (ix1 (i 1)) (ix2 (i 1) 0) (by
    rewrite [Shape.rowMajor_val_two, Shape.rowMajor_val_one]
    show (i 1).val * 1 + 0 = (i 1).val; omega)

end Cert.KernelIdeal.Hand

end
-- ==== Proof.KiHostFns.lean ====
/-
  The kernel's host-side computations on the graph, as named functions of the edge array and of a table of node rows.

  From the 2 x 800000 edge array: the row of sources and the row of targets; the number of edges leaving each node,
  clipped to 0..199 and converted to an integer (the degree that indexes the embedding table); the reciprocal of the
  number of edges entering each node, that number raised to at least one; and the mean over a node's incoming edges of
  the source nodes' rows — the edge sum (a gather of rows along the sources, added into the targets) times that
  reciprocal.
-/
import proofs.«143383_j87711822119113_2_alg».proof.KernelIdeal
import proofs.«143383_j87711822119113_2_alg».proof.Proof.Gen.KernelIdeal
import Idealize.ShloMosaic.PureOps.Ideal

noncomputable section

namespace Cert.KernelIdeal.Hand

open Cert.KernelIdeal Cert.KernelIdeal.Facts₀ Cert.KernelIdeal.Facts Idealize.ShloMosaic

/-- The edges' sources. -/
def srcK (e : S2x800000.Idx → BitVec 32) : S800000.Idx → BitVec 32 :=
  shapeCast S800000 (extractStridedSlice S1x800000 ![0, 0] e slices_S2x800000_S1x800000_0_0) shapeCasts_S1x800000_S800000
/-- The edges' targets. -/
def dstK (e : S2x800000.Idx → BitVec 32) : S800000.Idx → BitVec 32 :=
  shapeCast S800000 (extractStridedSlice S1x800000 ![1, 0] e slices_S2x800000_S1x800000_1_0) shapeCasts_S1x800000_S800000
/-- One per edge. -/
def onesE : S800000.Idx → EReal := broadcastInDim S800000 ![] bcast_S_S800000 (constant (F := Ideal) S_ .f32 0x3F800000#32)
/-- How many entries of an index row name each node: ones added into zeros. -/
def cntK (idx : S800000.Idx → BitVec 32) : S50000.Idx → EReal :=
  Host.scatterAdd (F := Ideal) scatter_S50000_S800000x1_S800000_n_0_0_1 (broadcastInDim S50000 ![] bcast_S_S50000 (constant (F := Ideal) S_ .f32 0x00000000#32))
    (broadcastInDim S800000x1 ![0] bcast_S800000_S800000x1_0 idx) onesE
/-- The out-degree clipped to 0..199, as an integer column. -/
def degK (e : S2x800000.Idx → BitVec 32) : S50000x1.Idx → BitVec 32 :=
  shapeCast S50000x1 (fptosi (F := Ideal) 32 (minimumf (broadcastInDim S50000 ![] bcast_S_S50000 (sitofp (F := Ideal) .f32 (constantI S_ 32 199#32)))
    (maximumf (broadcastInDim S50000 ![] bcast_S_S50000 (sitofp (F := Ideal) .f32 (constantI S_ 32 0#32))) (cntK (srcK e))))) shapeCasts_S50000_S50000x1
/-- One over the in-degree raised to at least one, as a column. -/
def invK (e : S2x800000.Idx → BitVec 32) : S50000x1.Idx → EReal :=
  shapeCast S50000x1 (Host.divf (F := Ideal) (broadcastInDim S50000 ![] bcast_S_S50000 (constant (F := Ideal) S_ .f32 0x3F800000#32))
    (maximumf (cntK (dstK e)) (broadcastInDim S50000 ![] bcast_S_S50000 (constant (F := Ideal) S_ .f32 0x3F800000#32)))) shapeCasts_S50000_S50000x1
/-- The sources with a negative index read from the end. -/
def srcNK (e : S2x800000.Idx → BitVec 32) : S800000.Idx → BitVec 32 :=
  select (cmpi .slt (srcK e) (broadcastInDim S800000 ![] bcast_S_S800000 (constantI S_ 32 0#32)))
    (addi (srcK e) (broadcastInDim S800000 ![] bcast_S_S800000 (constantI S_ 32 50000#32))) (srcK e)
/-- The sum over a node's incoming edges of the source nodes' rows. -/
def sumK (h : S50000x128.Idx → EReal) (e : S2x800000.Idx → BitVec 32) : S50000x128.Idx → EReal :=
  Host.scatterAdd (F := Ideal) scatter_S50000x128_S800000x1_S800000x128_1_0_0_1 (broadcastInDim S50000x128 ![] bcast_S_S50000x128 (constant (F := Ideal) S_ .f32 0x00000000#32))
    (broadcastInDim S800000x1 ![0] bcast_S800000_S800000x1_0 (dstK e))
    (Host.gather gather_S50000x128_S800000x1_S800000x128_1_0_n_n_0_1_1128 h (broadcastInDim S800000x1 ![0] bcast_S800000_S800000x1_0 (srcNK e)))
/-- The mean: the edge sum times the reciprocal count. -/
def aggK (h : S50000x128.Idx → EReal) (e : S2x800000.Idx → BitVec 32) : S50000x128.Idx → EReal :=
  mulf (F := Ideal) (φ := .f32) (sumK h e) (broadcastInDim S50000x128 ![0, 1] bcast_S50000x1_S50000x128_0_1 (invK e))

end Cert.KernelIdeal.Hand

end
-- ==== Proof.KiReads.lean ====
/-
  What the arrays of the second launch hold when it is entered.

  Before the second launch the host rewrites only the buffers it computes: the mean over each node's incoming edges of
  the rows the first launch left (a gather of rows along the edges' sources, added into the edges' targets, times the
  reciprocal of the in-degree), the layer's bias as a row, and an array of zeros.  The edges' sources and targets and the
  reciprocal in-degrees were computed by the leading stretches from the edge array as launched, and nothing since has
  rewritten them.  Everything else the launch reads is either what the first launch left in its output array or an
  argument as launched.
-/
import proofs.«143383_j87711822119113_2_alg».proof.Proof.KiRun
import proofs.«143383_j87711822119113_2_alg».proof.Proof.KiHostFns
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Idealize.ShloMosaic.StableHlo Cert.KernelIdeal.Facts₀ Cert.KernelIdeal.Facts

/-! ## The mean over incoming edges, from its four ingredients -/

/-- The mean over a node's incoming edges of the rows of h: the rows gathered along the edges' sources s (a negative
    source read from the end), added into the edges' targets d, times the reciprocal in-degrees iv. -/
def aggWA (h : S50000x128.Idx → EReal) (s d : S800000.Idx → BitVec 32) (iv : S50000x1.Idx → EReal) : S50000x128.Idx → EReal :=
  mulf (F := Ideal) (φ := .f32)
    (Host.scatterAdd (F := Ideal) scatter_S50000x128_S800000x1_S800000x128_1_0_0_1
      (broadcastInDim S50000x128 ![] Facts₀.bcast_S_S50000x128 (constant (F := Ideal) S_ .f32 0x00000000#32))
      (broadcastInDim S800000x1 ![0] Facts₀.bcast_S800000_S800000x1_0 d)
      (Host.gather gather_S50000x128_S800000x1_S800000x128_1_0_n_n_0_1_1128 h
        (broadcastInDim S800000x1 ![0] Facts₀.bcast_S800000_S800000x1_0
          (select (cmpi .slt s (broadcastInDim S800000 ![] Facts₀.bcast_S_S800000 (constantI S_ 32 0#32)))
            (addi s (broadcastInDim S800000 ![] Facts₀.bcast_S_S800000 (constantI S_ 32 50000#32))) s))))
    (broadcastInDim S50000x128 ![0, 1] Facts₀.bcast_S50000x1_S50000x128_0_1 iv)

/-- The mean named on the edge array is the mean of its sources, targets and reciprocal in-degrees. -/
theorem aggK_eqA (h : S50000x128.Idx → EReal) (e : S2x800000.Idx → BitVec 32) : aggK h e = aggWA h (srcK e) (dstK e) (invK e) := rfl

/-! ## The first stretch: the edges' sources and targets, one per edge, the out-degree counts, the two clip bounds -/

/-- After the stretch the sources are the edge array's first row. -/
theorem ops0A_v1 (W : Valuation τ sig (Elt Ideal)) :
    (StableHlo.after Gen.hostOps0 W main_v1 : S800000.Idx → BitVec 32) = srcK (W main_arg1) := by
  simp only [Gen.hostOps0]; after_results; rfl

/-- After the stretch the targets are the edge array's second row. -/
theorem ops0A_v3 (W : Valuation τ sig (Elt Ideal)) :
    (StableHlo.after Gen.hostOps0 W main_v3 : S800000.Idx → BitVec 32) = dstK (W main_arg1) := by
  simp only [Gen.hostOps0]; after_results; rfl

/-- After the stretch there is a one for every edge. -/
theorem ops0A_v4 (W : Valuation τ sig (Elt Ideal)) :
    (StableHlo.after Gen.hostOps0 W main_v4 : S800000.Idx → EReal) = onesE := by
  simp only [Gen.hostOps0]; after_results; rfl

/-! ## The third stretch: the reciprocal in-degrees -/

/-- After the stretch the reciprocal column is one over the count of the targets (ones added into zeros) raised to at
    least one, cast to a column. -/
theorem ops02A_v18 (W : Valuation τ sig (Elt Ideal)) :
    (StableHlo.after Gen.hostOps0_2 W main_v18 : S50000x1.Idx → EReal)
      = shapeCast S50000x1 (Host.divf (F := Ideal) (broadcastInDim S50000 ![] Facts₀.bcast_S_S50000 (constant (F := Ideal) S_ .f32 0x3F800000#32))
          (maximumf (Host.scatterAdd (F := Ideal) scatter_S50000_S800000x1_S800000_n_0_0_1 (broadcastInDim S50000 ![] Facts₀.bcast_S_S50000 (constant (F := Ideal) S_ .f32 0x00000000#32))
            (broadcastInDim S800000x1 ![0] Facts₀.bcast_S800000_S800000x1_0 (W main_v3)) (W main_v4))
            (broadcastInDim S50000 ![] Facts₀.bcast_S_S50000 (constant (F := Ideal) S_ .f32 0x3F800000#32)))) Facts₀.shapeCasts_S50000_S50000x1 := by
  simp only [Gen.hostOps0_2]; after_results; rfl

/-! ## The stretch before launch 1: the neighbour means, the bias row, the zero array -/

/-- After the stretch the neighbour means are the mean of the rows launch 0's output array holds. -/
theorem ops1A_v34 (W : Valuation τ sig (Elt Ideal)) :
    (StableHlo.after Gen.hostOps1 W main_v34 : S50000x128.Idx → EReal) = aggWA (W main_v21) (W main_v1) (W main_v3) (W main_v18) := by
  simp only [Gen.hostOps1]; after_results_simp; rfl

/-- After the stretch the bias row is the bias vector cast to a row. -/
theorem ops1A_v35 (W : Valuation τ sig (Elt Ideal)) :
    (StableHlo.after Gen.hostOps1 W main_v35 : S1x128.Idx → EReal) = shapeCast S1x128 (W main_arg6) Facts₀.shapeCasts_S128_S1x128 := by
  simp only [Gen.hostOps1]; after_results; rfl

/-- After the stretch the zero array is the zero word broadcast. -/
theorem ops1A_v22 (W : Valuation τ sig (Elt Ideal)) :
    (StableHlo.after Gen.hostOps1 W main_v22 : S50000x128.Idx → EReal)
      = broadcastInDim S50000x128 ![] Facts₀.bcast_S_S50000x128 (constant (F := Ideal) S_ .f32 0x00000000#32) := by
  simp only [Gen.hostOps1]; after_results <;> rfl

variable (m : (ℓ : Loc nD τ sig) → Buf (Elt Ideal) ℓ)

/-! ## The graph's ingredients as the leading stretches leave them -/

/-- After the first stretch the sources are the edge array's first row. -/
theorem v1A (c : Dev nD) : (Gen.V1 m c main_v1 : S800000.Idx → BitVec 32) = srcK (m ((c.tc : Thread nD τ).loc main_arg1)) :=
  ops0A_v1 (Gen.V0 m c)

/-- After the first stretch the targets are the edge array's second row. -/
theorem v3A (c : Dev nD) : (Gen.V1 m c main_v3 : S800000.Idx → BitVec 32) = dstK (m ((c.tc : Thread nD τ).loc main_arg1)) :=
  ops0A_v3 (Gen.V0 m c)

/-- After the first stretch there is a one for every edge. -/
theorem v4A (c : Dev nD) : (Gen.V1 m c main_v4 : S800000.Idx → EReal) = onesE :=
  ops0A_v4 (Gen.V0 m c)

/-- After the third stretch the reciprocal column is the reciprocal in-degrees of the edge array. -/
theorem v18A (c : Dev nD) : (Gen.V3 m c main_v18 : S50000x1.Idx → EReal) = invK (m ((c.tc : Thread nD τ).loc main_arg1)) := by
  refine (ops02A_v18 (Gen.V2 m c)).trans ?_
  have h3 : (Gen.V2 m c main_v3 : S800000.Idx → BitVec 32) = dstK (m ((c.tc : Thread nD τ).loc main_arg1)) :=
    (Gen.V2_of m c main_v3 (by decide)).trans (v3A m c)
  have h4 : (Gen.V2 m c main_v4 : S800000.Idx → EReal) = onesE :=
    (Gen.V2_of m c main_v4 (by decide)).trans (v4A m c)
  rw [h3, h4]
  rfl

/-! ## Launch 1 -/

/-- The neighbour means launch 1 reads are the means of what launch 0 left. -/
theorem read1_v34 (c : Dev nD) :
    (En1 m c main_v34 : S50000x128.Idx → EReal) = aggK (o0 m c) (m ((c.tc : Thread nD τ).loc main_arg1)) := by
  refine (ops1A_v34 (Wo0 m c)).trans ?_
  have hh : Wo0 m c main_v21 = o0 m c := Function.update_self _ _ _
  have h1 : (Wo0 m c main_v1 : S800000.Idx → BitVec 32) = srcK (m ((c.tc : Thread nD τ).loc main_arg1)) := by
    rw [← V4_eq]
    exact ((Gen.V4_of m (outs m) c main_v1 (by decide)).trans <| (Gen.V3_of m c main_v1 (by decide)).trans <| (Gen.V2_of m c main_v1 (by decide))).trans (v1A m c)
  have h3 : (Wo0 m c main_v3 : S800000.Idx → BitVec 32) = dstK (m ((c.tc : Thread nD τ).loc main_arg1)) := by
    rw [← V4_eq]
    exact ((Gen.V4_of m (outs m) c main_v3 (by decide)).trans <| (Gen.V3_of m c main_v3 (by decide)).trans <| (Gen.V2_of m c main_v3 (by decide))).trans (v3A m c)
  have h18 : (Wo0 m c main_v18 : S50000x1.Idx → EReal) = invK (m ((c.tc : Thread nD τ).loc main_arg1)) := by
    rw [← V4_eq]
    exact (Gen.V4_of m (outs m) c main_v18 (by decide)).trans (v18A m c)
  rw [hh, h1, h3, h18]
  rfl

/-- The node states launch 1 reads are what launch 0 left. -/
theorem read1_v21 (c : Dev nD) : En1 m c main_v21 = o0 m c := by
  show Wi1 m c main_v21 = _
  rw [← V5_eq, Gen.V5_of m (outs m) c main_v21 (by decide), V4_eq]
  exact Function.update_self _ _ _

/-- The first weight table is as launched. -/
theorem read1_arg5 (c : Dev nD) : En1 m c main_arg5 = m ((c.tc : Thread nD τ).loc main_arg5) := by
  show Wi1 m c main_arg5 = _
  rw [← V5_eq]
  exact (Gen.V5_of m (outs m) c main_arg5 (by decide)).trans <| (Gen.V4_of m (outs m) c main_arg5 (by decide)).trans <| (Gen.V3_of m c main_arg5 (by decide)).trans <| (Gen.V2_of m c main_arg5 (by decide)).trans <| (Gen.V1_of m c main_arg5 (by decide)).trans rfl

/-- The second weight table is as launched. -/
theorem read1_arg7 (c : Dev nD) : En1 m c main_arg7 = m ((c.tc : Thread nD τ).loc main_arg7) := by
  show Wi1 m c main_arg7 = _
  rw [← V5_eq]
  exact (Gen.V5_of m (outs m) c main_arg7 (by decide)).trans <| (Gen.V4_of m (outs m) c main_arg7 (by decide)).trans <| (Gen.V3_of m c main_arg7 (by decide)).trans <| (Gen.V2_of m c main_arg7 (by decide)).trans <| (Gen.V1_of m c main_arg7 (by decide)).trans rfl

/-- The bias row is the launched bias vector cast to a row. -/
theorem read1_v35 (c : Dev nD) :
    (En1 m c main_v35 : S1x128.Idx → EReal) = shapeCast S1x128 (m ((c.tc : Thread nD τ).loc main_arg6)) Facts₀.shapeCasts_S128_S1x128 := by
  refine (ops1A_v35 (Wo0 m c)).trans ?_
  have h : Wo0 m c main_arg6 = m ((c.tc : Thread nD τ).loc main_arg6) := by
    rw [← V4_eq]
    exact (Gen.V4_of m (outs m) c main_arg6 (by decide)).trans <| (Gen.V3_of m c main_arg6 (by decide)).trans <| (Gen.V2_of m c main_arg6 (by decide)).trans <| (Gen.V1_of m c main_arg6 (by decide)).trans rfl
  rw [h]

/-- The zero array launch 1 reads is the zero word broadcast. -/
theorem read1_v22 (c : Dev nD) :
    (En1 m c main_v22 : S50000x128.Idx → EReal)
      = broadcastInDim S50000x128 ![] Facts₀.bcast_S_S50000x128 (constant (F := Ideal) S_ .f32 0x00000000#32) :=
  ops1A_v22 (Wo0 m c)

end Cert.KernelIdeal.Hand

end
-- ==== Proof.KiReads0.lean ====
/-
  What the arrays of the first launch hold when it is entered.

  Before the first launch the host computes, from the edge array as launched, the number of edges leaving each node (ones
  added into zeros along the edges' sources), clips it between 0 and 199, converts it to an integer and casts it to a
  column: the degree that indexes the embedding table.  It also casts the encoder's weight column and bias vector to
  rows.  The node features and the embedding table are arguments, which no host operation rewrites.
-/
import proofs.«143383_j87711822119113_2_alg».proof.Proof.KiRun
import proofs.«143383_j87711822119113_2_alg».proof.Proof.KiHostFns
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Idealize.ShloMosaic.StableHlo Cert.KernelIdeal.Facts₀ Cert.KernelIdeal.Facts

/-! ## The first stretch: the out-degree counts and the two clip bounds -/

/-- After the stretch the out-degree counts are the counts of the sources: ones added into zeros along them. -/
theorem ops0A_v7 (W : Valuation τ sig (Elt Ideal)) :
    (StableHlo.after Gen.hostOps0 W main_v7 : S50000.Idx → EReal) = cntK (srcK (W main_arg1)) := by
  simp only [Gen.hostOps0]; after_results; rfl

/-- After the stretch the lower clip bound is the integer zero. -/
theorem ops0A_c (W : Valuation τ sig (Elt Ideal)) :
    (StableHlo.after Gen.hostOps0 W main_c : S_.Idx → BitVec 32) = constantI S_ 32 0#32 := by
  simp only [Gen.hostOps0]; after_results <;> rfl

/-- After the stretch the upper clip bound is the integer 199. -/
theorem ops0A_c_1 (W : Valuation τ sig (Elt Ideal)) :
    (StableHlo.after Gen.hostOps0 W main_c_1 : S_.Idx → BitVec 32) = constantI S_ 32 199#32 := by
  simp only [Gen.hostOps0]; after_results <;> rfl

/-! ## The second stretch: the counts clipped between the two bounds -/

/-- After the stretch the clipped counts are the minimum of the upper bound with the maximum of the lower bound and the
    counts, the bounds converted to floats and broadcast. -/
theorem ops01A_v8 (W : Valuation τ sig (Elt Ideal)) :
    (StableHlo.after Gen.hostOps0_1 W main_v8 : S50000.Idx → EReal)
      = minimumf (F := Ideal) (φ := .f32) (broadcastInDim S50000 ![] Facts₀.bcast_S_S50000 (sitofp (F := Ideal) .f32 (W main_c_1 : S_.Idx → BitVec 32)))
          (maximumf (F := Ideal) (φ := .f32) (broadcastInDim S50000 ![] Facts₀.bcast_S_S50000 (sitofp (F := Ideal) .f32 (W main_c : S_.Idx → BitVec 32)))
            (W main_v7)) := by
  simp only [Gen.hostOps0_1]; after_results; rfl

/-! ## The third stretch: the degree column, and the encoder's weight and bias as rows -/

/-- After the stretch the degree column is the clipped counts converted to integers, cast to a column. -/
theorem ops02A_v10 (W : Valuation τ sig (Elt Ideal)) :
    (StableHlo.after Gen.hostOps0_2 W main_v10 : S50000x1.Idx → BitVec 32)
      = shapeCast S50000x1 (fptosi (F := Ideal) (φ := .f32) 32 (W main_v8 : S50000.Idx → EReal)) Facts₀.shapeCasts_S50000_S50000x1 := by
  simp only [Gen.hostOps0_2]; after_results; rfl

/-- After the stretch the encoder's bias row is the bias vector cast to a row. -/
theorem ops02A_v19 (W : Valuation τ sig (Elt Ideal)) :
    (StableHlo.after Gen.hostOps0_2 W main_v19 : S1x128.Idx → EReal) = shapeCast S1x128 (W main_arg3) Facts₀.shapeCasts_S128_S1x128 := by
  simp only [Gen.hostOps0_2]; after_results; rfl

/-- After the stretch the encoder's weight row is the weight column cast to a row. -/
theorem ops02A_v20 (W : Valuation τ sig (Elt Ideal)) :
    (StableHlo.after Gen.hostOps0_2 W main_v20 : S1x128.Idx → EReal) = shapeCast S1x128 (W main_arg2) Facts₀.shapeCasts_S128x1_S1x128 := by
  simp only [Gen.hostOps0_2]; after_results; rfl

variable (m : (ℓ : Loc nD τ sig) → Buf (Elt Ideal) ℓ)

/-! ## Launch 0 -/

/-- The node features are as launched. -/
theorem read0_arg0 (c : Dev nD) : En0 m c main_arg0 = m ((c.tc : Thread nD τ).loc main_arg0) := by
  show Gen.V3 m c main_arg0 = _
  exact (Gen.V3_of m c main_arg0 (by decide)).trans <| (Gen.V2_of m c main_arg0 (by decide)).trans <| (Gen.V1_of m c main_arg0 (by decide)).trans rfl

/-- The embedding table is as launched. -/
theorem read0_arg4 (c : Dev nD) : En0 m c main_arg4 = m ((c.tc : Thread nD τ).loc main_arg4) := by
  show Gen.V3 m c main_arg4 = _
  exact (Gen.V3_of m c main_arg4 (by decide)).trans <| (Gen.V2_of m c main_arg4 (by decide)).trans <| (Gen.V1_of m c main_arg4 (by decide)).trans rfl

/-- The encoder's weight row is the launched weight column cast to a row. -/
theorem read0_v20 (c : Dev nD) :
    (En0 m c main_v20 : S1x128.Idx → EReal) = shapeCast S1x128 (m ((c.tc : Thread nD τ).loc main_arg2)) Facts₀.shapeCasts_S128x1_S1x128 := by
  refine (ops02A_v20 (Gen.V2 m c)).trans ?_
  have h : Gen.V2 m c main_arg2 = m ((c.tc : Thread nD τ).loc main_arg2) :=
    (Gen.V2_of m c main_arg2 (by decide)).trans <| (Gen.V1_of m c main_arg2 (by decide)).trans rfl
  rw [h]

/-- The encoder's bias row is the launched bias vector cast to a row. -/
theorem read0_v19 (c : Dev nD) :
    (En0 m c main_v19 : S1x128.Idx → EReal) = shapeCast S1x128 (m ((c.tc : Thread nD τ).loc main_arg3)) Facts₀.shapeCasts_S128_S1x128 := by
  refine (ops02A_v19 (Gen.V2 m c)).trans ?_
  have h : Gen.V2 m c main_arg3 = m ((c.tc : Thread nD τ).loc main_arg3) :=
    (Gen.V2_of m c main_arg3 (by decide)).trans <| (Gen.V1_of m c main_arg3 (by decide)).trans rfl
  rw [h]

/-- The degree column launch 0 reads is the clipped out-degree of the edge array. -/
theorem read0_v10 (c : Dev nD) :
    (En0 m c main_v10 : S50000x1.Idx → BitVec 32) = degK (m ((c.tc : Thread nD τ).loc main_arg1)) := by
  refine (ops02A_v10 (Gen.V2 m c)).trans ?_
  have hc : (Gen.V1 m c main_c : S_.Idx → BitVec 32) = constantI S_ 32 0#32 := ops0A_c (Gen.V0 m c)
  have hc1 : (Gen.V1 m c main_c_1 : S_.Idx → BitVec 32) = constantI S_ 32 199#32 := ops0A_c_1 (Gen.V0 m c)
  have h7 : (Gen.V1 m c main_v7 : S50000.Idx → EReal) = cntK (srcK (m ((c.tc : Thread nD τ).loc main_arg1))) := ops0A_v7 (Gen.V0 m c)
  have h8 : (Gen.V2 m c main_v8 : S50000.Idx → EReal)
      = minimumf (F := Ideal) (φ := .f32) (broadcastInDim S50000 ![] Facts₀.bcast_S_S50000 (sitofp (F := Ideal) .f32 (constantI S_ 32 199#32)))
          (maximumf (F := Ideal) (φ := .f32) (broadcastInDim S50000 ![] Facts₀.bcast_S_S50000 (sitofp (F := Ideal) .f32 (constantI S_ 32 0#32)))
            (cntK (srcK (m ((c.tc : Thread nD τ).loc main_arg1))))) := by
    refine (ops01A_v8 (Gen.V1 m c)).trans ?_
    rw [hc, hc1, h7]
  rw [h8]
  rfl

end Cert.KernelIdeal.Hand

end
-- ==== Proof.KiReadsB.lean ====
/-
  What the arrays of the last three launches hold when each launch is entered, and what the result buffer holds at
  the end.

  Between two launches the host rewrites only the buffers it computes: the mean over each node's incoming edges of the
  rows the previous launch left (a gather of rows along the edges' sources, added into the edges' targets, times the
  reciprocal of the in-degree), and the next bias as a row.  Everything else a launch reads is either what the
  previous launch left in its output array or an argument as launched.  After the last launch the host reshapes its
  column to a vector and broadcasts it to a row.
-/
import proofs.«143383_j87711822119113_2_alg».proof.Proof.KiRun
import proofs.«143383_j87711822119113_2_alg».proof.Proof.KiHostFns
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Idealize.ShloMosaic.StableHlo Cert.KernelIdeal.Facts₀ Cert.KernelIdeal.Facts

/-! ## The mean over incoming edges, from its four ingredients -/

/-- The mean over a node's incoming edges of the rows of h: the rows gathered along the edges' sources s (a negative
    source read from the end), added into the edges' targets d, times the reciprocal in-degrees inv. -/
def aggWB (h : S50000x128.Idx → EReal) (s d : S800000.Idx → BitVec 32) (inv : S50000x1.Idx → EReal) : S50000x128.Idx → EReal :=
  mulf (F := Ideal) (φ := .f32)
    (Host.scatterAdd (F := Ideal) scatter_S50000x128_S800000x1_S800000x128_1_0_0_1 (broadcastInDim S50000x128 ![] Facts₀.bcast_S_S50000x128 (constant (F := Ideal) S_ .f32 0x00000000#32))
      (broadcastInDim S800000x1 ![0] Facts₀.bcast_S800000_S800000x1_0 d)
      (Host.gather gather_S50000x128_S800000x1_S800000x128_1_0_n_n_0_1_1128 h (broadcastInDim S800000x1 ![0] Facts₀.bcast_S800000_S800000x1_0
        (select (cmpi .slt s (broadcastInDim S800000 ![] Facts₀.bcast_S_S800000 (constantI S_ 32 0#32)))
          (addi s (broadcastInDim S800000 ![] Facts₀.bcast_S_S800000 (constantI S_ 32 50000#32))) s))))
    (broadcastInDim S50000x128 ![0, 1] Facts₀.bcast_S50000x1_S50000x128_0_1 inv)

/-- The mean named on the edge array is the mean of its sources, targets and reciprocal in-degrees. -/
theorem aggK_eqB (h : S50000x128.Idx → EReal) (e : S2x800000.Idx → BitVec 32) : aggK h e = aggWB h (srcK e) (dstK e) (invK e) := rfl

/-! ## The first stretch: the edges' sources and targets, and one per edge -/

theorem ops0B_v1 (W : Valuation τ sig (Elt Ideal)) :
    (StableHlo.after Gen.hostOps0 W main_v1 : S800000.Idx → BitVec 32) = srcK (W main_arg1) := by
  simp only [Gen.hostOps0]; after_results; rfl

theorem ops0B_v3 (W : Valuation τ sig (Elt Ideal)) :
    (StableHlo.after Gen.hostOps0 W main_v3 : S800000.Idx → BitVec 32) = dstK (W main_arg1) := by
  simp only [Gen.hostOps0]; after_results; rfl

theorem ops0B_v4 (W : Valuation τ sig (Elt Ideal)) :
    (StableHlo.after Gen.hostOps0 W main_v4 : S800000.Idx → EReal) = onesE := by
  simp only [Gen.hostOps0]; after_results; rfl

/-! ## The third stretch: the reciprocal in-degrees -/

/-- After the stretch the reciprocal column is one over the count of the targets (ones added into zeros) raised to at
    least one, cast to a column. -/
theorem ops02B_v18 (W : Valuation τ sig (Elt Ideal)) :
    (StableHlo.after Gen.hostOps0_2 W main_v18 : S50000x1.Idx → EReal)
      = shapeCast S50000x1 (Host.divf (F := Ideal) (broadcastInDim S50000 ![] Facts₀.bcast_S_S50000 (constant (F := Ideal) S_ .f32 0x3F800000#32))
          (maximumf (Host.scatterAdd (F := Ideal) scatter_S50000_S800000x1_S800000_n_0_0_1 (broadcastInDim S50000 ![] Facts₀.bcast_S_S50000 (constant (F := Ideal) S_ .f32 0x00000000#32))
            (broadcastInDim S800000x1 ![0] Facts₀.bcast_S800000_S800000x1_0 (W main_v3)) (W main_v4))
            (broadcastInDim S50000 ![] Facts₀.bcast_S_S50000 (constant (F := Ideal) S_ .f32 0x3F800000#32)))) Facts₀.shapeCasts_S50000_S50000x1 := by
  simp only [Gen.hostOps0_2]; after_results; rfl

/-! ## The stretches between the graph layers: the neighbour means and the next bias row -/

theorem ops2B_v48 (W : Valuation τ sig (Elt Ideal)) :
    (StableHlo.after Gen.hostOps2 W main_v48 : S50000x128.Idx → EReal) = aggWB (W main_v36) (W main_v1) (W main_v3) (W main_v18) := by
  simp only [Gen.hostOps2]; after_results_simp; rfl

theorem ops2B_v49 (W : Valuation τ sig (Elt Ideal)) :
    (StableHlo.after Gen.hostOps2 W main_v49 : S1x128.Idx → EReal) = shapeCast S1x128 (W main_arg9) Facts₀.shapeCasts_S128_S1x128 := by
  simp only [Gen.hostOps2]; after_results; rfl

theorem ops3B_v62 (W : Valuation τ sig (Elt Ideal)) :
    (StableHlo.after Gen.hostOps3 W main_v62 : S50000x128.Idx → EReal) = aggWB (W main_v50) (W main_v1) (W main_v3) (W main_v18) := by
  simp only [Gen.hostOps3]; after_results_simp; rfl

theorem ops3B_v63 (W : Valuation τ sig (Elt Ideal)) :
    (StableHlo.after Gen.hostOps3 W main_v63 : S1x128.Idx → EReal) = shapeCast S1x128 (W main_arg12) Facts₀.shapeCasts_S128_S1x128 := by
  simp only [Gen.hostOps3]; after_results; rfl

/-! ## The stretch before the last launch: the two biases as rows -/

/-- After the stretch the hidden bias row is the bias vector cast to a row. -/
theorem ops4B_v65 (W : Valuation τ sig (Elt Ideal)) :
    (StableHlo.after Gen.hostOps4 W main_v65 : S1x64.Idx → EReal) = shapeCast S1x64 (W main_arg15) Facts₀.shapeCasts_S64_S1x64 := by
  simp only [Gen.hostOps4]; after_results; rfl

/-- After the stretch the output bias is the one-entry vector cast to a 1 × 1 array. -/
theorem ops4B_v66 (W : Valuation τ sig (Elt Ideal)) :
    (StableHlo.after Gen.hostOps4 W main_v66 : S1x1.Idx → EReal) = shapeCast S1x1 (W main_arg17) Facts₀.shapeCasts_S1_S1x1 := by
  simp only [Gen.hostOps4]; after_results; rfl

/-! ## The stretch after the last launch: the column as a row -/

/-- After the stretch the result buffer is the last launch's column reshaped to a vector and broadcast to a row. -/
theorem ops5B_v69 (W : Valuation τ sig (Elt Ideal)) :
    (StableHlo.after Gen.hostOps5 W main_v69 : S1x50000.Idx → EReal)
      = broadcastInDim S1x50000 ![1] Facts₀.bcast_S50000_S1x50000_1 (shapeCast S50000 (W main_v67) Facts₀.shapeCasts_S50000x1_S50000) := by
  simp only [Gen.hostOps5]; after_results; rfl

variable (m : (ℓ : Loc nD τ sig) → Buf (Elt Ideal) ℓ)

/-! ## The graph's ingredients as the leading stretches leave them -/

/-- After the first stretch the sources are the edge array's first row. -/
theorem v1B (c : Dev nD) : (Gen.V1 m c main_v1 : S800000.Idx → BitVec 32) = srcK (m ((c.tc : Thread nD τ).loc main_arg1)) :=
  ops0B_v1 (Gen.V0 m c)

/-- After the first stretch the targets are the edge array's second row. -/
theorem v3B (c : Dev nD) : (Gen.V1 m c main_v3 : S800000.Idx → BitVec 32) = dstK (m ((c.tc : Thread nD τ).loc main_arg1)) :=
  ops0B_v3 (Gen.V0 m c)

/-- After the first stretch there is a one for every edge. -/
theorem v4B (c : Dev nD) : (Gen.V1 m c main_v4 : S800000.Idx → EReal) = onesE :=
  ops0B_v4 (Gen.V0 m c)

/-- After the third stretch the reciprocal column is the reciprocal in-degrees of the edge array. -/
theorem v18B (c : Dev nD) : (Gen.V3 m c main_v18 : S50000x1.Idx → EReal) = invK (m ((c.tc : Thread nD τ).loc main_arg1)) := by
  refine (ops02B_v18 (Gen.V2 m c)).trans ?_
  have h3 : (Gen.V2 m c main_v3 : S800000.Idx → BitVec 32) = dstK (m ((c.tc : Thread nD τ).loc main_arg1)) :=
    (Gen.V2_of m c main_v3 (by decide)).trans (v3B m c)
  have h4 : (Gen.V2 m c main_v4 : S800000.Idx → EReal) = onesE :=
    (Gen.V2_of m c main_v4 (by decide)).trans (v4B m c)
  rw [h3, h4]
  rfl

/-! ## Launch 2 -/

/-- The neighbour means launch 2 reads are the means of what launch 1 left. -/
theorem read2_v48 (c : Dev nD) :
    (En2 m c main_v48 : S50000x128.Idx → EReal) = aggK (o1 m c) (m ((c.tc : Thread nD τ).loc main_arg1)) := by
  refine (ops2B_v48 (Wo1 m c)).trans ?_
  have hh : Wo1 m c main_v36 = o1 m c := Function.update_self _ _ _
  have h1 : (Wo1 m c main_v1 : S800000.Idx → BitVec 32) = srcK (m ((c.tc : Thread nD τ).loc main_arg1)) := by
    rw [← V6_eq]
    exact ((Gen.V6_of m (outs m) c main_v1 (by decide)).trans <| (Gen.V5_of m (outs m) c main_v1 (by decide)).trans <| (Gen.V4_of m (outs m) c main_v1 (by decide)).trans <| (Gen.V3_of m c main_v1 (by decide)).trans <| (Gen.V2_of m c main_v1 (by decide))).trans (v1B m c)
  have h3 : (Wo1 m c main_v3 : S800000.Idx → BitVec 32) = dstK (m ((c.tc : Thread nD τ).loc main_arg1)) := by
    rw [← V6_eq]
    exact ((Gen.V6_of m (outs m) c main_v3 (by decide)).trans <| (Gen.V5_of m (outs m) c main_v3 (by decide)).trans <| (Gen.V4_of m (outs m) c main_v3 (by decide)).trans <| (Gen.V3_of m c main_v3 (by decide)).trans <| (Gen.V2_of m c main_v3 (by decide))).trans (v3B m c)
  have h18 : (Wo1 m c main_v18 : S50000x1.Idx → EReal) = invK (m ((c.tc : Thread nD τ).loc main_arg1)) := by
    rw [← V6_eq]
    exact ((Gen.V6_of m (outs m) c main_v18 (by decide)).trans <| (Gen.V5_of m (outs m) c main_v18 (by decide)).trans <| (Gen.V4_of m (outs m) c main_v18 (by decide))).trans (v18B m c)
  rw [hh, h1, h3, h18]
  rfl

/-- The node states launch 2 reads are what launch 1 left. -/
theorem read2_v36 (c : Dev nD) : En2 m c main_v36 = o1 m c := by
  show Wi2 m c main_v36 = _
  rw [← V7_eq, Gen.V7_of m (outs m) c main_v36 (by decide), V6_eq]
  exact Function.update_self _ _ _

/-- The first weight table is as launched. -/
theorem read2_arg8 (c : Dev nD) : En2 m c main_arg8 = m ((c.tc : Thread nD τ).loc main_arg8) := by
  show Wi2 m c main_arg8 = _
  rw [← V7_eq]
  exact (Gen.V7_of m (outs m) c main_arg8 (by decide)).trans <| (Gen.V6_of m (outs m) c main_arg8 (by decide)).trans <| (Gen.V5_of m (outs m) c main_arg8 (by decide)).trans <| (Gen.V4_of m (outs m) c main_arg8 (by decide)).trans <| (Gen.V3_of m c main_arg8 (by decide)).trans <| (Gen.V2_of m c main_arg8 (by decide)).trans <| (Gen.V1_of m c main_arg8 (by decide)).trans rfl

/-- The second weight table is as launched. -/
theorem read2_arg10 (c : Dev nD) : En2 m c main_arg10 = m ((c.tc : Thread nD τ).loc main_arg10) := by
  show Wi2 m c main_arg10 = _
  rw [← V7_eq]
  exact (Gen.V7_of m (outs m) c main_arg10 (by decide)).trans <| (Gen.V6_of m (outs m) c main_arg10 (by decide)).trans <| (Gen.V5_of m (outs m) c main_arg10 (by decide)).trans <| (Gen.V4_of m (outs m) c main_arg10 (by decide)).trans <| (Gen.V3_of m c main_arg10 (by decide)).trans <| (Gen.V2_of m c main_arg10 (by decide)).trans <| (Gen.V1_of m c main_arg10 (by decide)).trans rfl

/-- The bias row is the launched bias vector cast to a row. -/
theorem read2_v49 (c : Dev nD) :
    (En2 m c main_v49 : S1x128.Idx → EReal) = shapeCast S1x128 (m ((c.tc : Thread nD τ).loc main_arg9)) Facts₀.shapeCasts_S128_S1x128 := by
  refine (ops2B_v49 (Wo1 m c)).trans ?_
  have h : Wo1 m c main_arg9 = m ((c.tc : Thread nD τ).loc main_arg9) := by
    rw [← V6_eq]
    exact (Gen.V6_of m (outs m) c main_arg9 (by decide)).trans <| (Gen.V5_of m (outs m) c main_arg9 (by decide)).trans <| (Gen.V4_of m (outs m) c main_arg9 (by decide)).trans <| (Gen.V3_of m c main_arg9 (by decide)).trans <| (Gen.V2_of m c main_arg9 (by decide)).trans <| (Gen.V1_of m c main_arg9 (by decide)).trans rfl
  rw [h]

/-! ## Launch 3 -/

/-- The neighbour means launch 3 reads are the means of what launch 2 left. -/
theorem read3_v62 (c : Dev nD) :
    (En3 m c main_v62 : S50000x128.Idx → EReal) = aggK (o2 m c) (m ((c.tc : Thread nD τ).loc main_arg1)) := by
  refine (ops3B_v62 (Wo2 m c)).trans ?_
  have hh : Wo2 m c main_v50 = o2 m c := Function.update_self _ _ _
  have h1 : (Wo2 m c main_v1 : S800000.Idx → BitVec 32) = srcK (m ((c.tc : Thread nD τ).loc main_arg1)) := by
    rw [← V8_eq]
    exact ((Gen.V8_of m (outs m) c main_v1 (by decide)).trans <| (Gen.V7_of m (outs m) c main_v1 (by decide)).trans <| (Gen.V6_of m (outs m) c main_v1 (by decide)).trans <| (Gen.V5_of m (outs m) c main_v1 (by decide)).trans <| (Gen.V4_of m (outs m) c main_v1 (by decide)).trans <| (Gen.V3_of m c main_v1 (by decide)).trans <| (Gen.V2_of m c main_v1 (by decide))).trans (v1B m c)
  have h3 : (Wo2 m c main_v3 : S800000.Idx → BitVec 32) = dstK (m ((c.tc : Thread nD τ).loc main_arg1)) := by
    rw [← V8_eq]
    exact ((Gen.V8_of m (outs m) c main_v3 (by decide)).trans <| (Gen.V7_of m (outs m) c main_v3 (by decide)).trans <| (Gen.V6_of m (outs m) c main_v3 (by decide)).trans <| (Gen.V5_of m (outs m) c main_v3 (by decide)).trans <| (Gen.V4_of m (outs m) c main_v3 (by decide)).trans <| (Gen.V3_of m c main_v3 (by decide)).trans <| (Gen.V2_of m c main_v3 (by decide))).trans (v3B m c)
  have h18 : (Wo2 m c main_v18 : S50000x1.Idx → EReal) = invK (m ((c.tc : Thread nD τ).loc main_arg1)) := by
    rw [← V8_eq]
    exact ((Gen.V8_of m (outs m) c main_v18 (by decide)).trans <| (Gen.V7_of m (outs m) c main_v18 (by decide)).trans <| (Gen.V6_of m (outs m) c main_v18 (by decide)).trans <| (Gen.V5_of m (outs m) c main_v18 (by decide)).trans <| (Gen.V4_of m (outs m) c main_v18 (by decide))).trans (v18B m c)
  rw [hh, h1, h3, h18]
  rfl

/-- The node states launch 3 reads are what launch 2 left. -/
theorem read3_v50 (c : Dev nD) : En3 m c main_v50 = o2 m c := by
  show Wi3 m c main_v50 = _
  rw [← V9_eq, Gen.V9_of m (outs m) c main_v50 (by decide), V8_eq]
  exact Function.update_self _ _ _

/-- The first weight table is as launched. -/
theorem read3_arg11 (c : Dev nD) : En3 m c main_arg11 = m ((c.tc : Thread nD τ).loc main_arg11) := by
  show Wi3 m c main_arg11 = _
  rw [← V9_eq]
  exact (Gen.V9_of m (outs m) c main_arg11 (by decide)).trans <| (Gen.V8_of m (outs m) c main_arg11 (by decide)).trans <| (Gen.V7_of m (outs m) c main_arg11 (by decide)).trans <| (Gen.V6_of m (outs m) c main_arg11 (by decide)).trans <| (Gen.V5_of m (outs m) c main_arg11 (by decide)).trans <| (Gen.V4_of m (outs m) c main_arg11 (by decide)).trans <| (Gen.V3_of m c main_arg11 (by decide)).trans <| (Gen.V2_of m c main_arg11 (by decide)).trans <| (Gen.V1_of m c main_arg11 (by decide)).trans rfl

/-- The second weight table is as launched. -/
theorem read3_arg13 (c : Dev nD) : En3 m c main_arg13 = m ((c.tc : Thread nD τ).loc main_arg13) := by
  show Wi3 m c main_arg13 = _
  rw [← V9_eq]
  exact (Gen.V9_of m (outs m) c main_arg13 (by decide)).trans <| (Gen.V8_of m (outs m) c main_arg13 (by decide)).trans <| (Gen.V7_of m (outs m) c main_arg13 (by decide)).trans <| (Gen.V6_of m (outs m) c main_arg13 (by decide)).trans <| (Gen.V5_of m (outs m) c main_arg13 (by decide)).trans <| (Gen.V4_of m (outs m) c main_arg13 (by decide)).trans <| (Gen.V3_of m c main_arg13 (by decide)).trans <| (Gen.V2_of m c main_arg13 (by decide)).trans <| (Gen.V1_of m c main_arg13 (by decide)).trans rfl

/-- The bias row is the launched bias vector cast to a row. -/
theorem read3_v63 (c : Dev nD) :
    (En3 m c main_v63 : S1x128.Idx → EReal) = shapeCast S1x128 (m ((c.tc : Thread nD τ).loc main_arg12)) Facts₀.shapeCasts_S128_S1x128 := by
  refine (ops3B_v63 (Wo2 m c)).trans ?_
  have h : Wo2 m c main_arg12 = m ((c.tc : Thread nD τ).loc main_arg12) := by
    rw [← V8_eq]
    exact (Gen.V8_of m (outs m) c main_arg12 (by decide)).trans <| (Gen.V7_of m (outs m) c main_arg12 (by decide)).trans <| (Gen.V6_of m (outs m) c main_arg12 (by decide)).trans <| (Gen.V5_of m (outs m) c main_arg12 (by decide)).trans <| (Gen.V4_of m (outs m) c main_arg12 (by decide)).trans <| (Gen.V3_of m c main_arg12 (by decide)).trans <| (Gen.V2_of m c main_arg12 (by decide)).trans <| (Gen.V1_of m c main_arg12 (by decide)).trans rfl
  rw [h]

/-! ## Launch 4 -/

/-- The node states launch 4 reads are what launch 3 left. -/
theorem read4_v64 (c : Dev nD) : En4 m c main_v64 = o3 m c := by
  show Wi4 m c main_v64 = _
  rw [← V11_eq, Gen.V11_of m (outs m) c main_v64 (by decide), V10_eq]
  exact Function.update_self _ _ _

/-- The hidden weight table is as launched. -/
theorem read4_arg14 (c : Dev nD) : En4 m c main_arg14 = m ((c.tc : Thread nD τ).loc main_arg14) := by
  show Wi4 m c main_arg14 = _
  rw [← V11_eq]
  exact (Gen.V11_of m (outs m) c main_arg14 (by decide)).trans <| (Gen.V10_of m (outs m) c main_arg14 (by decide)).trans <| (Gen.V9_of m (outs m) c main_arg14 (by decide)).trans <| (Gen.V8_of m (outs m) c main_arg14 (by decide)).trans <| (Gen.V7_of m (outs m) c main_arg14 (by decide)).trans <| (Gen.V6_of m (outs m) c main_arg14 (by decide)).trans <| (Gen.V5_of m (outs m) c main_arg14 (by decide)).trans <| (Gen.V4_of m (outs m) c main_arg14 (by decide)).trans <| (Gen.V3_of m c main_arg14 (by decide)).trans <| (Gen.V2_of m c main_arg14 (by decide)).trans <| (Gen.V1_of m c main_arg14 (by decide)).trans rfl

/-- The output weight row is as launched. -/
theorem read4_arg16 (c : Dev nD) : En4 m c main_arg16 = m ((c.tc : Thread nD τ).loc main_arg16) := by
  show Wi4 m c main_arg16 = _
  rw [← V11_eq]
  exact (Gen.V11_of m (outs m) c main_arg16 (by decide)).trans <| (Gen.V10_of m (outs m) c main_arg16 (by decide)).trans <| (Gen.V9_of m (outs m) c main_arg16 (by decide)).trans <| (Gen.V8_of m (outs m) c main_arg16 (by decide)).trans <| (Gen.V7_of m (outs m) c main_arg16 (by decide)).trans <| (Gen.V6_of m (outs m) c main_arg16 (by decide)).trans <| (Gen.V5_of m (outs m) c main_arg16 (by decide)).trans <| (Gen.V4_of m (outs m) c main_arg16 (by decide)).trans <| (Gen.V3_of m c main_arg16 (by decide)).trans <| (Gen.V2_of m c main_arg16 (by decide)).trans <| (Gen.V1_of m c main_arg16 (by decide)).trans rfl

/-- The hidden bias row is the launched bias vector cast to a row. -/
theorem read4_v65 (c : Dev nD) :
    (En4 m c main_v65 : S1x64.Idx → EReal) = shapeCast S1x64 (m ((c.tc : Thread nD τ).loc main_arg15)) Facts₀.shapeCasts_S64_S1x64 := by
  refine (ops4B_v65 (Wo3 m c)).trans ?_
  have h : Wo3 m c main_arg15 = m ((c.tc : Thread nD τ).loc main_arg15) := by
    rw [← V10_eq]
    exact (Gen.V10_of m (outs m) c main_arg15 (by decide)).trans <| (Gen.V9_of m (outs m) c main_arg15 (by decide)).trans <| (Gen.V8_of m (outs m) c main_arg15 (by decide)).trans <| (Gen.V7_of m (outs m) c main_arg15 (by decide)).trans <| (Gen.V6_of m (outs m) c main_arg15 (by decide)).trans <| (Gen.V5_of m (outs m) c main_arg15 (by decide)).trans <| (Gen.V4_of m (outs m) c main_arg15 (by decide)).trans <| (Gen.V3_of m c main_arg15 (by decide)).trans <| (Gen.V2_of m c main_arg15 (by decide)).trans <| (Gen.V1_of m c main_arg15 (by decide)).trans rfl
  rw [h]

/-- The output bias is the launched one-entry vector cast to a 1 × 1 array. -/
theorem read4_v66 (c : Dev nD) :
    (En4 m c main_v66 : S1x1.Idx → EReal) = shapeCast S1x1 (m ((c.tc : Thread nD τ).loc main_arg17)) Facts₀.shapeCasts_S1_S1x1 := by
  refine (ops4B_v66 (Wo3 m c)).trans ?_
  have h : Wo3 m c main_arg17 = m ((c.tc : Thread nD τ).loc main_arg17) := by
    rw [← V10_eq]
    exact (Gen.V10_of m (outs m) c main_arg17 (by decide)).trans <| (Gen.V9_of m (outs m) c main_arg17 (by decide)).trans <| (Gen.V8_of m (outs m) c main_arg17 (by decide)).trans <| (Gen.V7_of m (outs m) c main_arg17 (by decide)).trans <| (Gen.V6_of m (outs m) c main_arg17 (by decide)).trans <| (Gen.V5_of m (outs m) c main_arg17 (by decide)).trans <| (Gen.V4_of m (outs m) c main_arg17 (by decide)).trans <| (Gen.V3_of m c main_arg17 (by decide)).trans <| (Gen.V2_of m c main_arg17 (by decide)).trans <| (Gen.V1_of m c main_arg17 (by decide)).trans rfl
  rw [h]

/-! ## The end -/

/-- The result buffer at the end: launch 4's column reshaped to a vector and broadcast to a row. -/
theorem read_out (c : Dev nD) :
    (Gen.V13 m (outs m) c main_v69 : S1x50000.Idx → EReal)
      = broadcastInDim S1x50000 ![1] Facts₀.bcast_S50000_S1x50000_1 (shapeCast S50000 (o4 m c) Facts₀.shapeCasts_S50000x1_S50000) := by
  refine (ops5B_v69 (Gen.V12 m (outs m) c)).trans ?_
  have h : Gen.V12 m (outs m) c main_v67 = o4 m c := by
    rw [V12_eq]
    exact Function.update_self _ _ _
  rw [h]

end Cert.KernelIdeal.Hand

end
-- ==== Proof.AggLaw.lean ====
/-
  The two programs' host computations on the graph are the same functions.

  Both programs compute, on the host, from the 2 x 800000 edge array: each node's out-degree clipped to 0..199 as an
  integer, and for a table h of node rows the mean of the source rows over a node's incoming edges.  They print the same
  operations over their own copies of the shapes and dimension numbers, except for the last step of the mean: one
  program multiplies the edge sum s by the reciprocal 1 / d of the count d = max(in-degree, 1) (a column, cast and
  broadcast along the rows), the other divides s by d (broadcast twice).  On the extended reals division by d ≠ 0 is
  multiplication by d⁻¹, and 1 / d = 1 · d⁻¹ = d⁻¹; d ≥ 1 is not zero.  So s · (1 / d) = s / d for every s.
-/
import proofs.«143383_j87711822119113_2_alg».proof.Proof.KiHostFns
import proofs.«143383_j87711822119113_2_alg».proof.Proof.RefReadP
import Idealize.ShloMosaic.PureOps.Ideal.Laws
import Idealize.ShloMosaic.Lib.ValueIdx
import Idealize.ShloMosaic.Lib.Pipeline.Value

noncomputable section

namespace Cert.Proof.Agg

open Idealize.ShloMosaic Idealize.ShloMosaic.ValueIdx
open Cert.KernelIdeal.Hand Cert.ReferenceIdeal.ReadP
open scoped BigOperators

/-! ## Over any arrays -/

/-- A vector cast to a column reads, at (i, 0), the vector at i. -/
theorem shapeCast_a_a1_apply {α : Type} {a : ℕ} (x : (⟨1, ![a]⟩ : Shape).Idx → α)
    (h : (⟨1, ![a]⟩ : Shape).ShapeCasts ⟨2, ![a, 1]⟩) (y : (⟨2, ![a, 1]⟩ : Shape).Idx) :
    shapeCast ⟨2, ![a, 1]⟩ x h y = x (ix1 (y 0)) :=
  shapeCast_apply x h y (ix1 (y 0)) (by
    have h1 : (y 1).val < 1 := (y 1).isLt
    rw [Shape.rowMajor_val_one, Shape.rowMajor_val_two]
    show (y 0).val = (y 0).val * 1 + (y 1).val
    omega)

/-- A scalar broadcast to any shape reads the scalar everywhere. -/
theorem bcast_scalar_apply {α : Type} {t : Shape} (hb : (⟨0, ![]⟩ : Shape).BroadcastsInDim t ![])
    (x : (⟨0, ![]⟩ : Shape).Idx → α) (i : t.Idx) : broadcastInDim t ![] hb x i = x ix0 :=
  broadcastInDim_apply _ hb x i ix0 (fun a => a.elim0)

/-- The word of the float one is the extended real one. -/
theorem one_f32 : Ideal.ofBits .f32 0x3F800000#32 = 1 := IdealRules.sign_bit.ideal_onePat .f32

/-- A count raised to at least one is not zero. -/
theorem max_one_ne_zero (c : EReal) : max c 1 ≠ 0 :=
  ne_of_gt (lt_of_lt_of_le (by exact_mod_cast (zero_lt_one : (0 : ℝ) < 1)) (le_max_right c 1))

/-- Multiplying by the reciprocal of a nonzero extended real is dividing by it: both are the product with its inverse. -/
theorem mul_div_one (s d : EReal) (hd : d ≠ 0) : s * Ideal.div 1 d = Ideal.div s d := by
  unfold Ideal.div
  rw [if_neg hd, if_neg hd, one_mul]

/-- The host's division at an index is the division of the elements. -/
theorem hostDivf_apply {s : Shape} {φ : FTy} (a b : FVec Ideal s φ) (i : s.Idx) :
    Host.divf a b i = Ideal.div (a i) (b i) := rfl

/-! ## The kernel's mean at an index -/

/-- The kernel's mean at (n, j): the edge sum there times the reciprocal of the in-degree of n raised to at least one. -/
theorem aggK_apply (h : Cert.KernelIdeal.S50000x128.Idx → EReal) (e : Cert.KernelIdeal.S2x800000.Idx → BitVec 32)
    (n : Fin 50000) (j : Fin 128) :
    aggK h e (ix2 n j) = sumK h e (ix2 n j) * Ideal.div 1 (max (cntK (dstK e) (ix1 n)) 1) := by
  unfold aggK invK
  generalize sumK h e = s
  generalize cntK (dstK e) = c
  refine (mulf_apply _ _ _).trans ?_
  refine congrArg (s (ix2 n j) * ·) ?_
  refine (broadcastInDim_apply _ _ _ (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])).trans ?_
  refine (shapeCast_a_a1_apply _ _ (ix2 n (0 : Fin 1))).trans ?_
  refine (hostDivf_apply _ _ _).trans ?_
  refine congrArg₂ Ideal.div ?_ ?_
  · exact (bcast_scalar_apply _ _ _).trans one_f32
  · refine (maximumf_apply _ _ _).trans ?_
    refine congrArg₂ max rfl ?_
    exact (bcast_scalar_apply _ _ _).trans one_f32

/-! ## The reference's mean at an index -/

/-- The reference's form of the mean, over any edge sum s, count c and array o (of ones): s divided by max(c, o)
    broadcast to a column and then along the rows. -/
def meanR (s : Cert.ReferenceIdeal.S50000x128.Idx → EReal) (c o : Cert.ReferenceIdeal.S50000.Idx → EReal) :
    Cert.ReferenceIdeal.S50000x128.Idx → EReal :=
  Host.divf (F := Ideal) (φ := .f32) s
    (broadcastInDim Cert.ReferenceIdeal.S50000x128 ![0, 1] Cert.ReferenceIdeal.Gen.bcast_S50000x1_S50000x128_0_1
      (broadcastInDim Cert.ReferenceIdeal.S50000x1 ![0] Cert.ReferenceIdeal.Gen.bcast_S50000_S50000x1_0
        (maximumf (F := Ideal) (φ := .f32) c o)))

/-- It reads, at (n, j), the edge sum there divided by the larger of the count and the other array at n. -/
theorem meanR_apply (s : Cert.ReferenceIdeal.S50000x128.Idx → EReal) (c o : Cert.ReferenceIdeal.S50000.Idx → EReal)
    (n : Fin 50000) (j : Fin 128) :
    meanR s c o (ix2 n j) = Ideal.div (s (ix2 n j)) (max (c (ix1 n)) (o (ix1 n))) := by
  unfold meanR
  refine (hostDivf_apply _ _ _).trans ?_
  refine congrArg (Ideal.div (s (ix2 n j))) ?_
  refine (broadcastInDim_apply _ _ _ (ix2 n j) (ix2 n (0 : Fin 1)) (fun a => match a with
    | ⟨0, _⟩ => by show n.val = if (50000 : Nat) = 1 then 0 else n.val; rw [if_neg (by decide)]
    | ⟨1, _⟩ => by show 0 = if (1 : Nat) = 1 then 0 else j.val; rw [if_pos rfl])).trans ?_
  refine (broadcastInDim_apply _ _ _ (ix2 n (0 : Fin 1)) (ix1 n) (fun a => match a with
    | ⟨0, _⟩ => by show n.val = if (50000 : Nat) = 1 then 0 else n.val; rw [if_neg (by decide)])).trans ?_
  exact maximumf_apply _ _ _

/-- THE LAW over any arrays: if the two edge sums agree, the two counts agree and the other array is ones, the kernel's
    mean (sum times reciprocal) is the reference's (sum divided). -/
theorem agg_core (h : Cert.KernelIdeal.S50000x128.Idx → EReal) (e : Cert.KernelIdeal.S2x800000.Idx → BitVec 32)
    (sR : Cert.ReferenceIdeal.S50000x128.Idx → EReal) (cR oR : Cert.ReferenceIdeal.S50000.Idx → EReal)
    (hs : sumK h e = sR) (hc : cntK (dstK e) = cR) (ho : ∀ i, oR i = 1) : aggK h e = meanR sR cR oR := by
  funext i
  obtain ⟨n, j, rfl⟩ : ∃ (n : Fin 50000) (j : Fin 128), i = ix2 n j := ⟨i 0, i 1, eq_ix2 i⟩
  refine (aggK_apply h e n j).trans ?_
  refine Eq.trans ?_ (meanR_apply sR cR oR n j).symm
  rw [hs, hc, ho]
  exact mul_div_one _ _ (max_one_ne_zero _)

/-! ## The same operations, printed over each program's own constants -/

/-- The edges' sources and targets. -/
theorem src_eq (e : Cert.KernelIdeal.S2x800000.Idx → BitVec 32) : srcK e = val_main_v1 (F := Ideal) e := rfl
theorem dst_eq (e : Cert.KernelIdeal.S2x800000.Idx → BitVec 32) : dstK e = val_main_v3 (F := Ideal) e := rfl

/-- The count of an index row. -/
theorem cnt_src_eq (e : Cert.KernelIdeal.S2x800000.Idx → BitVec 32) : cntK (srcK e) = val_main_v7 (F := Ideal) e := rfl
theorem cnt_dst_eq1 (e : Cert.KernelIdeal.S2x800000.Idx → BitVec 32) : cntK (dstK e) = val_main_v37 (F := Ideal) e := rfl
theorem cnt_dst_eq2 (e : Cert.KernelIdeal.S2x800000.Idx → BitVec 32) : cntK (dstK e) = val_main_v65 (F := Ideal) e := rfl
theorem cnt_dst_eq3 (e : Cert.KernelIdeal.S2x800000.Idx → BitVec 32) : cntK (dstK e) = val_main_v94 (F := Ideal) e := rfl

/-- The sources with a negative index read from the end. -/
theorem srcN_eq1 (e : Cert.KernelIdeal.S2x800000.Idx → BitVec 32) : srcNK e = val_main_v28 (F := Ideal) e := rfl
theorem srcN_eq2 (e : Cert.KernelIdeal.S2x800000.Idx → BitVec 32) : srcNK e = val_main_v56 (F := Ideal) e := rfl
theorem srcN_eq3 (e : Cert.KernelIdeal.S2x800000.Idx → BitVec 32) : srcNK e = val_main_v85 (F := Ideal) e := rfl

/-- The array of ones the count is raised against. -/
theorem ones_eq1 (i : Cert.ReferenceIdeal.S50000.Idx) : val_main_v38 (F := Ideal) i = 1 :=
  (val_main_v38_apply i).trans one_f32
theorem ones_eq2 (i : Cert.ReferenceIdeal.S50000.Idx) : val_main_v66 (F := Ideal) i = 1 :=
  (val_main_v66_apply i).trans one_f32
theorem ones_eq3 (i : Cert.ReferenceIdeal.S50000.Idx) : val_main_v95 (F := Ideal) i = 1 :=
  (val_main_v95_apply i).trans one_f32

/-- The edge sum of the rows of each layer's input table. -/
theorem sum_eq1 (x0 : (⟨Cert.ReferenceIdeal.S50000x1, .f32⟩ : BufTy).Contents (Elt Ideal)) (x1 : (⟨Cert.ReferenceIdeal.S2x800000, .i32⟩ : BufTy).Contents (Elt Ideal)) (x2 : (⟨Cert.ReferenceIdeal.S128x1, .f32⟩ : BufTy).Contents (Elt Ideal)) (x3 : (⟨Cert.ReferenceIdeal.S128, .f32⟩ : BufTy).Contents (Elt Ideal)) (x4 : (⟨Cert.ReferenceIdeal.S200x128, .f32⟩ : BufTy).Contents (Elt Ideal)) :
    sumK (val_main_v23 (F := Ideal) x0 x1 x2 x3 x4) x1 = val_main_v33 (F := Ideal) x0 x1 x2 x3 x4 := rfl
theorem sum_eq2 (x0 : (⟨Cert.ReferenceIdeal.S50000x1, .f32⟩ : BufTy).Contents (Elt Ideal)) (x1 : (⟨Cert.ReferenceIdeal.S2x800000, .i32⟩ : BufTy).Contents (Elt Ideal)) (x2 : (⟨Cert.ReferenceIdeal.S128x1, .f32⟩ : BufTy).Contents (Elt Ideal)) (x3 : (⟨Cert.ReferenceIdeal.S128, .f32⟩ : BufTy).Contents (Elt Ideal)) (x4 : (⟨Cert.ReferenceIdeal.S200x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) :
    sumK (val_main_v51 (F := Ideal) x0 x1 x2 x3 x4 x5 x6 x7) x1 = val_main_v61 (F := Ideal) x0 x1 x2 x3 x4 x5 x6 x7 := rfl
theorem sum_eq3 (x0 : (⟨Cert.ReferenceIdeal.S50000x1, .f32⟩ : BufTy).Contents (Elt Ideal)) (x1 : (⟨Cert.ReferenceIdeal.S2x800000, .i32⟩ : BufTy).Contents (Elt Ideal)) (x2 : (⟨Cert.ReferenceIdeal.S128x1, .f32⟩ : BufTy).Contents (Elt Ideal)) (x3 : (⟨Cert.ReferenceIdeal.S128, .f32⟩ : BufTy).Contents (Elt Ideal)) (x4 : (⟨Cert.ReferenceIdeal.S200x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x128, .f32⟩ : BufTy).Contents (Elt Ideal)) :
    sumK (val_main_v80 (F := Ideal) x0 x1 x2 x3 x4 x5 x6 x7 x8 x9 x10) x1
      = val_main_v90 (F := Ideal) x0 x1 x2 x3 x4 x5 x6 x7 x8 x9 x10 := rfl

/-! ## The clipped degree and the three means -/

/-- THE CLIPPED DEGREE: the kernel's integer column at (n, 0) is the reference's degree word of node n. -/
theorem deg_eq (e : Cert.KernelIdeal.S2x800000.Idx → BitVec 32) (y : Cert.KernelIdeal.S50000x1.Idx) :
    degK e y = val_main_v9 (F := Ideal) e (ix1 (y 0)) := by
  have h : degK e = shapeCast Cert.KernelIdeal.S50000x1 (val_main_v9 (F := Ideal) e)
      Cert.KernelIdeal.Facts₀.shapeCasts_S50000_S50000x1 := rfl
  rw [h]
  generalize val_main_v9 (F := Ideal) e = w
  exact shapeCast_a_a1_apply w _ y

/-- THE MEAN of the first graph layer. -/
theorem agg_eq1 (x0 : (⟨Cert.ReferenceIdeal.S50000x1, .f32⟩ : BufTy).Contents (Elt Ideal)) (x1 : (⟨Cert.ReferenceIdeal.S2x800000, .i32⟩ : BufTy).Contents (Elt Ideal)) (x2 : (⟨Cert.ReferenceIdeal.S128x1, .f32⟩ : BufTy).Contents (Elt Ideal)) (x3 : (⟨Cert.ReferenceIdeal.S128, .f32⟩ : BufTy).Contents (Elt Ideal)) (x4 : (⟨Cert.ReferenceIdeal.S200x128, .f32⟩ : BufTy).Contents (Elt Ideal))
    (h : Cert.KernelIdeal.S50000x128.Idx → EReal) (hh : h = val_main_v23 (F := Ideal) x0 x1 x2 x3 x4) :
    aggK h x1 = val_main_v42 (F := Ideal) x0 x1 x2 x3 x4 := by
  subst hh
  have hm : val_main_v42 (F := Ideal) x0 x1 x2 x3 x4
      = meanR (val_main_v33 (F := Ideal) x0 x1 x2 x3 x4) (val_main_v37 (F := Ideal) x1) (val_main_v38 (F := Ideal)) := rfl
  rw [hm]
  exact agg_core _ x1 _ _ _ (sum_eq1 x0 x1 x2 x3 x4) (cnt_dst_eq1 x1) ones_eq1

/-- THE MEAN of the second graph layer. -/
theorem agg_eq2 (x0 : (⟨Cert.ReferenceIdeal.S50000x1, .f32⟩ : BufTy).Contents (Elt Ideal)) (x1 : (⟨Cert.ReferenceIdeal.S2x800000, .i32⟩ : BufTy).Contents (Elt Ideal)) (x2 : (⟨Cert.ReferenceIdeal.S128x1, .f32⟩ : BufTy).Contents (Elt Ideal)) (x3 : (⟨Cert.ReferenceIdeal.S128, .f32⟩ : BufTy).Contents (Elt Ideal)) (x4 : (⟨Cert.ReferenceIdeal.S200x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal))
    (h : Cert.KernelIdeal.S50000x128.Idx → EReal) (hh : h = val_main_v51 (F := Ideal) x0 x1 x2 x3 x4 x5 x6 x7) :
    aggK h x1 = val_main_v70 (F := Ideal) x0 x1 x2 x3 x4 x5 x6 x7 := by
  subst hh
  have hm : val_main_v70 (F := Ideal) x0 x1 x2 x3 x4 x5 x6 x7
      = meanR (val_main_v61 (F := Ideal) x0 x1 x2 x3 x4 x5 x6 x7) (val_main_v65 (F := Ideal) x1) (val_main_v66 (F := Ideal)) := rfl
  rw [hm]
  exact agg_core _ x1 _ _ _ (sum_eq2 x0 x1 x2 x3 x4 x5 x6 x7) (cnt_dst_eq2 x1) ones_eq2

/-- THE MEAN of the third graph layer. -/
theorem agg_eq3 (x0 : (⟨Cert.ReferenceIdeal.S50000x1, .f32⟩ : BufTy).Contents (Elt Ideal)) (x1 : (⟨Cert.ReferenceIdeal.S2x800000, .i32⟩ : BufTy).Contents (Elt Ideal)) (x2 : (⟨Cert.ReferenceIdeal.S128x1, .f32⟩ : BufTy).Contents (Elt Ideal)) (x3 : (⟨Cert.ReferenceIdeal.S128, .f32⟩ : BufTy).Contents (Elt Ideal)) (x4 : (⟨Cert.ReferenceIdeal.S200x128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x128, .f32⟩ : BufTy).Contents (Elt Ideal))
    (h : Cert.KernelIdeal.S50000x128.Idx → EReal) (hh : h = val_main_v80 (F := Ideal) x0 x1 x2 x3 x4 x5 x6 x7 x8 x9 x10) :
    aggK h x1 = val_main_v99 (F := Ideal) x0 x1 x2 x3 x4 x5 x6 x7 x8 x9 x10 := by
  subst hh
  have hm : val_main_v99 (F := Ideal) x0 x1 x2 x3 x4 x5 x6 x7 x8 x9 x10
      = meanR (val_main_v90 (F := Ideal) x0 x1 x2 x3 x4 x5 x6 x7 x8 x9 x10) (val_main_v94 (F := Ideal) x1) (val_main_v95 (F := Ideal)) := rfl
  rw [hm]
  exact agg_core _ x1 _ _ _ (sum_eq3 x0 x1 x2 x3 x4 x5 x6 x7 x8 x9 x10) (cnt_dst_eq3 x1) ones_eq3

end Cert.Proof.Agg

end
-- ==== Proof.Bridge.lean ====
/-
  The value claim: the idealized kernel and the idealized reference return the same row of 50000 scores.

  Read over the extended reals (every float a real number or an infinity, every operation exact, every change
  of float format the identity) both programs compute, from the same arguments,

      deg_n   = clip( number of edges leaving n , 0, 199 )
      h0_n    = max( x_n * W_enc + b_enc + deg_emb[deg_n] , 0 )
      mean(h) = ( sum over edges e into n of h_{src e} )  divided by  max( number of edges into n , 1 )
      h1 = max( mean(h0) Wl1ᵀ + bl1 + h0 Wr1ᵀ , 0 ),   h2 = max( mean(h1) Wl2ᵀ + bl2 + h1 Wr2ᵀ , 0 ) + h1,
      h3 = max( mean(h2) Wl3ᵀ + bl3 + h2 Wr3ᵀ , 0 ) + h2,
      score_n = max( h3 Wh1ᵀ + bh1 , 0 ) · Wh2 + bh2 .

  The two texts differ in four places, each an identity on the extended reals:
    * the kernel reads the degree table by a one-hot contraction, sum_d [deg_n = d] * table_{d j}, the reference by a
      row gather table[deg_n]; the clip puts deg_n in 0..199, one summand is 1 * table_{deg_n j} and the others are
      0 * table_{d j} = 0 (zero times any extended real is zero);
    * the kernel multiplies the edge sum by the reciprocal 1 / max(count, 1), the reference divides by max(count, 1);
      the divisor, a maximum with one, is not zero, and on the extended reals dividing by a number that is not zero —
      finite or infinite — IS multiplying by its inverse, so s / d = s * (1 / d) whatever the count is;
    * the kernel adds an all-zero residual in the first layer, the reference adds nothing: x + 0 = x;
    * the kernel's last projection is a product with the 64 output weights summed along the row, the reference's a
      [50000, 64] x [64, 1] contraction: the same sum of 64 products.
  The gathers of node rows along the edges and the scatter-additions into the nodes are the same host operations of
  the same index arrays on both sides.

  The proof goes stage by stage.  Each launch of the kernel leaves in its output array the stage's whole-array formula
  (Proof/Spec.lean) of the arrays it was entered with (Proof/KiArr0 … KiArr4.lean); the reference's operations compute
  the same formula of its own stages (Proof/RefEnc, RefSage, RefMlp.lean); and what a launch is entered with is, by the
  host operations before it (Proof/KiReads0, KiReads, KiReadsB.lean) and by the stages already matched, what the reference feeds
  its operations (Proof/AggLaw.lean for the mean and the degree).
-/
import proofs.«143383_j87711822119113_2_alg».proof.Defs
import proofs.«143383_j87711822119113_2_alg».proof.Proof.KiRun
import proofs.«143383_j87711822119113_2_alg».proof.Proof.RefRunP
import proofs.«143383_j87711822119113_2_alg».proof.Proof.RefReadP
import proofs.«143383_j87711822119113_2_alg».proof.Proof.RefEnc
import proofs.«143383_j87711822119113_2_alg».proof.Proof.RefSage
import proofs.«143383_j87711822119113_2_alg».proof.Proof.RefMlp
import proofs.«143383_j87711822119113_2_alg».proof.Proof.KiArr0
import proofs.«143383_j87711822119113_2_alg».proof.Proof.KiArr1
import proofs.«143383_j87711822119113_2_alg».proof.Proof.KiArr2
import proofs.«143383_j87711822119113_2_alg».proof.Proof.KiArr3
import proofs.«143383_j87711822119113_2_alg».proof.Proof.KiArr4
import proofs.«143383_j87711822119113_2_alg».proof.Proof.KiLayout
import proofs.«143383_j87711822119113_2_alg».proof.Proof.KiHostFns
import proofs.«143383_j87711822119113_2_alg».proof.Proof.KiReads
import proofs.«143383_j87711822119113_2_alg».proof.Proof.KiReads0
import proofs.«143383_j87711822119113_2_alg».proof.Proof.KiReadsB
import proofs.«143383_j87711822119113_2_alg».proof.Proof.AggLaw
import proofs.«143383_j87711822119113_2_alg».proof.Proof.Gen.Pre_finite_inputs
import proofs.«143383_j87711822119113_2_alg».proof.Proof.Gen.ReferenceIdeal

set_option maxRecDepth 16384

noncomputable section

namespace Cert.Proof.Bridge
open Cert.KernelIdeal Cert.KernelIdeal.Gen Cert.KernelIdeal.Hand
open Cert.ReferenceIdeal.ReadP Cert.ReferenceIdeal.RefStage
open Idealize.ShloMosaic Idealize.ShloMosaic.TcCoe Idealize.ShloMosaic.ValueIdx Idealize.SL.Sem

set_option maxHeartbeats 4000000 in
/-- The two programs' result terms are one function of the arguments: the reference's composed term at memory `m'` is
    the kernel run's last boundary read at its result buffer at memory `m`, when the two memories agree on the eighteen
    arguments.  Stage by stage: the encoder, three times (mean of the neighbours, graph layer), the read-out, and the
    final reshape; at each stage the kernel's launch leaves the stage's whole-array formula of what it was entered with,
    the reference's operations compute the same formula, and what the launch was entered with is, by the stages before,
    what the reference feeds its operations. -/
theorem bridge (m : (ℓ : Loc nD τ sig) → Buf (Elt Ideal) ℓ)
    (m' : (ℓ : Loc Cert.ReferenceIdeal.nD Cert.ReferenceIdeal.τ Cert.ReferenceIdeal.sig) → Buf (Elt Ideal) ℓ)
    (c : Dev nD)
    (hagree : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)
      ∧ m' ((c.tc : Thread Cert.ReferenceIdeal.nD Cert.ReferenceIdeal.τ).loc Cert.ReferenceIdeal.main_arg6) = m ((c.tc : Thread nD τ).loc main_arg6)
      ∧ m' ((c.tc : Thread Cert.ReferenceIdeal.nD Cert.ReferenceIdeal.τ).loc Cert.ReferenceIdeal.main_arg7) = m ((c.tc : Thread nD τ).loc main_arg7)
      ∧ m' ((c.tc : Thread Cert.ReferenceIdeal.nD Cert.ReferenceIdeal.τ).loc Cert.ReferenceIdeal.main_arg8) = m ((c.tc : Thread nD τ).loc main_arg8)
      ∧ m' ((c.tc : Thread Cert.ReferenceIdeal.nD Cert.ReferenceIdeal.τ).loc Cert.ReferenceIdeal.main_arg9) = m ((c.tc : Thread nD τ).loc main_arg9)
      ∧ m' ((c.tc : Thread Cert.ReferenceIdeal.nD Cert.ReferenceIdeal.τ).loc Cert.ReferenceIdeal.main_arg10) = m ((c.tc : Thread nD τ).loc main_arg10)
      ∧ m' ((c.tc : Thread Cert.ReferenceIdeal.nD Cert.ReferenceIdeal.τ).loc Cert.ReferenceIdeal.main_arg11) = m ((c.tc : Thread nD τ).loc main_arg11)
      ∧ m' ((c.tc : Thread Cert.ReferenceIdeal.nD Cert.ReferenceIdeal.τ).loc Cert.ReferenceIdeal.main_arg12) = m ((c.tc : Thread nD τ).loc main_arg12)
      ∧ m' ((c.tc : Thread Cert.ReferenceIdeal.nD Cert.ReferenceIdeal.τ).loc Cert.ReferenceIdeal.main_arg13) = m ((c.tc : Thread nD τ).loc main_arg13)
      ∧ m' ((c.tc : Thread Cert.ReferenceIdeal.nD Cert.ReferenceIdeal.τ).loc Cert.ReferenceIdeal.main_arg14) = m ((c.tc : Thread nD τ).loc main_arg14)
      ∧ m' ((c.tc : Thread Cert.ReferenceIdeal.nD Cert.ReferenceIdeal.τ).loc Cert.ReferenceIdeal.main_arg15) = m ((c.tc : Thread nD τ).loc main_arg15)
      ∧ m' ((c.tc : Thread Cert.ReferenceIdeal.nD Cert.ReferenceIdeal.τ).loc Cert.ReferenceIdeal.main_arg16) = m ((c.tc : Thread nD τ).loc main_arg16)
      ∧ m' ((c.tc : Thread Cert.ReferenceIdeal.nD Cert.ReferenceIdeal.τ).loc Cert.ReferenceIdeal.main_arg17) = m ((c.tc : Thread nD τ).loc main_arg17)) :
    Cert.ReferenceIdeal.ValueP.res_main_v122 (F := Ideal) m' c = Gen.V13 m (outs m) c main_v69 := by
  obtain ⟨g0, g1, g2, g3, g4, g5, g6, g7, g8, g9, g10, g11, g12, g13, g14, g15, g16, g17⟩ := hagree
  rw [Cert.ReferenceIdeal.ReadP.val_main_v122_eq, g0, g1, g2, g3, g4, g5, g6, g7, g8, g9, g10, g11, g12, g13, g14, g15, g16, g17]
  -- the encoder
  have e0 : o0 m c = val_main_v23 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
    show (dat0 (En0 m) c).arrAt 5 cfg0.N = _
    rw [arr0_eq, ref_enc, read0_arg0 m c, read0_v20 m c, read0_v19 m c, read0_arg4 m c, read0_v10 m c]
    unfold Cert.Spec.encG
    funext i
    simp only [cast_col128, cast_row128, Cert.Proof.Agg.deg_eq]
  -- the first graph layer (its residual is the zero array)
  have e1 : o1 m c = val_main_v51 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
    show (dat1 (En1 m) c).arrAt 6 cfg1.N = _
    rw [arr1_eq, ref_layer1, read1_v34 m c, read1_v21 m c, read1_arg5 m c, read1_v35 m c, read1_arg7 m c, read1_v22 m c,
      Cert.Proof.Agg.agg_eq1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (o0 m c) e0, e0]
    unfold Cert.Spec.sageG
    funext i
    simp only [cast_row128]
    exact congrArg₂ (· + ·) rfl (zeros_apply _ _)
  -- the second graph layer (its residual is its own input)
  have e2 : o2 m c = val_main_v80 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := by
    show (dat2 (En2 m) c).arrAt 6 cfg2.N = _
    rw [arr2_eq, ref_layer2, read2_v48 m c, read2_v36 m c, read2_arg8 m c, read2_v49 m c, read2_arg10 m c,
      Cert.Proof.Agg.agg_eq2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (o1 m c) e1, e1]
    unfold Cert.Spec.sageG
    funext i
    simp only [cast_row128]
  -- the third graph layer
  have e3 : o3 m c = val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
    show (dat3 (En3 m) c).arrAt 6 cfg3.N = _
    rw [arr3_eq, ref_layer3, read3_v62 m c, read3_v50 m c, read3_arg11 m c, read3_v63 m c, read3_arg13 m c,
      Cert.Proof.Agg.agg_eq3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (o2 m c) e2, e2]
    unfold Cert.Spec.sageG
    funext i
    simp only [cast_row128]
  -- the read-out
  have e4 : o4 m c = val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
    show (dat4 (En4 m) c).arrAt 5 cfg4.N = _
    rw [arr4_eq, ref_mlp, read4_v64 m c, read4_arg14 m c, read4_v65 m c, read4_arg16 m c, read4_v66 m c, e3]
    unfold Cert.Spec.mlpG
    funext i
    simp only [cast_row64, cast_one]
  -- the final reshape, index by index
  rw [read_out m c]
  funext i
  rw [ref_tail, tail_apply, e4]

/-- Both programs run to the end from memories that agree on the arguments, with equal results and unchanged arguments. -/
theorem algebraic : Cert.algebraic_KernelIdeal_ReferenceIdeal := by
  intro m ρ m' ρ' _ hagree
  refine ⟨fun c => Gen.V13 m (outs m) c main_v69, Cert.KernelIdeal.Hand.run (F := Ideal) m ρ, ?_⟩
  refine (θ_run Cert.ReferenceIdeal.defs _ _).mono (fun _ h c => ⟨(h c).1.trans ?_, (h c).2⟩)
    (Cert.ReferenceIdeal.ValueP.run (F := Ideal) m' ρ')
  exact bridge m m' c (hagree c)

end Cert.Proof.Bridge

end
-- ==== Proof.lean ====
/-
  Kernel against reference: a three-layer mean-aggregating graph network on 50000 nodes and 800000 edges
  (encoder, three layers, a two-layer read-out), the dense per-node steps as five tiled launches, the gathers
  along the edges and the additions into the nodes as host operations on both sides.

  The five claims:
    * the kernel's frame, as printed over machine words: five launches among stretches of host operations, each
      launch rewriting its one output array tile by tile, no item writing an argument (Proof/KRun.lean over
      Proof/KRegion0..4.lean; launches 2 and 3 hand one array to two input windows, which hold half of it each:
      Proof/KShare2.lean, KShare3.lean);
    * the same frame of the idealized kernel, the same text read over the extended reals (Proof/KiRun.lean, …);
    * the reference's frame: a host program writes no argument (Proof/RefFrame.lean);
    * preservation: the ideal pass rewrote nothing;
    * equality of the two results over the extended reals (Proof/Bridge.lean): both runs end with their result
      named, and the two names are one function of the arguments, matched stage by stage — the encoder, three times
      the mean over incoming edges and a graph layer, the read-out, the final reshape.
-/
import proofs.«143383_j87711822119113_2_alg».proof.Defs
import proofs.«143383_j87711822119113_2_alg».proof.Proof.Gen.Kernel
import proofs.«143383_j87711822119113_2_alg».proof.Proof.Gen.Kernel.Skeleton
import proofs.«143383_j87711822119113_2_alg».proof.Proof.Gen.Kernel.Launch
import proofs.«143383_j87711822119113_2_alg».proof.Proof.Gen.Kernel.Regions
import proofs.«143383_j87711822119113_2_alg».proof.Proof.Gen.Kernel.Points
import proofs.«143383_j87711822119113_2_alg».proof.Proof.Gen.KernelIdeal
import proofs.«143383_j87711822119113_2_alg».proof.Proof.Gen.KernelIdeal.Skeleton
import proofs.«143383_j87711822119113_2_alg».proof.Proof.Gen.KernelIdeal.Launch
import proofs.«143383_j87711822119113_2_alg».proof.Proof.Gen.KernelIdeal.Regions
import proofs.«143383_j87711822119113_2_alg».proof.Proof.Gen.KernelIdeal.Points
import proofs.«143383_j87711822119113_2_alg».proof.Proof.Gen.ReferenceIdeal
import proofs.«143383_j87711822119113_2_alg».proof.Proof.Gen.Pre_finite_inputs
import Idealize.ShloMosaic.Adequacy
import Idealize.ShloMosaic.Init
import proofs.«143383_j87711822119113_2_alg».proof.Proof.KRun
import proofs.«143383_j87711822119113_2_alg».proof.Proof.KiRun
import proofs.«143383_j87711822119113_2_alg».proof.Proof.RefFrame
import proofs.«143383_j87711822119113_2_alg».proof.Proof.Bridge

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.Proof.RefFrame.frame_ri,
  Cert.Proof.RefFrame.preserves,
  Cert.Proof.Bridge.algebraic⟩

end Cert.Proof

end
